-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S3072x1024 : Shape := ⟨2, ![3072, 1024]⟩
abbrev S1024x3072 : Shape := ⟨2, ![1024, 3072]⟩
abbrev S3072 : Shape := ⟨1, ![3072]⟩
abbrev S1x3072 : Shape := ⟨2, ![1, 3072]⟩
abbrev S512x1024 : Shape := ⟨2, ![512, 1024]⟩
abbrev S512x3072 : Shape := ⟨2, ![512, 3072]⟩
abbrev S1x512x128 : Shape := ⟨3, ![1, 512, 128]⟩
abbrev S1x2048x128 : Shape := ⟨3, ![1, 2048, 128]⟩
abbrev S512x128 : Shape := ⟨2, ![512, 128]⟩
abbrev S2048x128 : Shape := ⟨2, ![2048, 128]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S1x1024 : Shape := ⟨2, ![1, 1024]⟩

abbrev nBuf : Space → Nat
  | .hbm => 28
  | .vmem => 24
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S8192x1024, .f32⟩
  | .hbm, ⟨10, _⟩ => ⟨S3072x1024, .f32⟩
  | .hbm, ⟨11, _⟩ => ⟨S1024x3072, .f32⟩
  | .hbm, ⟨12, _⟩ => ⟨S1024x3072, .bf16⟩
  | .hbm, ⟨13, _⟩ => ⟨S3072, .f32⟩
  | .hbm, ⟨14, _⟩ => ⟨S1x3072, .f32⟩
  | .hbm, ⟨15, _⟩ => ⟨S8192x1024, .bf16⟩
  | .hbm, ⟨16, _⟩ => ⟨S8192x1024, .bf16⟩
  | .hbm, ⟨17, _⟩ => ⟨S8192x1024, .bf16⟩
  | .hbm, ⟨18, _⟩ => ⟨S4x2048x1024, .bf16⟩
  | .hbm, ⟨19, _⟩ => ⟨S4x2048x1024, .bf16⟩
  | .hbm, ⟨20, _⟩ => ⟨S4x2048x1024, .bf16⟩
  | .hbm, ⟨21, _⟩ => ⟨S4x2048x1024, .bf16⟩
  | .hbm, ⟨22, _⟩ => ⟨S8192x1024, .bf16⟩
  | .hbm, ⟨23, _⟩ => ⟨S1024x1024, .f32⟩
  | .hbm, ⟨24, _⟩ => ⟨S1024x1024, .bf16⟩
  | .hbm, ⟨25, _⟩ => ⟨S1x1024, .f32⟩
  | .hbm, ⟨26, _⟩ => ⟨S8192x1024, .f32⟩
  | .hbm, ⟨27, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x3072, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x512x128, .bf16⟩
  | .local _ .vmem, ⟨11, _⟩ => ⟨S1x512x128, .bf16⟩
  | .local _ .vmem, ⟨12, _⟩ => ⟨S1x2048x128, .bf16⟩
  | .local _ .vmem, ⟨13, _⟩ => ⟨S1x2048x128, .bf16⟩
  | .local _ .vmem, ⟨14, _⟩ => ⟨S1x2048x128, .bf16⟩
  | .local _ .vmem, ⟨15, _⟩ => ⟨S1x2048x128, .bf16⟩
  | .local _ .vmem, ⟨16, _⟩ => ⟨S1x512x128, .bf16⟩
  | .local _ .vmem, ⟨17, _⟩ => ⟨S1x512x128, .bf16⟩
  | .local _ .vmem, ⟨18, _⟩ => ⟨S512x1024, .bf16⟩
  | .local _ .vmem, ⟨19, _⟩ => ⟨S512x1024, .bf16⟩
  | .local _ .vmem, ⟨20, _⟩ => ⟨S1024x1024, .bf16⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨3, ![4, 8, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x512x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S4x2048x1024_S8192x1024 : S4x2048x1024.ShapeCasts S8192x1024
  concatenates_S1024x1024_S1024x1024_S1024x1024_S3072x1024_d0 : Shape.Concatenates [S1024x1024, S1024x1024, S1024x1024] S3072x1024 0
  transposes_S3072x1024_S1024x3072_1_0 : S3072x1024.Transposes [1, 0] S1024x3072
  bitsLt_bf16_f32 : FTy.bits .bf16 < FTy.bits .f32
  concatenates_S1024_S1024_S1024_S3072_d0 : Shape.Concatenates [S1024, S1024, S1024] S3072 0
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  slices_S512x3072_o0_0_S512x1024 : S512x3072.Slices ![0, 0] S512x1024
  slices_S512x3072_o0_1024_S512x1024 : S512x3072.Slices ![0, 1024] S512x1024
  slices_S512x3072_o0_2048_S512x1024 : S512x3072.Slices ![0, 2048] S512x1024
  packedbf16_S512x1024_S512x1024_0_0 : (Rect.unit (s := S512x1024) ![0, 0] S512x1024.size inb_S512x1024_S512x1024_0_0).PackedRows (EltTy.packing .bf16)
  shapeCasts_S8192x1024_S4x2048x1024 : S8192x1024.ShapeCasts S4x2048x1024
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  slices_S512x128_o0_0_S512x64 : S512x128.Slices ![0, 0] S512x64
  slices_S2048x128_o0_0_S2048x64 : S2048x128.Slices ![0, 0] S2048x64
  reduces_S512x2048_S512 : S512x2048.Reduces [1] S512
  shapeCasts_S512_S512x1 : S512.ShapeCasts S512x1
  broadcasts_S512x1_S512x2048 : S512x1.Broadcasts S512x2048
  broadcasts_S512x1_S512x64 : S512x1.Broadcasts S512x64
  slices_S512x128_o0_64_S512x64 : S512x128.Slices ![0, 64] S512x64
  slices_S2048x128_o0_64_S2048x64 : S2048x128.Slices ![0, 64] S2048x64
  concatenates_S512x64_S512x64_S512x128_d1 : Shape.Concatenates [S512x64, S512x64] S512x128 1
  shapeCasts_S512x128_S1x512x128 : S512x128.ShapeCasts S1x512x128
  packedbf16_S1x512x128_S1x512x128_0_0_0 : (Rect.unit (s := S1x512x128) ![0, 0, 0] S1x512x128.size inb_S1x512x128_S1x512x128_0_0_0).PackedRows (EltTy.packing .bf16)
  transposes_S1024x1024_S1024x1024_1_0 : S1024x1024.Transposes [1, 0] S1024x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x1024_S1024x3072_S512x3072_1_0_0_1_n_n_wf : DotDims.WF S512x1024 S1024x3072 S512x3072 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .bf16 = 32 ∨ (Rect.block (s := S8192x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .bf16 = 32 ∨ (Rect.block (s := S8192x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .bf16 = 32 ∨ (Rect.block (s := S8192x1024) S512x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S4x2048x1024.size a
  hwx1_0 : ∀ i : grid1.Coords, EltTy.bits .bf16 = 32 ∨ (Rect.block (s := S4x2048x1024) S1x512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S4x2048x1024.size a
  hwx1_1 : ∀ i : grid1.Coords, EltTy.bits .bf16 = 32 ∨ (Rect.block (s := S4x2048x1024) S1x2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x128.size a ≤ S4x2048x1024.size a
  hwx1_2 : ∀ i : grid1.Coords, EltTy.bits .bf16 = 32 ∨ (Rect.block (s := S4x2048x1024) S1x2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x128.size a ≤ S4x2048x1024.size a
  hwx1_3 : ∀ i : grid1.Coords, EltTy.bits .bf16 = 32 ∨ (Rect.block (s := S4x2048x1024) S1x512x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .bf16 = 32 ∨ (Rect.block (s := S8192x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S8192x1024.size a
  hwx2_3 : ∀ i : grid2.Coords, EltTy.bits .f32 = 32 ∨ (Rect.block (s := S8192x1024) S512x1024.size (cc2_transform_3 i) (hinb2_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_2) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v7) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v11) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v14) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v15) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x16x64 : Shape := ⟨4, ![4, 2048, 16, 64]⟩
abbrev S4x16x2048x64 : Shape := ⟨4, ![4, 16, 2048, 64]⟩
abbrev S_ : Shape := ⟨0, ![]⟩
abbrev S4x16x2048x2048 : Shape := ⟨4, ![4, 16, 2048, 2048]⟩
abbrev S4x16x2048 : Shape := ⟨3, ![4, 16, 2048]⟩
abbrev S4x16x2048x1 : Shape := ⟨4, ![4, 16, 2048, 1]⟩

abbrev nBuf : Space → Nat
  | .hbm => 55
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4x2048x1024, .f32⟩
  | .hbm, ⟨10, _⟩ => ⟨S1x1x1024, .f32⟩
  | .hbm, ⟨11, _⟩ => ⟨S4x2048x1024, .f32⟩
  | .hbm, ⟨12, _⟩ => ⟨S4x2048x1024, .f32⟩
  | .hbm, ⟨13, _⟩ => ⟨S4x2048x16x64, .f32⟩
  | .hbm, ⟨14, _⟩ => ⟨S4x16x2048x64, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x16x64, .f32⟩
  | .hbm, ⟨20, _⟩ => ⟨S4x16x2048x64, .f32⟩
  | .hbm, ⟨21, _⟩ => ⟨S4x2048x1024, .f32⟩
  | .hbm, ⟨22, _⟩ => ⟨S1x1x1024, .f32⟩
  | .hbm, ⟨23, _⟩ => ⟨S4x2048x1024, .f32⟩
  | .hbm, ⟨24, _⟩ => ⟨S4x2048x1024, .f32⟩
  | .hbm, ⟨25, _⟩ => ⟨S4x2048x16x64, .f32⟩
  | .hbm, ⟨26, _⟩ => ⟨S4x16x2048x64, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S4x16x2048x2048, .f32⟩
  | .hbm, ⟨32, _⟩ => ⟨S4x16x2048x2048, .f32⟩
  | .hbm, ⟨33, _⟩ => ⟨S4x16x2048x2048, .f32⟩
  | .hbm, ⟨34, _⟩ => ⟨S_, .f32⟩
  | .hbm, ⟨35, _⟩ => ⟨S4x16x2048, .f32⟩
  | .hbm, ⟨36, _⟩ => ⟨S_, .f32⟩
  | .hbm, ⟨37, _⟩ => ⟨S4x16x2048, .f32⟩
  | .hbm, ⟨38, _⟩ => ⟨S4x16x2048, .f32⟩
  | .hbm, ⟨39, _⟩ => ⟨S4x16x2048x1, .f32⟩
  | .hbm, ⟨40, _⟩ => ⟨S4x16x2048x2048, .f32⟩
  | .hbm, ⟨41, _⟩ => ⟨S4x16x2048x2048, .f32⟩
  | .hbm, ⟨42, _⟩ => ⟨S4x16x2048x2048, .f32⟩
  | .hbm, ⟨43, _⟩ => ⟨S_, .f32⟩
  | .hbm, ⟨44, _⟩ => ⟨S4x16x2048, .f32⟩
  | .hbm, ⟨45, _⟩ => ⟨S4x16x2048x1, .f32⟩
  | .hbm, ⟨46, _⟩ => ⟨S4x16x2048x2048, .f32⟩
  | .hbm, ⟨47, _⟩ => ⟨S4x16x2048x2048, .f32⟩
  | .hbm, ⟨48, _⟩ => ⟨S4x16x2048x64, .f32⟩
  | .hbm, ⟨49, _⟩ => ⟨S4x2048x16x64, .f32⟩
  | .hbm, ⟨50, _⟩ => ⟨S4x2048x1024, .f32⟩
  | .hbm, ⟨51, _⟩ => ⟨S4x2048x1024, .f32⟩
  | .hbm, ⟨52, _⟩ => ⟨S1x1x1024, .f32⟩
  | .hbm, ⟨53, _⟩ => ⟨S4x2048x1024, .f32⟩
  | .hbm, ⟨54, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S1024x1024_S4x2048x1024_2_1_01_0_n_n_wf : DotDims.WF S4x2048x1024 S1024x1024 S4x2048x1024 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.Kernel.Region0.lean ====
/-
  Region 0 of the program's entry function is the fused query/key/value projection. Its body reads each input window's staging
  buffer whole, computes, and stores each output window's staging buffer whole, so at every grid point the body takes
  "the inputs' buffers at their blocks, the outputs' at anything" to "the inputs' unchanged, each output's at one pure
  function of the input blocks". This module states that function (`out0_W`), proves the body's triple by symbolic
  execution, packages it as the pipeline's proof data at ANY contents `V` of the core's buffers on entry, and derives
  the obligation the launch theorem asks of the body at a generic point.
-/
import proofs.«144204_j5497558139332_2_alg».proof.Proof.Gen.Kernel.Launch
import proofs.«144204_j5497558139332_2_alg».proof.Proof.Gen.Kernel.Skeleton
import proofs.«144204_j5497558139332_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or kept from an earlier
    point (then the block index has not moved), for any proof data over the entry contents whose body leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or kept from an earlier
    point (then the block index has not moved), for any proof data over the entry contents whose body leaves it in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or kept from an earlier
    point (then the block index has not moved), for any proof data over the entry contents whose body leaves it in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole staging buffer -/

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S1x3072 := Rect.unit (s := S1x3072) ![0, 0] S1x3072.size inb_S1x3072_S1x3072_0_0
abbrev r0_3 : Rect S512x1024 := Rect.unit (s := S512x1024) ![0, 0] S512x1024.size inb_S512x1024_S512x1024_0_0
abbrev r0_4 : Rect S512x1024 := Rect.unit (s := S512x1024) ![0, 0] S512x1024.size inb_S512x1024_S512x1024_0_0
abbrev r0_5 : Rect S512x1024 := Rect.unit (s := S512x1024) ![0, 0] S512x1024.size inb_S512x1024_S512x1024_0_0

/-! ## What the body leaves in each output window's buffer -/

/-- Output window 3's staging buffer after the body: its one whole-buffer store, of the body's arithmetic on the loaded inputs. -/
def out0_3 (x0 : Vec F S512x1024 .f32) (x1 : Vec F S1024x3072 .bf16) (x2 : Vec F S1x3072 .f32) : Vec F S512x1024 .bf16 :=
  View.canon [⟨r0_3, k0_pay2 (View.ld x0 r0_0) (View.ld x1 r0_1) (View.ld x2 r0_2)⟩]

/-- The one store covers the buffer. -/
theorem cover0_3 (p0 : Vec F S512x1024 .bf16) (y : S512x1024.Idx) :
    ∃ pc ∈ ([⟨r0_3, p0⟩] : List (View.Piece (Elt F) S512x1024 .bf16)), y ∈ pc.1.set :=
  View.cover_of_tiled [⟨r0_3, p0⟩] S512x1024.size (by rfl) y

/-- Output window 4's staging buffer after the body: its one whole-buffer store, of the body's arithmetic on the loaded inputs. -/
def out0_4 (x0 : Vec F S512x1024 .f32) (x1 : Vec F S1024x3072 .bf16) (x2 : Vec F S1x3072 .f32) : Vec F S512x1024 .bf16 :=
  View.canon [⟨r0_4, k0_pay3 (View.ld x0 r0_0) (View.ld x1 r0_1) (View.ld x2 r0_2)⟩]

/-- The one store covers the buffer. -/
theorem cover0_4 (p0 : Vec F S512x1024 .bf16) (y : S512x1024.Idx) :
    ∃ pc ∈ ([⟨r0_4, p0⟩] : List (View.Piece (Elt F) S512x1024 .bf16)), y ∈ pc.1.set :=
  View.cover_of_tiled [⟨r0_4, p0⟩] S512x1024.size (by rfl) y

/-- Output window 5's staging buffer after the body: its one whole-buffer store, of the body's arithmetic on the loaded inputs. -/
def out0_5 (x0 : Vec F S512x1024 .f32) (x1 : Vec F S1024x3072 .bf16) (x2 : Vec F S1x3072 .f32) : Vec F S512x1024 .bf16 :=
  View.canon [⟨r0_5, k0_pay4 (View.ld x0 r0_0) (View.ld x1 r0_1) (View.ld x2 r0_2)⟩]

/-- The one store covers the buffer. -/
theorem cover0_5 (p0 : Vec F S512x1024 .bf16) (y : S512x1024.Idx) :
    ∃ pc ∈ ([⟨r0_5, p0⟩] : List (View.Piece (Elt F) S512x1024 .bf16)), y ∈ pc.1.set :=
  View.cover_of_tiled [⟨r0_5, p0⟩] S512x1024.size (by rfl) y

/-! ## The body's triple -/

set_option maxHeartbeats 4000000 in
/-- The body on whole staging memrefs — the inputs' at contents `xW`, the outputs' at anything — runs to a continuation
    holding the inputs' as they were and each output's at `out0_W` of the inputs'. -/
theorem sound_kernel0 (c : Dev nD) (E : Set ℕ) (i : grid0.Coords) (a0 : Memref sig .tc .vmem S512x1024 .f32) (ha0 : a0.IsWhole) (a1 : Memref sig .tc .vmem S1024x3072 .bf16) (ha1 : a1.IsWhole) (a2 : Memref sig .tc .vmem S1x3072 .f32) (ha2 : a2.IsWhole) (a3 : Memref sig .tc .vmem S512x1024 .bf16) (ha3 : a3.IsWhole) (a4 : Memref sig .tc .vmem S512x1024 .bf16) (ha4 : a4.IsWhole) (a5 : Memref sig .tc .vmem S512x1024 .bf16) (ha5 : a5.IsWhole)
    (x0 : Vec F S512x1024 .f32) (x1 : Vec F S1024x3072 .bf16) (x2 : Vec F S1x3072 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d) ∗ (∃ d, owns (c : Thread nD τ) a4 fullShare d) ∗ (∃ d, owns (c : Thread nD τ) a5 fullShare d)
        ∗ (iprop(owns (c : Thread nD τ) a0 fullShare x0 ∗ owns (c : Thread nD τ) a1 fullShare x1 ∗ owns (c : Thread nD τ) a2 fullShare x2 ∗ owns (c : Thread nD τ) a3 fullShare (out0_3 x0 x1 x2) ∗ owns (c : Thread nD τ) a4 fullShare (out0_4 x0 x1 x2) ∗ owns (c : Thread nD τ) a5 fullShare (out0_5 x0 x1 x2)) -∗ K ⟨⟩))
      ⊢ wp frame (wpE (defs₀ (F := F)) Variants.none c none) E (cc0__qkv_dense_kernel i a0 ha0 a1 ha1 a2 ha2 a3 ha3 a4 ha4 a5 ha5) K := by
  simp only [cc0__qkv_dense_kernel_eq_skeleton]; unfold cc0__qkv_dense_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try dsimp only
    exact View.read_writes_eq_canon _ _ _ (cover0_3 _)
  isplitl [H4]
  · iexists _; isplitr
    swap; · iexact H4
    ipureintro
    try dsimp only
    exact View.read_writes_eq_canon _ _ _ (cover0_4 _)
  iexists _; isplitr
  swap; · iexact H5
  ipureintro
  try dsimp only
  exact View.read_writes_eq_canon _ _ _ (cover0_5 _)

/-! ## The pipeline's proof data -/

/-- The proof data of this pipeline on core `c`: the arrays as the region finds them; after the body at point `t` each
    input's buffer at its block and each output's at `out0_W` of the input blocks; the invariant is the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 1000000 in
/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The launch theorem's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.Region1.lean ====
/-
  Region 1 of the program's entry function is the attention of one pair of heads on one tile of queries. Its body reads each input window's staging
  buffer whole, computes, and stores each output window's staging buffer whole, so at every grid point the body takes
  "the inputs' buffers at their blocks, the outputs' at anything" to "the inputs' unchanged, each output's at one pure
  function of the input blocks". This module states that function (`out1_W`), proves the body's triple by symbolic
  execution, packages it as the pipeline's proof data at ANY contents `V` of the core's buffers on entry, and derives
  the obligation the launch theorem asks of the body at a generic point.
-/
import proofs.«144204_j5497558139332_2_alg».proof.Proof.Gen.Kernel.Launch
import proofs.«144204_j5497558139332_2_alg».proof.Proof.Gen.Kernel.Skeleton
import proofs.«144204_j5497558139332_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or kept from an earlier
    point (then the block index has not moved), for any proof data over the entry contents whose body leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or kept from an earlier
    point (then the block index has not moved), for any proof data over the entry contents whose body leaves it in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or kept from an earlier
    point (then the block index has not moved), for any proof data over the entry contents whose body leaves it in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole staging buffer -/

abbrev r1_0 : Rect S1x512x128 := Rect.unit (s := S1x512x128) ![0, 0, 0] S1x512x128.size inb_S1x512x128_S1x512x128_0_0_0
abbrev r1_1 : Rect S1x2048x128 := Rect.unit (s := S1x2048x128) ![0, 0, 0] S1x2048x128.size inb_S1x2048x128_S1x2048x128_0_0_0
abbrev r1_2 : Rect S1x2048x128 := Rect.unit (s := S1x2048x128) ![0, 0, 0] S1x2048x128.size inb_S1x2048x128_S1x2048x128_0_0_0
abbrev r1_3 : Rect S1x512x128 := Rect.unit (s := S1x512x128) ![0, 0, 0] S1x512x128.size inb_S1x512x128_S1x512x128_0_0_0

/-! ## What the body leaves in each output window's buffer -/

/-- Output window 3's staging buffer after the body: its one whole-buffer store, of the body's arithmetic on the loaded inputs. -/
def out1_3 (x0 : Vec F S1x512x128 .bf16) (x1 : Vec F S1x2048x128 .bf16) (x2 : Vec F S1x2048x128 .bf16) : Vec F S1x512x128 .bf16 :=
  View.canon [⟨r1_3, k1_pay1 (k1_pay2 (View.ld x0 r1_0) (View.ld x1 r1_1) (View.ld x2 r1_2))⟩]

/-- The one store covers the buffer. -/
theorem cover1_3 (p0 : Vec F S1x512x128 .bf16) (y : S1x512x128.Idx) :
    ∃ pc ∈ ([⟨r1_3, p0⟩] : List (View.Piece (Elt F) S1x512x128 .bf16)), y ∈ pc.1.set :=
  View.cover_of_tiled [⟨r1_3, p0⟩] S1x512x128.size (by rfl) y

/-! ## The body's triple -/

set_option maxHeartbeats 4000000 in
/-- The body on whole staging memrefs — the inputs' at contents `xW`, the outputs' at anything — runs to a continuation
    holding the inputs' as they were and each output's at `out1_W` of the inputs'. -/
theorem sound_kernel1 (c : Dev nD) (E : Set ℕ) (i : grid1.Coords) (a0 : Memref sig .tc .vmem S1x512x128 .bf16) (ha0 : a0.IsWhole) (a1 : Memref sig .tc .vmem S1x2048x128 .bf16) (ha1 : a1.IsWhole) (a2 : Memref sig .tc .vmem S1x2048x128 .bf16) (ha2 : a2.IsWhole) (a3 : Memref sig .tc .vmem S1x512x128 .bf16) (ha3 : a3.IsWhole)
    (x0 : Vec F S1x512x128 .bf16) (x1 : Vec F S1x2048x128 .bf16) (x2 : Vec F S1x2048x128 .bf16) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out1_3 x0 x1 x2)) -∗ K ⟨⟩))
      ⊢ wp frame (wpE (defs₀ (F := F)) Variants.none c none) E (cc1__attn_kernel i a0 ha0 a1 ha1 a2 ha2 a3 ha3) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _)

/-! ## The pipeline's proof data -/

/-- The proof data of this pipeline on core `c`: the arrays as the region finds them; after the body at point `t` each
    input's buffer at its block and each output's at `out1_W` of the input blocks; the invariant is the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 1000000 in
/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.Region2.lean ====
/-
  Region 2 of the program's entry function is the output projection. Its body reads each input window's staging
  buffer whole, computes, and stores each output window's staging buffer whole, so at every grid point the body takes
  "the inputs' buffers at their blocks, the outputs' at anything" to "the inputs' unchanged, each output's at one pure
  function of the input blocks". This module states that function (`out2_W`), proves the body's triple by symbolic
  execution, packages it as the pipeline's proof data at ANY contents `V` of the core's buffers on entry, and derives
  the obligation the launch theorem asks of the body at a generic point.
-/
import proofs.«144204_j5497558139332_2_alg».proof.Proof.Gen.Kernel.Launch
import proofs.«144204_j5497558139332_2_alg».proof.Proof.Gen.Kernel.Skeleton
import proofs.«144204_j5497558139332_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or kept from an earlier
    point (then the block index has not moved), for any proof data over the entry contents whose body leaves it in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or kept from an earlier
    point (then the block index has not moved), for any proof data over the entry contents whose body leaves it in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or kept from an earlier
    point (then the block index has not moved), for any proof data over the entry contents whose body leaves it in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is of a whole staging buffer -/

abbrev r2_0 : Rect S512x1024 := Rect.unit (s := S512x1024) ![0, 0] S512x1024.size inb_S512x1024_S512x1024_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0
abbrev r2_3 : Rect S512x1024 := Rect.unit (s := S512x1024) ![0, 0] S512x1024.size inb_S512x1024_S512x1024_0_0

/-! ## What the body leaves in each output window's buffer -/

/-- Output window 3's staging buffer after the body: its one whole-buffer store, of the body's arithmetic on the loaded inputs. -/
def out2_3 (x0 : Vec F S512x1024 .bf16) (x1 : Vec F S1024x1024 .bf16) (x2 : Vec F S1x1024 .f32) : Vec F S512x1024 .f32 :=
  View.canon [⟨r2_3, k2_pay1 (View.ld x0 r2_0) (View.ld x1 r2_1) (View.ld x2 r2_2)⟩]

/-- The one store covers the buffer. -/
theorem cover2_3 (p0 : Vec F S512x1024 .f32) (y : S512x1024.Idx) :
    ∃ pc ∈ ([⟨r2_3, p0⟩] : List (View.Piece (Elt F) S512x1024 .f32)), y ∈ pc.1.set :=
  View.cover_of_tiled [⟨r2_3, p0⟩] S512x1024.size (by rfl) y

/-! ## The body's triple -/

set_option maxHeartbeats 4000000 in
/-- The body on whole staging memrefs — the inputs' at contents `xW`, the outputs' at anything — runs to a continuation
    holding the inputs' as they were and each output's at `out2_W` of the inputs'. -/
theorem sound_kernel2 (c : Dev nD) (E : Set ℕ) (i : grid2.Coords) (a0 : Memref sig .tc .vmem S512x1024 .bf16) (ha0 : a0.IsWhole) (a1 : Memref sig .tc .vmem S1024x1024 .bf16) (ha1 : a1.IsWhole) (a2 : Memref sig .tc .vmem S1x1024 .f32) (ha2 : a2.IsWhole) (a3 : Memref sig .tc .vmem S512x1024 .f32) (ha3 : a3.IsWhole)
    (x0 : Vec F S512x1024 .bf16) (x1 : Vec F S1024x1024 .bf16) (x2 : Vec F S1x1024 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out2_3 x0 x1 x2)) -∗ K ⟨⟩))
      ⊢ wp frame (wpE (defs₀ (F := F)) Variants.none c none) E (cc2__dense_kernel i a0 ha0 a1 ha1 a2 ha2 a3 ha3) K := by
  simp only [cc2__dense_kernel_eq_skeleton]; unfold cc2__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover2_3 _)

/-! ## The pipeline's proof data -/

/-- The proof data of this pipeline on core `c`: the arrays as the region finds them; after the body at point `t` each
    input's buffer at its block and each output's at `out2_W` of the input blocks; the invariant is the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

set_option maxHeartbeats 1000000 in
/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.Kernel.Run.lean ====
/-
  The whole run of the entry function: three host stretches of re-layouts interleaved with the three kernel regions, then
  a last re-layout. The contents of every buffer the kernels do not scope are followed from the launch memory through
  the seven segments (`Bd0` … `Bd7`): a host stretch applies its operations; a region leaves each of its output arrays at
  what its grid points' write-backs fold to and everything else as it found it. Every weakly fair execution terminates
  without a fault with every such buffer at `Bd7` (`run_all`); no segment writes an argument array, so the arguments end
  as launched (`frame`).
-/
import proofs.«144204_j5497558139332_2_alg».proof.Proof.Kernel.Region0
import proofs.«144204_j5497558139332_2_alg».proof.Proof.Kernel.Region1
import proofs.«144204_j5497558139332_2_alg».proof.Proof.Kernel.Region2
import proofs.«144204_j5497558139332_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev Bd0 : Dev nD → Valuation τ sig (Elt F) := fun c b => (s₀ m ρ).mem ((c : Dev nD), b)
/-- After the host stretch before region 0: region 0's entry contents. -/
abbrev Bd1 : Dev nD → Valuation τ sig (Elt F) := fun c => StableHlo.after hostOps0 (Bd0 m ρ c)
/-- The same read at the core's references (what region 0's proof data take). -/
abbrev En0 : (c : Dev nD) → (b : Ref sig .tc) → Buf (Elt F) ((c : Thread nD τ).loc b) := fun c b => Bd1 m ρ c b
/-- At region 0's exit: its arrays at what the pipeline leaves (an input as entered, an output at its write-backs folded),
    every other buffer as entered. -/
def Bd2 (c : Dev nD) : Valuation τ sig (Elt F) :=
  Pipeline.withArrays spec0 c (Bd1 m ρ c) fun w => (dat0 (En0 m ρ) c).arrAt w cfg0.N
theorem Bd2_arr (c : Dev nD) (w : Fin cfg0.W) :
    Bd2 m ρ c (Proc.devRef .tc (Pipeline.arrRef spec0 w)) = (dat0 (En0 m ρ) c).arrAt w cfg0.N := by
  unfold Bd2; exact Pipeline.withArrays_arr spec0 launch0.win.arr_inj c _ _ w
theorem Bd2_of_ne (c : Dev nD) (b : Ref sig .tc) (hb : ∀ w, Pipeline.arrRef spec0 w ≠ b) :
    Bd2 m ρ c (Proc.devRef .tc b) = Bd1 m ρ c (Proc.devRef .tc b) := by
  unfold Bd2; exact Pipeline.withArrays_of_ne spec0 c _ _ b hb
abbrev Ex0 : (c : Dev nD) → (b : Ref sig .tc) → Buf (Elt F) ((c : Thread nD τ).loc b) := fun c b => Bd2 m ρ c b
theorem hF0 (c : Dev nD) (w : Fin cfg0.W) : (dat0 (En0 m ρ) c).arrAt w cfg0.N = Ex0 m ρ c (Pipeline.arrRef spec0 w) :=
  (Bd2_arr m ρ c w).symm
theorem hrest0 (c : Dev nD) : ∀ b, b ∉ Finset.univ.image (Pipeline.arrRef spec0) → Ex0 m ρ c b = En0 m ρ c b :=
  fun b hb => Bd2_of_ne m ρ c b fun w e => hb (Finset.mem_image.mpr ⟨w, Finset.mem_univ _, e⟩)

/-- After the host stretch before region 1: region 1's entry contents. -/
abbrev Bd3 : Dev nD → Valuation τ sig (Elt F) := fun c => StableHlo.after hostOps1 (Bd2 m ρ c)
/-- The same read at the core's references (what region 1's proof data take). -/
abbrev En1 : (c : Dev nD) → (b : Ref sig .tc) → Buf (Elt F) ((c : Thread nD τ).loc b) := fun c b => Bd3 m ρ c b
/-- At region 1's exit: its arrays at what the pipeline leaves (an input as entered, an output at its write-backs folded),
    every other buffer as entered. -/
def Bd4 (c : Dev nD) : Valuation τ sig (Elt F) :=
  Pipeline.withArrays spec1 c (Bd3 m ρ c) fun w => (dat1 (En1 m ρ) c).arrAt w cfg1.N
theorem Bd4_arr (c : Dev nD) (w : Fin cfg1.W) :
    Bd4 m ρ c (Proc.devRef .tc (Pipeline.arrRef spec1 w)) = (dat1 (En1 m ρ) c).arrAt w cfg1.N := by
  unfold Bd4; exact Pipeline.withArrays_arr spec1 launch1.win.arr_inj c _ _ w
theorem Bd4_of_ne (c : Dev nD) (b : Ref sig .tc) (hb : ∀ w, Pipeline.arrRef spec1 w ≠ b) :
    Bd4 m ρ c (Proc.devRef .tc b) = Bd3 m ρ c (Proc.devRef .tc b) := by
  unfold Bd4; exact Pipeline.withArrays_of_ne spec1 c _ _ b hb
abbrev Ex1 : (c : Dev nD) → (b : Ref sig .tc) → Buf (Elt F) ((c : Thread nD τ).loc b) := fun c b => Bd4 m ρ c b
theorem hF1 (c : Dev nD) (w : Fin cfg1.W) : (dat1 (En1 m ρ) c).arrAt w cfg1.N = Ex1 m ρ c (Pipeline.arrRef spec1 w) :=
  (Bd4_arr m ρ c w).symm
theorem hrest1 (c : Dev nD) : ∀ b, b ∉ Finset.univ.image (Pipeline.arrRef spec1) → Ex1 m ρ c b = En1 m ρ c b :=
  fun b hb => Bd4_of_ne m ρ c b fun w e => hb (Finset.mem_image.mpr ⟨w, Finset.mem_univ _, e⟩)

/-- After the host stretch before region 2: region 2's entry contents. -/
abbrev Bd5 : Dev nD → Valuation τ sig (Elt F) := fun c => StableHlo.after hostOps2 (Bd4 m ρ c)
/-- The same read at the core's references (what region 2's proof data take). -/
abbrev En2 : (c : Dev nD) → (b : Ref sig .tc) → Buf (Elt F) ((c : Thread nD τ).loc b) := fun c b => Bd5 m ρ c b
/-- At region 2's exit: its arrays at what the pipeline leaves (an input as entered, an output at its write-backs folded),
    every other buffer as entered. -/
def Bd6 (c : Dev nD) : Valuation τ sig (Elt F) :=
  Pipeline.withArrays spec2 c (Bd5 m ρ c) fun w => (dat2 (En2 m ρ) c).arrAt w cfg2.N
theorem Bd6_arr (c : Dev nD) (w : Fin cfg2.W) :
    Bd6 m ρ c (Proc.devRef .tc (Pipeline.arrRef spec2 w)) = (dat2 (En2 m ρ) c).arrAt w cfg2.N := by
  unfold Bd6; exact Pipeline.withArrays_arr spec2 launch2.win.arr_inj c _ _ w
theorem Bd6_of_ne (c : Dev nD) (b : Ref sig .tc) (hb : ∀ w, Pipeline.arrRef spec2 w ≠ b) :
    Bd6 m ρ c (Proc.devRef .tc b) = Bd5 m ρ c (Proc.devRef .tc b) := by
  unfold Bd6; exact Pipeline.withArrays_of_ne spec2 c _ _ b hb
abbrev Ex2 : (c : Dev nD) → (b : Ref sig .tc) → Buf (Elt F) ((c : Thread nD τ).loc b) := fun c b => Bd6 m ρ c b
theorem hF2 (c : Dev nD) (w : Fin cfg2.W) : (dat2 (En2 m ρ) c).arrAt w cfg2.N = Ex2 m ρ c (Pipeline.arrRef spec2 w) :=
  (Bd6_arr m ρ c w).symm
theorem hrest2 (c : Dev nD) : ∀ b, b ∉ Finset.univ.image (Pipeline.arrRef spec2) → Ex2 m ρ c b = En2 m ρ c b :=
  fun b hb => Bd6_of_ne m ρ c b fun w e => hb (Finset.mem_image.mpr ⟨w, Finset.mem_univ _, e⟩)

/-- After the last host stretch: the contents the run ends with. -/
abbrev Bd7 : Dev nD → Valuation τ sig (Elt F) := fun c => StableHlo.after hostOps3 (Bd6 m ρ c)

/-! ### The arguments end as launched: no host operation writes one and no region has one among its arrays -/

theorem Bd7_main_arg0 (c : Dev nD) : Bd7 m ρ c (Proc.devRef .tc main_arg0) = m ((c : Thread nD τ).loc main_arg0) :=
  calc Bd7 m ρ c (Proc.devRef .tc main_arg0)
    _ = Bd6 m ρ c (Proc.devRef .tc main_arg0) := StableHlo.after_of_writes_sub hostOps3 _ hostOps3_writes (by decide)
    _ = Bd5 m ρ c (Proc.devRef .tc main_arg0) := Bd6_of_ne m ρ c main_arg0 (by decide)
    _ = Bd4 m ρ c (Proc.devRef .tc main_arg0) := StableHlo.after_of_writes_sub hostOps2 _ hostOps2_writes (by decide)
    _ = Bd3 m ρ c (Proc.devRef .tc main_arg0) := Bd4_of_ne m ρ c main_arg0 (by decide)
    _ = Bd2 m ρ c (Proc.devRef .tc main_arg0) := StableHlo.after_of_writes_sub hostOps1 _ hostOps1_writes (by decide)
    _ = Bd1 m ρ c (Proc.devRef .tc main_arg0) := Bd2_of_ne m ρ c main_arg0 (by decide)
    _ = Bd0 m ρ c (Proc.devRef .tc main_arg0) := StableHlo.after_of_writes_sub hostOps0 _ hostOps0_writes (by decide)
    _ = m ((c : Thread nD τ).loc main_arg0) := rfl
theorem Bd7_main_arg1 (c : Dev nD) : Bd7 m ρ c (Proc.devRef .tc main_arg1) = m ((c : Thread nD τ).loc main_arg1) :=
  calc Bd7 m ρ c (Proc.devRef .tc main_arg1)
    _ = Bd6 m ρ c (Proc.devRef .tc main_arg1) := StableHlo.after_of_writes_sub hostOps3 _ hostOps3_writes (by decide)
    _ = Bd5 m ρ c (Proc.devRef .tc main_arg1) := Bd6_of_ne m ρ c main_arg1 (by decide)
    _ = Bd4 m ρ c (Proc.devRef .tc main_arg1) := StableHlo.after_of_writes_sub hostOps2 _ hostOps2_writes (by decide)
    _ = Bd3 m ρ c (Proc.devRef .tc main_arg1) := Bd4_of_ne m ρ c main_arg1 (by decide)
    _ = Bd2 m ρ c (Proc.devRef .tc main_arg1) := StableHlo.after_of_writes_sub hostOps1 _ hostOps1_writes (by decide)
    _ = Bd1 m ρ c (Proc.devRef .tc main_arg1) := Bd2_of_ne m ρ c main_arg1 (by decide)
    _ = Bd0 m ρ c (Proc.devRef .tc main_arg1) := StableHlo.after_of_writes_sub hostOps0 _ hostOps0_writes (by decide)
    _ = m ((c : Thread nD τ).loc main_arg1) := rfl
theorem Bd7_main_arg2 (c : Dev nD) : Bd7 m ρ c (Proc.devRef .tc main_arg2) = m ((c : Thread nD τ).loc main_arg2) :=
  calc Bd7 m ρ c (Proc.devRef .tc main_arg2)
    _ = Bd6 m ρ c (Proc.devRef .tc main_arg2) := StableHlo.after_of_writes_sub hostOps3 _ hostOps3_writes (by decide)
    _ = Bd5 m ρ c (Proc.devRef .tc main_arg2) := Bd6_of_ne m ρ c main_arg2 (by decide)
    _ = Bd4 m ρ c (Proc.devRef .tc main_arg2) := StableHlo.after_of_writes_sub hostOps2 _ hostOps2_writes (by decide)
    _ = Bd3 m ρ c (Proc.devRef .tc main_arg2) := Bd4_of_ne m ρ c main_arg2 (by decide)
    _ = Bd2 m ρ c (Proc.devRef .tc main_arg2) := StableHlo.after_of_writes_sub hostOps1 _ hostOps1_writes (by decide)
    _ = Bd1 m ρ c (Proc.devRef .tc main_arg2) := Bd2_of_ne m ρ c main_arg2 (by decide)
    _ = Bd0 m ρ c (Proc.devRef .tc main_arg2) := StableHlo.after_of_writes_sub hostOps0 _ hostOps0_writes (by decide)
    _ = m ((c : Thread nD τ).loc main_arg2) := rfl
theorem Bd7_main_arg3 (c : Dev nD) : Bd7 m ρ c (Proc.devRef .tc main_arg3) = m ((c : Thread nD τ).loc main_arg3) :=
  calc Bd7 m ρ c (Proc.devRef .tc main_arg3)
    _ = Bd6 m ρ c (Proc.devRef .tc main_arg3) := StableHlo.after_of_writes_sub hostOps3 _ hostOps3_writes (by decide)
    _ = Bd5 m ρ c (Proc.devRef .tc main_arg3) := Bd6_of_ne m ρ c main_arg3 (by decide)
    _ = Bd4 m ρ c (Proc.devRef .tc main_arg3) := StableHlo.after_of_writes_sub hostOps2 _ hostOps2_writes (by decide)
    _ = Bd3 m ρ c (Proc.devRef .tc main_arg3) := Bd4_of_ne m ρ c main_arg3 (by decide)
    _ = Bd2 m ρ c (Proc.devRef .tc main_arg3) := StableHlo.after_of_writes_sub hostOps1 _ hostOps1_writes (by decide)
    _ = Bd1 m ρ c (Proc.devRef .tc main_arg3) := Bd2_of_ne m ρ c main_arg3 (by decide)
    _ = Bd0 m ρ c (Proc.devRef .tc main_arg3) := StableHlo.after_of_writes_sub hostOps0 _ hostOps0_writes (by decide)
    _ = m ((c : Thread nD τ).loc main_arg3) := rfl
theorem Bd7_main_arg4 (c : Dev nD) : Bd7 m ρ c (Proc.devRef .tc main_arg4) = m ((c : Thread nD τ).loc main_arg4) :=
  calc Bd7 m ρ c (Proc.devRef .tc main_arg4)
    _ = Bd6 m ρ c (Proc.devRef .tc main_arg4) := StableHlo.after_of_writes_sub hostOps3 _ hostOps3_writes (by decide)
    _ = Bd5 m ρ c (Proc.devRef .tc main_arg4) := Bd6_of_ne m ρ c main_arg4 (by decide)
    _ = Bd4 m ρ c (Proc.devRef .tc main_arg4) := StableHlo.after_of_writes_sub hostOps2 _ hostOps2_writes (by decide)
    _ = Bd3 m ρ c (Proc.devRef .tc main_arg4) := Bd4_of_ne m ρ c main_arg4 (by decide)
    _ = Bd2 m ρ c (Proc.devRef .tc main_arg4) := StableHlo.after_of_writes_sub hostOps1 _ hostOps1_writes (by decide)
    _ = Bd1 m ρ c (Proc.devRef .tc main_arg4) := Bd2_of_ne m ρ c main_arg4 (by decide)
    _ = Bd0 m ρ c (Proc.devRef .tc main_arg4) := StableHlo.after_of_writes_sub hostOps0 _ hostOps0_writes (by decide)
    _ = m ((c : Thread nD τ).loc main_arg4) := rfl
theorem Bd7_main_arg5 (c : Dev nD) : Bd7 m ρ c (Proc.devRef .tc main_arg5) = m ((c : Thread nD τ).loc main_arg5) :=
  calc Bd7 m ρ c (Proc.devRef .tc main_arg5)
    _ = Bd6 m ρ c (Proc.devRef .tc main_arg5) := StableHlo.after_of_writes_sub hostOps3 _ hostOps3_writes (by decide)
    _ = Bd5 m ρ c (Proc.devRef .tc main_arg5) := Bd6_of_ne m ρ c main_arg5 (by decide)
    _ = Bd4 m ρ c (Proc.devRef .tc main_arg5) := StableHlo.after_of_writes_sub hostOps2 _ hostOps2_writes (by decide)
    _ = Bd3 m ρ c (Proc.devRef .tc main_arg5) := Bd4_of_ne m ρ c main_arg5 (by decide)
    _ = Bd2 m ρ c (Proc.devRef .tc main_arg5) := StableHlo.after_of_writes_sub hostOps1 _ hostOps1_writes (by decide)
    _ = Bd1 m ρ c (Proc.devRef .tc main_arg5) := Bd2_of_ne m ρ c main_arg5 (by decide)
    _ = Bd0 m ρ c (Proc.devRef .tc main_arg5) := StableHlo.after_of_writes_sub hostOps0 _ hostOps0_writes (by decide)
    _ = m ((c : Thread nD τ).loc main_arg5) := rfl
theorem Bd7_main_arg6 (c : Dev nD) : Bd7 m ρ c (Proc.devRef .tc main_arg6) = m ((c : Thread nD τ).loc main_arg6) :=
  calc Bd7 m ρ c (Proc.devRef .tc main_arg6)
    _ = Bd6 m ρ c (Proc.devRef .tc main_arg6) := StableHlo.after_of_writes_sub hostOps3 _ hostOps3_writes (by decide)
    _ = Bd5 m ρ c (Proc.devRef .tc main_arg6) := Bd6_of_ne m ρ c main_arg6 (by decide)
    _ = Bd4 m ρ c (Proc.devRef .tc main_arg6) := StableHlo.after_of_writes_sub hostOps2 _ hostOps2_writes (by decide)
    _ = Bd3 m ρ c (Proc.devRef .tc main_arg6) := Bd4_of_ne m ρ c main_arg6 (by decide)
    _ = Bd2 m ρ c (Proc.devRef .tc main_arg6) := StableHlo.after_of_writes_sub hostOps1 _ hostOps1_writes (by decide)
    _ = Bd1 m ρ c (Proc.devRef .tc main_arg6) := Bd2_of_ne m ρ c main_arg6 (by decide)
    _ = Bd0 m ρ c (Proc.devRef .tc main_arg6) := StableHlo.after_of_writes_sub hostOps0 _ hostOps0_writes (by decide)
    _ = m ((c : Thread nD τ).loc main_arg6) := rfl
theorem Bd7_main_arg7 (c : Dev nD) : Bd7 m ρ c (Proc.devRef .tc main_arg7) = m ((c : Thread nD τ).loc main_arg7) :=
  calc Bd7 m ρ c (Proc.devRef .tc main_arg7)
    _ = Bd6 m ρ c (Proc.devRef .tc main_arg7) := StableHlo.after_of_writes_sub hostOps3 _ hostOps3_writes (by decide)
    _ = Bd5 m ρ c (Proc.devRef .tc main_arg7) := Bd6_of_ne m ρ c main_arg7 (by decide)
    _ = Bd4 m ρ c (Proc.devRef .tc main_arg7) := StableHlo.after_of_writes_sub hostOps2 _ hostOps2_writes (by decide)
    _ = Bd3 m ρ c (Proc.devRef .tc main_arg7) := Bd4_of_ne m ρ c main_arg7 (by decide)
    _ = Bd2 m ρ c (Proc.devRef .tc main_arg7) := StableHlo.after_of_writes_sub hostOps1 _ hostOps1_writes (by decide)
    _ = Bd1 m ρ c (Proc.devRef .tc main_arg7) := Bd2_of_ne m ρ c main_arg7 (by decide)
    _ = Bd0 m ρ c (Proc.devRef .tc main_arg7) := StableHlo.after_of_writes_sub hostOps0 _ hostOps0_writes (by decide)
    _ = m ((c : Thread nD τ).loc main_arg7) := rfl
theorem Bd7_main_arg8 (c : Dev nD) : Bd7 m ρ c (Proc.devRef .tc main_arg8) = m ((c : Thread nD τ).loc main_arg8) :=
  calc Bd7 m ρ c (Proc.devRef .tc main_arg8)
    _ = Bd6 m ρ c (Proc.devRef .tc main_arg8) := StableHlo.after_of_writes_sub hostOps3 _ hostOps3_writes (by decide)
    _ = Bd5 m ρ c (Proc.devRef .tc main_arg8) := Bd6_of_ne m ρ c main_arg8 (by decide)
    _ = Bd4 m ρ c (Proc.devRef .tc main_arg8) := StableHlo.after_of_writes_sub hostOps2 _ hostOps2_writes (by decide)
    _ = Bd3 m ρ c (Proc.devRef .tc main_arg8) := Bd4_of_ne m ρ c main_arg8 (by decide)
    _ = Bd2 m ρ c (Proc.devRef .tc main_arg8) := StableHlo.after_of_writes_sub hostOps1 _ hostOps1_writes (by decide)
    _ = Bd1 m ρ c (Proc.devRef .tc main_arg8) := Bd2_of_ne m ρ c main_arg8 (by decide)
    _ = Bd0 m ρ c (Proc.devRef .tc main_arg8) := StableHlo.after_of_writes_sub hostOps0 _ hostOps0_writes (by decide)
    _ = m ((c : Thread nD τ).loc main_arg8) := rfl

/-! ## The proof data family and the thread state -/

/-- No pipeline has a prefetched table. -/
abbrev admH : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) admH p) c
  | ⟨0, _⟩ => fun c => dat0 (En0 m ρ) c
  | ⟨1, _⟩ => fun c => dat1 (En1 m ρ) c
  | ⟨2, _⟩ => fun c => dat2 (En2 m ρ) c
abbrev 𝒱₀ : Variants := Variants.none
/-- No core owes another anything: no level is assigned. -/
abbrev Lh : GSem nD τ sig → Finset Unit := fun _ => ∅
abbrev lvh : GSem nD τ sig → Unit → ℕ := fun _ _ => 0
/-- What rides beside the buffers through every segment: the core's generator register at some state and its dues, at nothing. -/
abbrev Rst (c : Dev nD) : sProp 𝕄 := iprop((∃ r, prngReg c r) ∗ ∃ W, owes (c : Thread nD τ) (0 : CellTallies nD τ sig Unit) W)
/-- A host stretch as a segment over the unscoped references from the contents `W`, `Rst` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lh lvh :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `Bd7`, the generator register at some state. -/
abbrev Tend (c : Dev nD) : sProp 𝕄 := iprop(StableHlo.held (c : Thread nD τ) (Pipeline.ucRefs τ sig) (Bd7 m ρ c) ∗ ∃ r, prngReg c r)

/-! ## The regions as segments -/

set_option backward.isDefEq.respectTransparency.types false in
/-- Region 0 over the thread state: entered from every unscoped buffer at its entry contents, left at its exit contents.
    Its arrays are split out of the unscoped buffers and put back at the exit contents; the generator register goes into
    the kernel's invariant and comes out; nothing is owed; the kernel has no semaphore of its own. -/
def reg0 : Pipeline.RegionSeg (pcfgs (F := F)) admH (pdats m ρ) () defs₀ 𝒱₀ Lh lvh 0 where
  win := launch0.win.to₀
  block_pos := launch0.block_pos
  stage_whole := launch0.stage_whole
  K := PEmpty
  osem k := k.elim
  ho := Pipeline.OwnSemFacts.none _
  hbody c := (body_obligation0 (En0 m ρ) c).loose
  hwaits := Pipeline.hwaits_of_owed_zero _ _ _ _ Lh lvh 0 fun _ _ => rfl
  pre c := iprop(StableHlo.held (c : Thread nD τ) (Pipeline.ucRefs τ sig) (Bd1 m ρ c) ∗ Rst c)
  post c := iprop(StableHlo.held (c : Thread nD τ) (Pipeline.ucRefs τ sig) (Bd2 m ρ c) ∗ Rst c)
  X c := iprop(∃ r, prngReg c r)
  Y c := iprop(∃ r, prngReg c r)
  Z c := Pipeline.unscopedRest (Ix := Unit) (Name := ℕ) (U := UR sig nD τ) (Lvl := ℕ) spec0 c (En0 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (En0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (En0 m ρ c) (Ex0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at its entry contents, left at its exit contents.
    Its arrays are split out of the unscoped buffers and put back at the exit contents; the generator register goes into
    the kernel's invariant and comes out; nothing is owed; the kernel has no semaphore of its own. -/
def reg1 : Pipeline.RegionSeg (pcfgs (F := F)) admH (pdats m ρ) () defs₀ 𝒱₀ Lh lvh 1 where
  win := launch1.win.to₀
  block_pos := launch1.block_pos
  stage_whole := launch1.stage_whole
  K := PEmpty
  osem k := k.elim
  ho := Pipeline.OwnSemFacts.none _
  hbody c := (body_obligation1 (En1 m ρ) c).loose
  hwaits := Pipeline.hwaits_of_owed_zero _ _ _ _ Lh lvh 1 fun _ _ => rfl
  pre c := iprop(StableHlo.held (c : Thread nD τ) (Pipeline.ucRefs τ sig) (Bd3 m ρ c) ∗ Rst c)
  post c := iprop(StableHlo.held (c : Thread nD τ) (Pipeline.ucRefs τ sig) (Bd4 m ρ c) ∗ Rst c)
  X c := iprop(∃ r, prngReg c r)
  Y c := iprop(∃ r, prngReg c r)
  Z c := Pipeline.unscopedRest (Ix := Unit) (Name := ℕ) (U := UR sig nD τ) (Lvl := ℕ) spec1 c (En1 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (En1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (En1 m ρ c) (Ex1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at its entry contents, left at its exit contents.
    Its arrays are split out of the unscoped buffers and put back at the exit contents; the generator register goes into
    the kernel's invariant and comes out; nothing is owed; the kernel has no semaphore of its own. -/
def reg2 : Pipeline.RegionSeg (pcfgs (F := F)) admH (pdats m ρ) () defs₀ 𝒱₀ Lh lvh 2 where
  win := launch2.win.to₀
  block_pos := launch2.block_pos
  stage_whole := launch2.stage_whole
  K := PEmpty
  osem k := k.elim
  ho := Pipeline.OwnSemFacts.none _
  hbody c := (body_obligation2 (En2 m ρ) c).loose
  hwaits := Pipeline.hwaits_of_owed_zero _ _ _ _ Lh lvh 2 fun _ _ => rfl
  pre c := iprop(StableHlo.held (c : Thread nD τ) (Pipeline.ucRefs τ sig) (Bd5 m ρ c) ∗ Rst c)
  post c := iprop(StableHlo.held (c : Thread nD τ) (Pipeline.ucRefs τ sig) (Bd6 m ρ c) ∗ Rst c)
  X c := iprop(∃ r, prngReg c r)
  Y c := iprop(∃ r, prngReg c r)
  Z c := Pipeline.unscopedRest (Ix := Unit) (Name := ℕ) (U := UR sig nD τ) (Lvl := ℕ) spec2 c (En2 m ρ c)
  hentry c := by
    rw [Pipeline.ownSems0_none]
    have hsplit := Pipeline.arrays_of_unscopedBufs (p := 2) (pcfgs (F := F)) admH (pdats m ρ) launch2.win launch2.arr_whole c
      ((pdats m ρ 2 c).share_full fun _ => rfl) (En2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m ρ) ((pdats m ρ 2 c).share_full fun _ => rfl)
      (En2 m ρ c) (Ex2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The entry function as segments, and the launch -/

/-- The entry function's seven segments in order. -/
abbrev segs : List (Pipeline.Seg (pcfgs (F := F)) admH (pdats m ρ) () defs₀ 𝒱₀ Lh lvh) :=
  [ .host (hseg hostOps0 hostOps0_sub hostOps0_fresh (Bd0 m ρ)),
    .region (reg0 m ρ),
    .host (hseg hostOps1 hostOps1_sub hostOps1_fresh (Bd2 m ρ)),
    .region (reg1 m ρ),
    .host (hseg hostOps2 hostOps2_sub hostOps2_fresh (Bd4 m ρ)),
    .region (reg2 m ρ),
    .host (hseg hostOps3 hostOps3_sub hostOps3_fresh (Bd6 m ρ)) ]
/-- The entry function IS the run of the segments. -/
theorem main_run (c : Dev nD) : main (F := F) c = Pipeline.Seg.run (segs m ρ) := (main_chain c).trans (by chain_rfl)

set_option backward.isDefEq.respectTransparency.types false in
/-- THE RUN: from any memory with zero counters every weakly fair execution of the entry function terminates, nothing
    faulting, and every final state holds every unscoped buffer of every core at `Bd7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Bd7 m ρ c b) :=
  Pipeline.θ_run_regions_kit (pcfgs (F := F)) admH (pdats m ρ) () cellOf_inj emb₁ defs₀ 𝒱₀ Lh lvh m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m ρ c) ∗ Rst c)) (Tₙ := Tend m ρ)
    (hch := ⟨fun _ => .rfl, fun _ => .rfl, fun _ => .rfl, fun _ => .rfl, fun _ => .rfl, fun _ => .rfl, fun _ => .rfl, fun c => by
      -- the last stretch's post-state is the final thread state beside the core's dues, re-associated
      show iprop(StableHlo.held (c : Thread nD τ) (Pipeline.ucRefs τ sig) (Bd7 m ρ c) ∗ Rst c)
        ⊢ iprop(Tend m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach Lh lvh fun c => ?_
      rw [show unscopedBufs c (fun b => m ((c : Thread nD τ).loc b)) = StableHlo.held (c : Thread nD τ) (Pipeline.ucRefs τ sig) (Bd0 m ρ c)
        from Pipeline.unscopedBufs_held c (Bd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd7 m ρ c b)
    (hfin := fun c s' => by
      iintro ⟨⟨Hh, -⟩, HSI⟩
      unfold StableHlo.held
      imodintro
      iapply (pointsTo_read_all (Pipeline.ucRefs τ sig) (fun b => (((c : Thread nD τ)).1, b)) (Bd7 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)) :=
  (θ_run defs _ _).mono (fun r h c => ⟨(h c _ (mem_uc main_arg0 (by decide))).trans (Bd7_main_arg0 m ρ c),
    (h c _ (mem_uc main_arg1 (by decide))).trans (Bd7_main_arg1 m ρ c),
    (h c _ (mem_uc main_arg2 (by decide))).trans (Bd7_main_arg2 m ρ c),
    (h c _ (mem_uc main_arg3 (by decide))).trans (Bd7_main_arg3 m ρ c),
    (h c _ (mem_uc main_arg4 (by decide))).trans (Bd7_main_arg4 m ρ c),
    (h c _ (mem_uc main_arg5 (by decide))).trans (Bd7_main_arg5 m ρ c),
    (h c _ (mem_uc main_arg6 (by decide))).trans (Bd7_main_arg6 m ρ c),
    (h c _ (mem_uc main_arg7 (by decide))).trans (Bd7_main_arg7 m ρ c),
    (h c _ (mem_uc main_arg8 (by decide))).trans (Bd7_main_arg8 m ρ c)⟩) (run_all m ρ)

end Cert.Kernel.Hand

end
-- ==== Proof.KernelIdeal.Region0.lean ====
/-
  Region 0 of the program's entry function is the fused query/key/value projection. Its body reads each input window's staging
  buffer whole, computes, and stores each output window's staging buffer whole, so at every grid point the body takes
  "the inputs' buffers at their blocks, the outputs' at anything" to "the inputs' unchanged, each output's at one pure
  function of the input blocks". This module states that function (`out0_W`), proves the body's triple by symbolic
  execution, packages it as the pipeline's proof data at ANY contents `V` of the core's buffers on entry, and derives
  the obligation the launch theorem asks of the body at a generic point.
-/
import proofs.«144204_j5497558139332_2_alg».proof.Proof.Gen.KernelIdeal.Launch
import proofs.«144204_j5497558139332_2_alg».proof.Proof.Gen.KernelIdeal.Skeleton
import proofs.«144204_j5497558139332_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or kept from an earlier
    point (then the block index has not moved), for any proof data over the entry contents whose body leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or kept from an earlier
    point (then the block index has not moved), for any proof data over the entry contents whose body leaves it in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or kept from an earlier
    point (then the block index has not moved), for any proof data over the entry contents whose body leaves it in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole staging buffer -/

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S1x3072 := Rect.unit (s := S1x3072) ![0, 0] S1x3072.size inb_S1x3072_S1x3072_0_0
abbrev r0_3 : Rect S512x1024 := Rect.unit (s := S512x1024) ![0, 0] S512x1024.size inb_S512x1024_S512x1024_0_0
abbrev r0_4 : Rect S512x1024 := Rect.unit (s := S512x1024) ![0, 0] S512x1024.size inb_S512x1024_S512x1024_0_0
abbrev r0_5 : Rect S512x1024 := Rect.unit (s := S512x1024) ![0, 0] S512x1024.size inb_S512x1024_S512x1024_0_0

/-! ## What the body leaves in each output window's buffer -/

/-- Output window 3's staging buffer after the body: its one whole-buffer store, of the body's arithmetic on the loaded inputs. -/
def out0_3 (x0 : Vec F S512x1024 .f32) (x1 : Vec F S1024x3072 .bf16) (x2 : Vec F S1x3072 .f32) : Vec F S512x1024 .bf16 :=
  View.canon [⟨r0_3, k0_pay2 (View.ld x0 r0_0) (View.ld x1 r0_1) (View.ld x2 r0_2)⟩]

/-- The one store covers the buffer. -/
theorem cover0_3 (p0 : Vec F S512x1024 .bf16) (y : S512x1024.Idx) :
    ∃ pc ∈ ([⟨r0_3, p0⟩] : List (View.Piece (Elt F) S512x1024 .bf16)), y ∈ pc.1.set :=
  View.cover_of_tiled [⟨r0_3, p0⟩] S512x1024.size (by rfl) y

/-- Output window 4's staging buffer after the body: its one whole-buffer store, of the body's arithmetic on the loaded inputs. -/
def out0_4 (x0 : Vec F S512x1024 .f32) (x1 : Vec F S1024x3072 .bf16) (x2 : Vec F S1x3072 .f32) : Vec F S512x1024 .bf16 :=
  View.canon [⟨r0_4, k0_pay3 (View.ld x0 r0_0) (View.ld x1 r0_1) (View.ld x2 r0_2)⟩]

/-- The one store covers the buffer. -/
theorem cover0_4 (p0 : Vec F S512x1024 .bf16) (y : S512x1024.Idx) :
    ∃ pc ∈ ([⟨r0_4, p0⟩] : List (View.Piece (Elt F) S512x1024 .bf16)), y ∈ pc.1.set :=
  View.cover_of_tiled [⟨r0_4, p0⟩] S512x1024.size (by rfl) y

/-- Output window 5's staging buffer after the body: its one whole-buffer store, of the body's arithmetic on the loaded inputs. -/
def out0_5 (x0 : Vec F S512x1024 .f32) (x1 : Vec F S1024x3072 .bf16) (x2 : Vec F S1x3072 .f32) : Vec F S512x1024 .bf16 :=
  View.canon [⟨r0_5, k0_pay4 (View.ld x0 r0_0) (View.ld x1 r0_1) (View.ld x2 r0_2)⟩]

/-- The one store covers the buffer. -/
theorem cover0_5 (p0 : Vec F S512x1024 .bf16) (y : S512x1024.Idx) :
    ∃ pc ∈ ([⟨r0_5, p0⟩] : List (View.Piece (Elt F) S512x1024 .bf16)), y ∈ pc.1.set :=
  View.cover_of_tiled [⟨r0_5, p0⟩] S512x1024.size (by rfl) y

/-! ## The body's triple -/

set_option maxHeartbeats 4000000 in
/-- The body on whole staging memrefs — the inputs' at contents `xW`, the outputs' at anything — runs to a continuation
    holding the inputs' as they were and each output's at `out0_W` of the inputs'. -/
theorem sound_kernel0 (c : Dev nD) (E : Set ℕ) (i : grid0.Coords) (a0 : Memref sig .tc .vmem S512x1024 .f32) (ha0 : a0.IsWhole) (a1 : Memref sig .tc .vmem S1024x3072 .bf16) (ha1 : a1.IsWhole) (a2 : Memref sig .tc .vmem S1x3072 .f32) (ha2 : a2.IsWhole) (a3 : Memref sig .tc .vmem S512x1024 .bf16) (ha3 : a3.IsWhole) (a4 : Memref sig .tc .vmem S512x1024 .bf16) (ha4 : a4.IsWhole) (a5 : Memref sig .tc .vmem S512x1024 .bf16) (ha5 : a5.IsWhole)
    (x0 : Vec F S512x1024 .f32) (x1 : Vec F S1024x3072 .bf16) (x2 : Vec F S1x3072 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d) ∗ (∃ d, owns (c : Thread nD τ) a4 fullShare d) ∗ (∃ d, owns (c : Thread nD τ) a5 fullShare d)
        ∗ (iprop(owns (c : Thread nD τ) a0 fullShare x0 ∗ owns (c : Thread nD τ) a1 fullShare x1 ∗ owns (c : Thread nD τ) a2 fullShare x2 ∗ owns (c : Thread nD τ) a3 fullShare (out0_3 x0 x1 x2) ∗ owns (c : Thread nD τ) a4 fullShare (out0_4 x0 x1 x2) ∗ owns (c : Thread nD τ) a5 fullShare (out0_5 x0 x1 x2)) -∗ K ⟨⟩))
      ⊢ wp frame (wpE (defs₀ (F := F)) Variants.none c none) E (cc0__qkv_dense_kernel i a0 ha0 a1 ha1 a2 ha2 a3 ha3 a4 ha4 a5 ha5) K := by
  simp only [cc0__qkv_dense_kernel_eq_skeleton]; unfold cc0__qkv_dense_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try dsimp only
    exact View.read_writes_eq_canon _ _ _ (cover0_3 _)
  isplitl [H4]
  · iexists _; isplitr
    swap; · iexact H4
    ipureintro
    try dsimp only
    exact View.read_writes_eq_canon _ _ _ (cover0_4 _)
  iexists _; isplitr
  swap; · iexact H5
  ipureintro
  try dsimp only
  exact View.read_writes_eq_canon _ _ _ (cover0_5 _)

/-! ## The pipeline's proof data -/

/-- The proof data of this pipeline on core `c`: the arrays as the region finds them; after the body at point `t` each
    input's buffer at its block and each output's at `out0_W` of the input blocks; the invariant is the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 1000000 in
/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The launch theorem's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.Region1.lean ====
/-
  Region 1 of the program's entry function is the attention of one pair of heads on one tile of queries. Its body reads each input window's staging
  buffer whole, computes, and stores each output window's staging buffer whole, so at every grid point the body takes
  "the inputs' buffers at their blocks, the outputs' at anything" to "the inputs' unchanged, each output's at one pure
  function of the input blocks". This module states that function (`out1_W`), proves the body's triple by symbolic
  execution, packages it as the pipeline's proof data at ANY contents `V` of the core's buffers on entry, and derives
  the obligation the launch theorem asks of the body at a generic point.
-/
import proofs.«144204_j5497558139332_2_alg».proof.Proof.Gen.KernelIdeal.Launch
import proofs.«144204_j5497558139332_2_alg».proof.Proof.Gen.KernelIdeal.Skeleton
import proofs.«144204_j5497558139332_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or kept from an earlier
    point (then the block index has not moved), for any proof data over the entry contents whose body leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or kept from an earlier
    point (then the block index has not moved), for any proof data over the entry contents whose body leaves it in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or kept from an earlier
    point (then the block index has not moved), for any proof data over the entry contents whose body leaves it in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole staging buffer -/

abbrev r1_0 : Rect S1x512x128 := Rect.unit (s := S1x512x128) ![0, 0, 0] S1x512x128.size inb_S1x512x128_S1x512x128_0_0_0
abbrev r1_1 : Rect S1x2048x128 := Rect.unit (s := S1x2048x128) ![0, 0, 0] S1x2048x128.size inb_S1x2048x128_S1x2048x128_0_0_0
abbrev r1_2 : Rect S1x2048x128 := Rect.unit (s := S1x2048x128) ![0, 0, 0] S1x2048x128.size inb_S1x2048x128_S1x2048x128_0_0_0
abbrev r1_3 : Rect S1x512x128 := Rect.unit (s := S1x512x128) ![0, 0, 0] S1x512x128.size inb_S1x512x128_S1x512x128_0_0_0

/-! ## What the body leaves in each output window's buffer -/

/-- Output window 3's staging buffer after the body: its one whole-buffer store, of the body's arithmetic on the loaded inputs. -/
def out1_3 (x0 : Vec F S1x512x128 .bf16) (x1 : Vec F S1x2048x128 .bf16) (x2 : Vec F S1x2048x128 .bf16) : Vec F S1x512x128 .bf16 :=
  View.canon [⟨r1_3, k1_pay1 (k1_pay2 (View.ld x0 r1_0) (View.ld x1 r1_1) (View.ld x2 r1_2))⟩]

/-- The one store covers the buffer. -/
theorem cover1_3 (p0 : Vec F S1x512x128 .bf16) (y : S1x512x128.Idx) :
    ∃ pc ∈ ([⟨r1_3, p0⟩] : List (View.Piece (Elt F) S1x512x128 .bf16)), y ∈ pc.1.set :=
  View.cover_of_tiled [⟨r1_3, p0⟩] S1x512x128.size (by rfl) y

/-! ## The body's triple -/

set_option maxHeartbeats 4000000 in
/-- The body on whole staging memrefs — the inputs' at contents `xW`, the outputs' at anything — runs to a continuation
    holding the inputs' as they were and each output's at `out1_W` of the inputs'. -/
theorem sound_kernel1 (c : Dev nD) (E : Set ℕ) (i : grid1.Coords) (a0 : Memref sig .tc .vmem S1x512x128 .bf16) (ha0 : a0.IsWhole) (a1 : Memref sig .tc .vmem S1x2048x128 .bf16) (ha1 : a1.IsWhole) (a2 : Memref sig .tc .vmem S1x2048x128 .bf16) (ha2 : a2.IsWhole) (a3 : Memref sig .tc .vmem S1x512x128 .bf16) (ha3 : a3.IsWhole)
    (x0 : Vec F S1x512x128 .bf16) (x1 : Vec F S1x2048x128 .bf16) (x2 : Vec F S1x2048x128 .bf16) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out1_3 x0 x1 x2)) -∗ K ⟨⟩))
      ⊢ wp frame (wpE (defs₀ (F := F)) Variants.none c none) E (cc1__attn_kernel i a0 ha0 a1 ha1 a2 ha2 a3 ha3) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _)

/-! ## The pipeline's proof data -/

/-- The proof data of this pipeline on core `c`: the arrays as the region finds them; after the body at point `t` each
    input's buffer at its block and each output's at `out1_W` of the input blocks; the invariant is the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 1000000 in
/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.Region2.lean ====
/-
  Region 2 of the program's entry function is the output projection. Its body reads each input window's staging
  buffer whole, computes, and stores each output window's staging buffer whole, so at every grid point the body takes
  "the inputs' buffers at their blocks, the outputs' at anything" to "the inputs' unchanged, each output's at one pure
  function of the input blocks". This module states that function (`out2_W`), proves the body's triple by symbolic
  execution, packages it as the pipeline's proof data at ANY contents `V` of the core's buffers on entry, and derives
  the obligation the launch theorem asks of the body at a generic point.
-/
import proofs.«144204_j5497558139332_2_alg».proof.Proof.Gen.KernelIdeal.Launch
import proofs.«144204_j5497558139332_2_alg».proof.Proof.Gen.KernelIdeal.Skeleton
import proofs.«144204_j5497558139332_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or kept from an earlier
    point (then the block index has not moved), for any proof data over the entry contents whose body leaves it in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or kept from an earlier
    point (then the block index has not moved), for any proof data over the entry contents whose body leaves it in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or kept from an earlier
    point (then the block index has not moved), for any proof data over the entry contents whose body leaves it in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is of a whole staging buffer -/

abbrev r2_0 : Rect S512x1024 := Rect.unit (s := S512x1024) ![0, 0] S512x1024.size inb_S512x1024_S512x1024_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0
abbrev r2_3 : Rect S512x1024 := Rect.unit (s := S512x1024) ![0, 0] S512x1024.size inb_S512x1024_S512x1024_0_0

/-! ## What the body leaves in each output window's buffer -/

/-- Output window 3's staging buffer after the body: its one whole-buffer store, of the body's arithmetic on the loaded inputs. -/
def out2_3 (x0 : Vec F S512x1024 .bf16) (x1 : Vec F S1024x1024 .bf16) (x2 : Vec F S1x1024 .f32) : Vec F S512x1024 .f32 :=
  View.canon [⟨r2_3, k2_pay1 (View.ld x0 r2_0) (View.ld x1 r2_1) (View.ld x2 r2_2)⟩]

/-- The one store covers the buffer. -/
theorem cover2_3 (p0 : Vec F S512x1024 .f32) (y : S512x1024.Idx) :
    ∃ pc ∈ ([⟨r2_3, p0⟩] : List (View.Piece (Elt F) S512x1024 .f32)), y ∈ pc.1.set :=
  View.cover_of_tiled [⟨r2_3, p0⟩] S512x1024.size (by rfl) y

/-! ## The body's triple -/

set_option maxHeartbeats 4000000 in
/-- The body on whole staging memrefs — the inputs' at contents `xW`, the outputs' at anything — runs to a continuation
    holding the inputs' as they were and each output's at `out2_W` of the inputs'. -/
theorem sound_kernel2 (c : Dev nD) (E : Set ℕ) (i : grid2.Coords) (a0 : Memref sig .tc .vmem S512x1024 .bf16) (ha0 : a0.IsWhole) (a1 : Memref sig .tc .vmem S1024x1024 .bf16) (ha1 : a1.IsWhole) (a2 : Memref sig .tc .vmem S1x1024 .f32) (ha2 : a2.IsWhole) (a3 : Memref sig .tc .vmem S512x1024 .f32) (ha3 : a3.IsWhole)
    (x0 : Vec F S512x1024 .bf16) (x1 : Vec F S1024x1024 .bf16) (x2 : Vec F S1x1024 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out2_3 x0 x1 x2)) -∗ K ⟨⟩))
      ⊢ wp frame (wpE (defs₀ (F := F)) Variants.none c none) E (cc2__dense_kernel i a0 ha0 a1 ha1 a2 ha2 a3 ha3) K := by
  simp only [cc2__dense_kernel_eq_skeleton]; unfold cc2__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover2_3 _)

/-! ## The pipeline's proof data -/

/-- The proof data of this pipeline on core `c`: the arrays as the region finds them; after the body at point `t` each
    input's buffer at its block and each output's at `out2_W` of the input blocks; the invariant is the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

set_option maxHeartbeats 1000000 in
/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KernelIdeal.Run.lean ====
/-
  The whole run of the entry function: three host stretches of re-layouts interleaved with the three kernel regions, then
  a last re-layout. The contents of every buffer the kernels do not scope are followed from the launch memory through
  the seven segments (`Bd0` … `Bd7`): a host stretch applies its operations; a region leaves each of its output arrays at
  what its grid points' write-backs fold to and everything else as it found it. Every weakly fair execution terminates
  without a fault with every such buffer at `Bd7` (`run_all`); no segment writes an argument array, so the arguments end
  as launched (`frame`).
-/
import proofs.«144204_j5497558139332_2_alg».proof.Proof.KernelIdeal.Region0
import proofs.«144204_j5497558139332_2_alg».proof.Proof.KernelIdeal.Region1
import proofs.«144204_j5497558139332_2_alg».proof.Proof.KernelIdeal.Region2
import proofs.«144204_j5497558139332_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev Bd0 : Dev nD → Valuation τ sig (Elt F) := fun c b => (s₀ m ρ).mem ((c : Dev nD), b)
/-- After the host stretch before region 0: region 0's entry contents. -/
abbrev Bd1 : Dev nD → Valuation τ sig (Elt F) := fun c => StableHlo.after hostOps0 (Bd0 m ρ c)
/-- The same read at the core's references (what region 0's proof data take). -/
abbrev En0 : (c : Dev nD) → (b : Ref sig .tc) → Buf (Elt F) ((c : Thread nD τ).loc b) := fun c b => Bd1 m ρ c b
/-- At region 0's exit: its arrays at what the pipeline leaves (an input as entered, an output at its write-backs folded),
    every other buffer as entered. -/
def Bd2 (c : Dev nD) : Valuation τ sig (Elt F) :=
  Pipeline.withArrays spec0 c (Bd1 m ρ c) fun w => (dat0 (En0 m ρ) c).arrAt w cfg0.N
theorem Bd2_arr (c : Dev nD) (w : Fin cfg0.W) :
    Bd2 m ρ c (Proc.devRef .tc (Pipeline.arrRef spec0 w)) = (dat0 (En0 m ρ) c).arrAt w cfg0.N := by
  unfold Bd2; exact Pipeline.withArrays_arr spec0 launch0.win.arr_inj c _ _ w
theorem Bd2_of_ne (c : Dev nD) (b : Ref sig .tc) (hb : ∀ w, Pipeline.arrRef spec0 w ≠ b) :
    Bd2 m ρ c (Proc.devRef .tc b) = Bd1 m ρ c (Proc.devRef .tc b) := by
  unfold Bd2; exact Pipeline.withArrays_of_ne spec0 c _ _ b hb
abbrev Ex0 : (c : Dev nD) → (b : Ref sig .tc) → Buf (Elt F) ((c : Thread nD τ).loc b) := fun c b => Bd2 m ρ c b
theorem hF0 (c : Dev nD) (w : Fin cfg0.W) : (dat0 (En0 m ρ) c).arrAt w cfg0.N = Ex0 m ρ c (Pipeline.arrRef spec0 w) :=
  (Bd2_arr m ρ c w).symm
theorem hrest0 (c : Dev nD) : ∀ b, b ∉ Finset.univ.image (Pipeline.arrRef spec0) → Ex0 m ρ c b = En0 m ρ c b :=
  fun b hb => Bd2_of_ne m ρ c b fun w e => hb (Finset.mem_image.mpr ⟨w, Finset.mem_univ _, e⟩)

/-- After the host stretch before region 1: region 1's entry contents. -/
abbrev Bd3 : Dev nD → Valuation τ sig (Elt F) := fun c => StableHlo.after hostOps1 (Bd2 m ρ c)
/-- The same read at the core's references (what region 1's proof data take). -/
abbrev En1 : (c : Dev nD) → (b : Ref sig .tc) → Buf (Elt F) ((c : Thread nD τ).loc b) := fun c b => Bd3 m ρ c b
/-- At region 1's exit: its arrays at what the pipeline leaves (an input as entered, an output at its write-backs folded),
    every other buffer as entered. -/
def Bd4 (c : Dev nD) : Valuation τ sig (Elt F) :=
  Pipeline.withArrays spec1 c (Bd3 m ρ c) fun w => (dat1 (En1 m ρ) c).arrAt w cfg1.N
theorem Bd4_arr (c : Dev nD) (w : Fin cfg1.W) :
    Bd4 m ρ c (Proc.devRef .tc (Pipeline.arrRef spec1 w)) = (dat1 (En1 m ρ) c).arrAt w cfg1.N := by
  unfold Bd4; exact Pipeline.withArrays_arr spec1 launch1.win.arr_inj c _ _ w
theorem Bd4_of_ne (c : Dev nD) (b : Ref sig .tc) (hb : ∀ w, Pipeline.arrRef spec1 w ≠ b) :
    Bd4 m ρ c (Proc.devRef .tc b) = Bd3 m ρ c (Proc.devRef .tc b) := by
  unfold Bd4; exact Pipeline.withArrays_of_ne spec1 c _ _ b hb
abbrev Ex1 : (c : Dev nD) → (b : Ref sig .tc) → Buf (Elt F) ((c : Thread nD τ).loc b) := fun c b => Bd4 m ρ c b
theorem hF1 (c : Dev nD) (w : Fin cfg1.W) : (dat1 (En1 m ρ) c).arrAt w cfg1.N = Ex1 m ρ c (Pipeline.arrRef spec1 w) :=
  (Bd4_arr m ρ c w).symm
theorem hrest1 (c : Dev nD) : ∀ b, b ∉ Finset.univ.image (Pipeline.arrRef spec1) → Ex1 m ρ c b = En1 m ρ c b :=
  fun b hb => Bd4_of_ne m ρ c b fun w e => hb (Finset.mem_image.mpr ⟨w, Finset.mem_univ _, e⟩)

/-- After the host stretch before region 2: region 2's entry contents. -/
abbrev Bd5 : Dev nD → Valuation τ sig (Elt F) := fun c => StableHlo.after hostOps2 (Bd4 m ρ c)
/-- The same read at the core's references (what region 2's proof data take). -/
abbrev En2 : (c : Dev nD) → (b : Ref sig .tc) → Buf (Elt F) ((c : Thread nD τ).loc b) := fun c b => Bd5 m ρ c b
/-- At region 2's exit: its arrays at what the pipeline leaves (an input as entered, an output at its write-backs folded),
    every other buffer as entered. -/
def Bd6 (c : Dev nD) : Valuation τ sig (Elt F) :=
  Pipeline.withArrays spec2 c (Bd5 m ρ c) fun w => (dat2 (En2 m ρ) c).arrAt w cfg2.N
theorem Bd6_arr (c : Dev nD) (w : Fin cfg2.W) :
    Bd6 m ρ c (Proc.devRef .tc (Pipeline.arrRef spec2 w)) = (dat2 (En2 m ρ) c).arrAt w cfg2.N := by
  unfold Bd6; exact Pipeline.withArrays_arr spec2 launch2.win.arr_inj c _ _ w
theorem Bd6_of_ne (c : Dev nD) (b : Ref sig .tc) (hb : ∀ w, Pipeline.arrRef spec2 w ≠ b) :
    Bd6 m ρ c (Proc.devRef .tc b) = Bd5 m ρ c (Proc.devRef .tc b) := by
  unfold Bd6; exact Pipeline.withArrays_of_ne spec2 c _ _ b hb
abbrev Ex2 : (c : Dev nD) → (b : Ref sig .tc) → Buf (Elt F) ((c : Thread nD τ).loc b) := fun c b => Bd6 m ρ c b
theorem hF2 (c : Dev nD) (w : Fin cfg2.W) : (dat2 (En2 m ρ) c).arrAt w cfg2.N = Ex2 m ρ c (Pipeline.arrRef spec2 w) :=
  (Bd6_arr m ρ c w).symm
theorem hrest2 (c : Dev nD) : ∀ b, b ∉ Finset.univ.image (Pipeline.arrRef spec2) → Ex2 m ρ c b = En2 m ρ c b :=
  fun b hb => Bd6_of_ne m ρ c b fun w e => hb (Finset.mem_image.mpr ⟨w, Finset.mem_univ _, e⟩)

/-- After the last host stretch: the contents the run ends with. -/
abbrev Bd7 : Dev nD → Valuation τ sig (Elt F) := fun c => StableHlo.after hostOps3 (Bd6 m ρ c)

/-! ### The arguments end as launched: no host operation writes one and no region has one among its arrays -/

theorem Bd7_main_arg0 (c : Dev nD) : Bd7 m ρ c (Proc.devRef .tc main_arg0) = m ((c : Thread nD τ).loc main_arg0) :=
  calc Bd7 m ρ c (Proc.devRef .tc main_arg0)
    _ = Bd6 m ρ c (Proc.devRef .tc main_arg0) := StableHlo.after_of_writes_sub hostOps3 _ hostOps3_writes (by decide)
    _ = Bd5 m ρ c (Proc.devRef .tc main_arg0) := Bd6_of_ne m ρ c main_arg0 (by decide)
    _ = Bd4 m ρ c (Proc.devRef .tc main_arg0) := StableHlo.after_of_writes_sub hostOps2 _ hostOps2_writes (by decide)
    _ = Bd3 m ρ c (Proc.devRef .tc main_arg0) := Bd4_of_ne m ρ c main_arg0 (by decide)
    _ = Bd2 m ρ c (Proc.devRef .tc main_arg0) := StableHlo.after_of_writes_sub hostOps1 _ hostOps1_writes (by decide)
    _ = Bd1 m ρ c (Proc.devRef .tc main_arg0) := Bd2_of_ne m ρ c main_arg0 (by decide)
    _ = Bd0 m ρ c (Proc.devRef .tc main_arg0) := StableHlo.after_of_writes_sub hostOps0 _ hostOps0_writes (by decide)
    _ = m ((c : Thread nD τ).loc main_arg0) := rfl
theorem Bd7_main_arg1 (c : Dev nD) : Bd7 m ρ c (Proc.devRef .tc main_arg1) = m ((c : Thread nD τ).loc main_arg1) :=
  calc Bd7 m ρ c (Proc.devRef .tc main_arg1)
    _ = Bd6 m ρ c (Proc.devRef .tc main_arg1) := StableHlo.after_of_writes_sub hostOps3 _ hostOps3_writes (by decide)
    _ = Bd5 m ρ c (Proc.devRef .tc main_arg1) := Bd6_of_ne m ρ c main_arg1 (by decide)
    _ = Bd4 m ρ c (Proc.devRef .tc main_arg1) := StableHlo.after_of_writes_sub hostOps2 _ hostOps2_writes (by decide)
    _ = Bd3 m ρ c (Proc.devRef .tc main_arg1) := Bd4_of_ne m ρ c main_arg1 (by decide)
    _ = Bd2 m ρ c (Proc.devRef .tc main_arg1) := StableHlo.after_of_writes_sub hostOps1 _ hostOps1_writes (by decide)
    _ = Bd1 m ρ c (Proc.devRef .tc main_arg1) := Bd2_of_ne m ρ c main_arg1 (by decide)
    _ = Bd0 m ρ c (Proc.devRef .tc main_arg1) := StableHlo.after_of_writes_sub hostOps0 _ hostOps0_writes (by decide)
    _ = m ((c : Thread nD τ).loc main_arg1) := rfl
theorem Bd7_main_arg2 (c : Dev nD) : Bd7 m ρ c (Proc.devRef .tc main_arg2) = m ((c : Thread nD τ).loc main_arg2) :=
  calc Bd7 m ρ c (Proc.devRef .tc main_arg2)
    _ = Bd6 m ρ c (Proc.devRef .tc main_arg2) := StableHlo.after_of_writes_sub hostOps3 _ hostOps3_writes (by decide)
    _ = Bd5 m ρ c (Proc.devRef .tc main_arg2) := Bd6_of_ne m ρ c main_arg2 (by decide)
    _ = Bd4 m ρ c (Proc.devRef .tc main_arg2) := StableHlo.after_of_writes_sub hostOps2 _ hostOps2_writes (by decide)
    _ = Bd3 m ρ c (Proc.devRef .tc main_arg2) := Bd4_of_ne m ρ c main_arg2 (by decide)
    _ = Bd2 m ρ c (Proc.devRef .tc main_arg2) := StableHlo.after_of_writes_sub hostOps1 _ hostOps1_writes (by decide)
    _ = Bd1 m ρ c (Proc.devRef .tc main_arg2) := Bd2_of_ne m ρ c main_arg2 (by decide)
    _ = Bd0 m ρ c (Proc.devRef .tc main_arg2) := StableHlo.after_of_writes_sub hostOps0 _ hostOps0_writes (by decide)
    _ = m ((c : Thread nD τ).loc main_arg2) := rfl
theorem Bd7_main_arg3 (c : Dev nD) : Bd7 m ρ c (Proc.devRef .tc main_arg3) = m ((c : Thread nD τ).loc main_arg3) :=
  calc Bd7 m ρ c (Proc.devRef .tc main_arg3)
    _ = Bd6 m ρ c (Proc.devRef .tc main_arg3) := StableHlo.after_of_writes_sub hostOps3 _ hostOps3_writes (by decide)
    _ = Bd5 m ρ c (Proc.devRef .tc main_arg3) := Bd6_of_ne m ρ c main_arg3 (by decide)
    _ = Bd4 m ρ c (Proc.devRef .tc main_arg3) := StableHlo.after_of_writes_sub hostOps2 _ hostOps2_writes (by decide)
    _ = Bd3 m ρ c (Proc.devRef .tc main_arg3) := Bd4_of_ne m ρ c main_arg3 (by decide)
    _ = Bd2 m ρ c (Proc.devRef .tc main_arg3) := StableHlo.after_of_writes_sub hostOps1 _ hostOps1_writes (by decide)
    _ = Bd1 m ρ c (Proc.devRef .tc main_arg3) := Bd2_of_ne m ρ c main_arg3 (by decide)
    _ = Bd0 m ρ c (Proc.devRef .tc main_arg3) := StableHlo.after_of_writes_sub hostOps0 _ hostOps0_writes (by decide)
    _ = m ((c : Thread nD τ).loc main_arg3) := rfl
theorem Bd7_main_arg4 (c : Dev nD) : Bd7 m ρ c (Proc.devRef .tc main_arg4) = m ((c : Thread nD τ).loc main_arg4) :=
  calc Bd7 m ρ c (Proc.devRef .tc main_arg4)
    _ = Bd6 m ρ c (Proc.devRef .tc main_arg4) := StableHlo.after_of_writes_sub hostOps3 _ hostOps3_writes (by decide)
    _ = Bd5 m ρ c (Proc.devRef .tc main_arg4) := Bd6_of_ne m ρ c main_arg4 (by decide)
    _ = Bd4 m ρ c (Proc.devRef .tc main_arg4) := StableHlo.after_of_writes_sub hostOps2 _ hostOps2_writes (by decide)
    _ = Bd3 m ρ c (Proc.devRef .tc main_arg4) := Bd4_of_ne m ρ c main_arg4 (by decide)
    _ = Bd2 m ρ c (Proc.devRef .tc main_arg4) := StableHlo.after_of_writes_sub hostOps1 _ hostOps1_writes (by decide)
    _ = Bd1 m ρ c (Proc.devRef .tc main_arg4) := Bd2_of_ne m ρ c main_arg4 (by decide)
    _ = Bd0 m ρ c (Proc.devRef .tc main_arg4) := StableHlo.after_of_writes_sub hostOps0 _ hostOps0_writes (by decide)
    _ = m ((c : Thread nD τ).loc main_arg4) := rfl
theorem Bd7_main_arg5 (c : Dev nD) : Bd7 m ρ c (Proc.devRef .tc main_arg5) = m ((c : Thread nD τ).loc main_arg5) :=
  calc Bd7 m ρ c (Proc.devRef .tc main_arg5)
    _ = Bd6 m ρ c (Proc.devRef .tc main_arg5) := StableHlo.after_of_writes_sub hostOps3 _ hostOps3_writes (by decide)
    _ = Bd5 m ρ c (Proc.devRef .tc main_arg5) := Bd6_of_ne m ρ c main_arg5 (by decide)
    _ = Bd4 m ρ c (Proc.devRef .tc main_arg5) := StableHlo.after_of_writes_sub hostOps2 _ hostOps2_writes (by decide)
    _ = Bd3 m ρ c (Proc.devRef .tc main_arg5) := Bd4_of_ne m ρ c main_arg5 (by decide)
    _ = Bd2 m ρ c (Proc.devRef .tc main_arg5) := StableHlo.after_of_writes_sub hostOps1 _ hostOps1_writes (by decide)
    _ = Bd1 m ρ c (Proc.devRef .tc main_arg5) := Bd2_of_ne m ρ c main_arg5 (by decide)
    _ = Bd0 m ρ c (Proc.devRef .tc main_arg5) := StableHlo.after_of_writes_sub hostOps0 _ hostOps0_writes (by decide)
    _ = m ((c : Thread nD τ).loc main_arg5) := rfl
theorem Bd7_main_arg6 (c : Dev nD) : Bd7 m ρ c (Proc.devRef .tc main_arg6) = m ((c : Thread nD τ).loc main_arg6) :=
  calc Bd7 m ρ c (Proc.devRef .tc main_arg6)
    _ = Bd6 m ρ c (Proc.devRef .tc main_arg6) := StableHlo.after_of_writes_sub hostOps3 _ hostOps3_writes (by decide)
    _ = Bd5 m ρ c (Proc.devRef .tc main_arg6) := Bd6_of_ne m ρ c main_arg6 (by decide)
    _ = Bd4 m ρ c (Proc.devRef .tc main_arg6) := StableHlo.after_of_writes_sub hostOps2 _ hostOps2_writes (by decide)
    _ = Bd3 m ρ c (Proc.devRef .tc main_arg6) := Bd4_of_ne m ρ c main_arg6 (by decide)
    _ = Bd2 m ρ c (Proc.devRef .tc main_arg6) := StableHlo.after_of_writes_sub hostOps1 _ hostOps1_writes (by decide)
    _ = Bd1 m ρ c (Proc.devRef .tc main_arg6) := Bd2_of_ne m ρ c main_arg6 (by decide)
    _ = Bd0 m ρ c (Proc.devRef .tc main_arg6) := StableHlo.after_of_writes_sub hostOps0 _ hostOps0_writes (by decide)
    _ = m ((c : Thread nD τ).loc main_arg6) := rfl
theorem Bd7_main_arg7 (c : Dev nD) : Bd7 m ρ c (Proc.devRef .tc main_arg7) = m ((c : Thread nD τ).loc main_arg7) :=
  calc Bd7 m ρ c (Proc.devRef .tc main_arg7)
    _ = Bd6 m ρ c (Proc.devRef .tc main_arg7) := StableHlo.after_of_writes_sub hostOps3 _ hostOps3_writes (by decide)
    _ = Bd5 m ρ c (Proc.devRef .tc main_arg7) := Bd6_of_ne m ρ c main_arg7 (by decide)
    _ = Bd4 m ρ c (Proc.devRef .tc main_arg7) := StableHlo.after_of_writes_sub hostOps2 _ hostOps2_writes (by decide)
    _ = Bd3 m ρ c (Proc.devRef .tc main_arg7) := Bd4_of_ne m ρ c main_arg7 (by decide)
    _ = Bd2 m ρ c (Proc.devRef .tc main_arg7) := StableHlo.after_of_writes_sub hostOps1 _ hostOps1_writes (by decide)
    _ = Bd1 m ρ c (Proc.devRef .tc main_arg7) := Bd2_of_ne m ρ c main_arg7 (by decide)
    _ = Bd0 m ρ c (Proc.devRef .tc main_arg7) := StableHlo.after_of_writes_sub hostOps0 _ hostOps0_writes (by decide)
    _ = m ((c : Thread nD τ).loc main_arg7) := rfl
theorem Bd7_main_arg8 (c : Dev nD) : Bd7 m ρ c (Proc.devRef .tc main_arg8) = m ((c : Thread nD τ).loc main_arg8) :=
  calc Bd7 m ρ c (Proc.devRef .tc main_arg8)
    _ = Bd6 m ρ c (Proc.devRef .tc main_arg8) := StableHlo.after_of_writes_sub hostOps3 _ hostOps3_writes (by decide)
    _ = Bd5 m ρ c (Proc.devRef .tc main_arg8) := Bd6_of_ne m ρ c main_arg8 (by decide)
    _ = Bd4 m ρ c (Proc.devRef .tc main_arg8) := StableHlo.after_of_writes_sub hostOps2 _ hostOps2_writes (by decide)
    _ = Bd3 m ρ c (Proc.devRef .tc main_arg8) := Bd4_of_ne m ρ c main_arg8 (by decide)
    _ = Bd2 m ρ c (Proc.devRef .tc main_arg8) := StableHlo.after_of_writes_sub hostOps1 _ hostOps1_writes (by decide)
    _ = Bd1 m ρ c (Proc.devRef .tc main_arg8) := Bd2_of_ne m ρ c main_arg8 (by decide)
    _ = Bd0 m ρ c (Proc.devRef .tc main_arg8) := StableHlo.after_of_writes_sub hostOps0 _ hostOps0_writes (by decide)
    _ = m ((c : Thread nD τ).loc main_arg8) := rfl

/-! ## The proof data family and the thread state -/

/-- No pipeline has a prefetched table. -/
abbrev admH : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) admH p) c
  | ⟨0, _⟩ => fun c => dat0 (En0 m ρ) c
  | ⟨1, _⟩ => fun c => dat1 (En1 m ρ) c
  | ⟨2, _⟩ => fun c => dat2 (En2 m ρ) c
abbrev 𝒱₀ : Variants := Variants.none
/-- No core owes another anything: no level is assigned. -/
abbrev Lh : GSem nD τ sig → Finset Unit := fun _ => ∅
abbrev lvh : GSem nD τ sig → Unit → ℕ := fun _ _ => 0
/-- What rides beside the buffers through every segment: the core's generator register at some state and its dues, at nothing. -/
abbrev Rst (c : Dev nD) : sProp 𝕄 := iprop((∃ r, prngReg c r) ∗ ∃ W, owes (c : Thread nD τ) (0 : CellTallies nD τ sig Unit) W)
/-- A host stretch as a segment over the unscoped references from the contents `W`, `Rst` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lh lvh :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `Bd7`, the generator register at some state. -/
abbrev Tend (c : Dev nD) : sProp 𝕄 := iprop(StableHlo.held (c : Thread nD τ) (Pipeline.ucRefs τ sig) (Bd7 m ρ c) ∗ ∃ r, prngReg c r)

/-! ## The regions as segments -/

set_option backward.isDefEq.respectTransparency.types false in
/-- Region 0 over the thread state: entered from every unscoped buffer at its entry contents, left at its exit contents.
    Its arrays are split out of the unscoped buffers and put back at the exit contents; the generator register goes into
    the kernel's invariant and comes out; nothing is owed; the kernel has no semaphore of its own. -/
def reg0 : Pipeline.RegionSeg (pcfgs (F := F)) admH (pdats m ρ) () defs₀ 𝒱₀ Lh lvh 0 where
  win := launch0.win.to₀
  block_pos := launch0.block_pos
  stage_whole := launch0.stage_whole
  K := PEmpty
  osem k := k.elim
  ho := Pipeline.OwnSemFacts.none _
  hbody c := (body_obligation0 (En0 m ρ) c).loose
  hwaits := Pipeline.hwaits_of_owed_zero _ _ _ _ Lh lvh 0 fun _ _ => rfl
  pre c := iprop(StableHlo.held (c : Thread nD τ) (Pipeline.ucRefs τ sig) (Bd1 m ρ c) ∗ Rst c)
  post c := iprop(StableHlo.held (c : Thread nD τ) (Pipeline.ucRefs τ sig) (Bd2 m ρ c) ∗ Rst c)
  X c := iprop(∃ r, prngReg c r)
  Y c := iprop(∃ r, prngReg c r)
  Z c := Pipeline.unscopedRest (Ix := Unit) (Name := ℕ) (U := UR sig nD τ) (Lvl := ℕ) spec0 c (En0 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (En0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (En0 m ρ c) (Ex0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at its entry contents, left at its exit contents.
    Its arrays are split out of the unscoped buffers and put back at the exit contents; the generator register goes into
    the kernel's invariant and comes out; nothing is owed; the kernel has no semaphore of its own. -/
def reg1 : Pipeline.RegionSeg (pcfgs (F := F)) admH (pdats m ρ) () defs₀ 𝒱₀ Lh lvh 1 where
  win := launch1.win.to₀
  block_pos := launch1.block_pos
  stage_whole := launch1.stage_whole
  K := PEmpty
  osem k := k.elim
  ho := Pipeline.OwnSemFacts.none _
  hbody c := (body_obligation1 (En1 m ρ) c).loose
  hwaits := Pipeline.hwaits_of_owed_zero _ _ _ _ Lh lvh 1 fun _ _ => rfl
  pre c := iprop(StableHlo.held (c : Thread nD τ) (Pipeline.ucRefs τ sig) (Bd3 m ρ c) ∗ Rst c)
  post c := iprop(StableHlo.held (c : Thread nD τ) (Pipeline.ucRefs τ sig) (Bd4 m ρ c) ∗ Rst c)
  X c := iprop(∃ r, prngReg c r)
  Y c := iprop(∃ r, prngReg c r)
  Z c := Pipeline.unscopedRest (Ix := Unit) (Name := ℕ) (U := UR sig nD τ) (Lvl := ℕ) spec1 c (En1 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (En1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (En1 m ρ c) (Ex1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at its entry contents, left at its exit contents.
    Its arrays are split out of the unscoped buffers and put back at the exit contents; the generator register goes into
    the kernel's invariant and comes out; nothing is owed; the kernel has no semaphore of its own. -/
def reg2 : Pipeline.RegionSeg (pcfgs (F := F)) admH (pdats m ρ) () defs₀ 𝒱₀ Lh lvh 2 where
  win := launch2.win.to₀
  block_pos := launch2.block_pos
  stage_whole := launch2.stage_whole
  K := PEmpty
  osem k := k.elim
  ho := Pipeline.OwnSemFacts.none _
  hbody c := (body_obligation2 (En2 m ρ) c).loose
  hwaits := Pipeline.hwaits_of_owed_zero _ _ _ _ Lh lvh 2 fun _ _ => rfl
  pre c := iprop(StableHlo.held (c : Thread nD τ) (Pipeline.ucRefs τ sig) (Bd5 m ρ c) ∗ Rst c)
  post c := iprop(StableHlo.held (c : Thread nD τ) (Pipeline.ucRefs τ sig) (Bd6 m ρ c) ∗ Rst c)
  X c := iprop(∃ r, prngReg c r)
  Y c := iprop(∃ r, prngReg c r)
  Z c := Pipeline.unscopedRest (Ix := Unit) (Name := ℕ) (U := UR sig nD τ) (Lvl := ℕ) spec2 c (En2 m ρ c)
  hentry c := by
    rw [Pipeline.ownSems0_none]
    have hsplit := Pipeline.arrays_of_unscopedBufs (p := 2) (pcfgs (F := F)) admH (pdats m ρ) launch2.win launch2.arr_whole c
      ((pdats m ρ 2 c).share_full fun _ => rfl) (En2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m ρ) ((pdats m ρ 2 c).share_full fun _ => rfl)
      (En2 m ρ c) (Ex2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The entry function as segments, and the launch -/

/-- The entry function's seven segments in order. -/
abbrev segs : List (Pipeline.Seg (pcfgs (F := F)) admH (pdats m ρ) () defs₀ 𝒱₀ Lh lvh) :=
  [ .host (hseg hostOps0 hostOps0_sub hostOps0_fresh (Bd0 m ρ)),
    .region (reg0 m ρ),
    .host (hseg hostOps1 hostOps1_sub hostOps1_fresh (Bd2 m ρ)),
    .region (reg1 m ρ),
    .host (hseg hostOps2 hostOps2_sub hostOps2_fresh (Bd4 m ρ)),
    .region (reg2 m ρ),
    .host (hseg hostOps3 hostOps3_sub hostOps3_fresh (Bd6 m ρ)) ]
/-- The entry function IS the run of the segments. -/
theorem main_run (c : Dev nD) : main (F := F) c = Pipeline.Seg.run (segs m ρ) := (main_chain c).trans (by chain_rfl)

set_option backward.isDefEq.respectTransparency.types false in
/-- THE RUN: from any memory with zero counters every weakly fair execution of the entry function terminates, nothing
    faulting, and every final state holds every unscoped buffer of every core at `Bd7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Bd7 m ρ c b) :=
  Pipeline.θ_run_regions_kit (pcfgs (F := F)) admH (pdats m ρ) () cellOf_inj emb₁ defs₀ 𝒱₀ Lh lvh m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m ρ c) ∗ Rst c)) (Tₙ := Tend m ρ)
    (hch := ⟨fun _ => .rfl, fun _ => .rfl, fun _ => .rfl, fun _ => .rfl, fun _ => .rfl, fun _ => .rfl, fun _ => .rfl, fun c => by
      -- the last stretch's post-state is the final thread state beside the core's dues, re-associated
      show iprop(StableHlo.held (c : Thread nD τ) (Pipeline.ucRefs τ sig) (Bd7 m ρ c) ∗ Rst c)
        ⊢ iprop(Tend m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach Lh lvh fun c => ?_
      rw [show unscopedBufs c (fun b => m ((c : Thread nD τ).loc b)) = StableHlo.held (c : Thread nD τ) (Pipeline.ucRefs τ sig) (Bd0 m ρ c)
        from Pipeline.unscopedBufs_held c (Bd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd7 m ρ c b)
    (hfin := fun c s' => by
      iintro ⟨⟨Hh, -⟩, HSI⟩
      unfold StableHlo.held
      imodintro
      iapply (pointsTo_read_all (Pipeline.ucRefs τ sig) (fun b => (((c : Thread nD τ)).1, b)) (Bd7 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)) :=
  (θ_run defs _ _).mono (fun r h c => ⟨(h c _ (mem_uc main_arg0 (by decide))).trans (Bd7_main_arg0 m ρ c),
    (h c _ (mem_uc main_arg1 (by decide))).trans (Bd7_main_arg1 m ρ c),
    (h c _ (mem_uc main_arg2 (by decide))).trans (Bd7_main_arg2 m ρ c),
    (h c _ (mem_uc main_arg3 (by decide))).trans (Bd7_main_arg3 m ρ c),
    (h c _ (mem_uc main_arg4 (by decide))).trans (Bd7_main_arg4 m ρ c),
    (h c _ (mem_uc main_arg5 (by decide))).trans (Bd7_main_arg5 m ρ c),
    (h c _ (mem_uc main_arg6 (by decide))).trans (Bd7_main_arg6 m ρ c),
    (h c _ (mem_uc main_arg7 (by decide))).trans (Bd7_main_arg7 m ρ c),
    (h c _ (mem_uc main_arg8 (by decide))).trans (Bd7_main_arg8 m ρ c)⟩) (run_all m ρ)

end Cert.KernelIdeal.Hand

end
-- ==== Proof.RefRun.lean ====
/-
  The reference program's run and its stages read at an index (the generated modules), gathered under one import.
-/
import proofs.«144204_j5497558139332_2_alg».proof.Proof.Gen.ReferenceIdeal.Run
import proofs.«144204_j5497558139332_2_alg».proof.Proof.Gen.ReferenceIdeal.Read
-- ==== Proof.Frames.lean ====
/-
  Four of the five claims. Each of the two kernel programs (the word-level one and its idealization) runs to the end
  without a fault and leaves its nine argument arrays as launched: no host re-layout writes an argument and no kernel
  region has an argument among the arrays it stages, so following each argument's buffer through the seven segments of
  the run leads back to the launch memory. The reference program has no kernel; its frame is its run with the result
  dropped. The idealization applied no rewrite to the kernel, so there is nothing to preserve.
-/
import proofs.«144204_j5497558139332_2_alg».proof.Defs
import proofs.«144204_j5497558139332_2_alg».proof.Proof.Kernel.Run
import proofs.«144204_j5497558139332_2_alg».proof.Proof.KernelIdeal.Run
import proofs.«144204_j5497558139332_2_alg».proof.Proof.RefRun
import proofs.«144204_j5497558139332_2_alg».proof.Proof.Gen.Kernel
import proofs.«144204_j5497558139332_2_alg».proof.Proof.Gen.KernelIdeal
import proofs.«144204_j5497558139332_2_alg».proof.Proof.Gen.ReferenceIdeal
import proofs.«144204_j5497558139332_2_alg».proof.Proof.Gen.Pre_finite_inputs

noncomputable section

namespace Cert.Proof.Frames

open Idealize.ShloMosaic Idealize.SL.Sem

theorem frame_kernel : Cert.frame_Kernel := fun m ρ _ => Cert.Kernel.Hand.frame m ρ

theorem frame_kernelIdeal : Cert.frame_KernelIdeal := fun m ρ _ => Cert.KernelIdeal.Hand.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

end Cert.Proof.Frames

end
-- ==== Proof.LibNary3.lean ====
/-
  A host operation over a literal family of three operand buffers (a concatenation of three arrays): its result is its
  function applied to the three operands' contents, each read at its own buffer, so that the contents of the operands
  can in turn be rewritten one by one.
-/
import Idealize.ShloMosaic.Lib.StableHlo.Run

noncomputable section

namespace Cert.LibNary3

open Idealize.ShloMosaic Idealize.ShloMosaic.StableHlo

variable {τ : Topo} {sig : RefSig} {Val : EltTy → Type}

/-- The result of an operation over the literal family of three operands x, a, b, written to y: the operation's
    function of the family whose entries are the contents at x, at a and at b (in place of the contents at the k-th
    entry of the family, under a binder). -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Cert.LibNary3

end
-- ==== Proof.KernelIdeal.Relayout.lean ====
/-
  The host re-layouts between the kernel regions, read at an index. Each is a change of arrangement of an array's
  entries and moves no value: a reshape between [4, 2048, 1024] and [8192, 1024] pairs (β, s, e) with (2048β + s, e);
  a reshape [1024] → [1, 1024] adds a unit axis; a transpose exchanges the two coordinates; the change of float format
  is the identity on the extended reals; a concatenation along the first axis of three arrays of 1024 rows reads row j
  of the result from array j / 1024 at row j % 1024.
-/
import proofs.«144204_j5497558139332_2_alg».proof.Proof.KernelIdeal.Run
import Idealize.ShloMosaic.Lib.StableHlo.Run
import Idealize.ShloMosaic.Lib.Pipeline.Value
import Idealize.ShloMosaic.Lib.ValueLayout
import Idealize.ShloMosaic.Lib.ValueIdx
import Idealize.ShloMosaic.PureOps.Ideal
import proofs.«144204_j5497558139332_2_alg».proof.Proof.LibNary3

noncomputable section

namespace Cert.KernelIdeal.Hand

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-! ## Arguments that reach a later stretch unchanged -/

/-- The output weight matrix is as launched when the third stretch reads it. -/
theorem Bd4_main_arg7 (c : Dev nD) : Bd4 (F := Ideal) m ρ c (Proc.devRef .tc main_arg7) = m ((c : Thread nD τ).loc main_arg7) :=
  calc Bd4 (F := Ideal) m ρ c (Proc.devRef .tc main_arg7)
    _ = Bd3 m ρ c (Proc.devRef .tc main_arg7) := Bd4_of_ne m ρ c main_arg7 (by decide)
    _ = Bd2 m ρ c (Proc.devRef .tc main_arg7) := StableHlo.after_of_writes_sub hostOps1 _ hostOps1_writes (by decide)
    _ = Bd1 m ρ c (Proc.devRef .tc main_arg7) := Bd2_of_ne m ρ c main_arg7 (by decide)
    _ = Bd0 m ρ c (Proc.devRef .tc main_arg7) := StableHlo.after_of_writes_sub hostOps0 _ hostOps0_writes (by decide)
    _ = m ((c : Thread nD τ).loc main_arg7) := rfl

/-- The output bias is as launched when the third stretch reads it. -/
theorem Bd4_main_arg8 (c : Dev nD) : Bd4 (F := Ideal) m ρ c (Proc.devRef .tc main_arg8) = m ((c : Thread nD τ).loc main_arg8) :=
  calc Bd4 (F := Ideal) m ρ c (Proc.devRef .tc main_arg8)
    _ = Bd3 m ρ c (Proc.devRef .tc main_arg8) := Bd4_of_ne m ρ c main_arg8 (by decide)
    _ = Bd2 m ρ c (Proc.devRef .tc main_arg8) := StableHlo.after_of_writes_sub hostOps1 _ hostOps1_writes (by decide)
    _ = Bd1 m ρ c (Proc.devRef .tc main_arg8) := Bd2_of_ne m ρ c main_arg8 (by decide)
    _ = Bd0 m ρ c (Proc.devRef .tc main_arg8) := StableHlo.after_of_writes_sub hostOps0 _ hostOps0_writes (by decide)
    _ = m ((c : Thread nD τ).loc main_arg8) := rfl

/-! ## The reshapes between [4, 2048, 1024] and [8192, 1024] -/

/-- Row 2048β + s of the [8192, 1024] arrangement is row (β, s) of the [4, 2048, 1024] one. -/
theorem flatten_apply {α : Type} (X : S4x2048x1024.Idx → α) (h : S4x2048x1024.ShapeCasts S8192x1024)
    (β : Fin 4) (s : Fin 2048) (e : Fin 1024) (r : Fin 8192) (hr : r.val = β.val * 2048 + s.val) :
    shapeCast S8192x1024 X h (ix2 r e) = X (ix3 β s e) := by
  refine shapeCast_apply X h (ix2 r e) (ix3 β s e) ?_
  rw [Shape.rowMajor_val_three, Shape.rowMajor_val_two]
  show (β.val * 2048 + s.val) * 1024 + e.val = r.val * 1024 + e.val
  rw [hr]

/-- Row (β, s) of the [4, 2048, 1024] arrangement is row 2048β + s of the [8192, 1024] one. -/
theorem unflatten_apply {α : Type} (X : S8192x1024.Idx → α) (h : S8192x1024.ShapeCasts S4x2048x1024)
    (β : Fin 4) (s : Fin 2048) (e : Fin 1024) (r : Fin 8192) (hr : r.val = β.val * 2048 + s.val) :
    shapeCast S4x2048x1024 X h (ix3 β s e) = X (ix2 r e) := by
  refine shapeCast_apply X h (ix3 β s e) (ix2 r e) ?_
  rw [Shape.rowMajor_val_three, Shape.rowMajor_val_two]
  show r.val * 1024 + e.val = (β.val * 2048 + s.val) * 1024 + e.val
  rw [hr]

/-- The activations as the first kernel finds them: [8192, 1024], row 2048β + s the launch row (β, s). -/
theorem En0_main_v0 (c : Dev nD) (β : Fin 4) (s : Fin 2048) (e : Fin 1024) (r : Fin 8192) (hr : r.val = β.val * 2048 + s.val) :
    En0 (F := Ideal) m ρ c main_v0 (ix2 r e) = m ((c : Thread nD τ).loc main_arg0) (ix3 β s e) := by
  have harr : (Bd1 (F := Ideal) m ρ c (Proc.devRef .tc main_v0) : S8192x1024.Idx → EReal)
      = shapeCast S8192x1024 (m ((c : Thread nD τ).loc main_arg0)) shapeCasts_S4x2048x1024_S8192x1024 := by
    show StableHlo.after hostOps0 (Bd0 (F := Ideal) m ρ c) (Proc.devRef .tc main_v0) = _
    after_results
    rfl
  show (Bd1 (F := Ideal) m ρ c (Proc.devRef .tc main_v0) : S8192x1024.Idx → EReal) (ix2 r e) = _
  rw [harr]
  exact flatten_apply _ _ β s e r hr

/-- The three projections as the second kernel finds them: [4, 2048, 1024], row (β, s) the first kernel's row 2048β + s. -/
theorem En1_main_v7 (c : Dev nD) (β : Fin 4) (s : Fin 2048) (n : Fin 1024) (r : Fin 8192) (hr : r.val = β.val * 2048 + s.val) :
    En1 (F := Ideal) m ρ c main_v7 (ix3 β s n) = Bd2 (F := Ideal) m ρ c (Proc.devRef .tc main_v6_0) (ix2 r n) := by
  have harr : (Bd3 (F := Ideal) m ρ c (Proc.devRef .tc main_v7) : S4x2048x1024.Idx → Ideal .bf16)
      = shapeCast S4x2048x1024 (Bd2 (F := Ideal) m ρ c (Proc.devRef .tc main_v6_0)) shapeCasts_S8192x1024_S4x2048x1024 := by
    show StableHlo.after hostOps1 (Bd2 (F := Ideal) m ρ c) (Proc.devRef .tc main_v7) = _
    after_results
    rfl
  show (Bd3 (F := Ideal) m ρ c (Proc.devRef .tc main_v7) : S4x2048x1024.Idx → Ideal .bf16) (ix3 β s n) = _
  rw [harr]
  exact unflatten_apply _ _ β s n r hr

theorem En1_main_v8 (c : Dev nD) (β : Fin 4) (s : Fin 2048) (n : Fin 1024) (r : Fin 8192) (hr : r.val = β.val * 2048 + s.val) :
    En1 (F := Ideal) m ρ c main_v8 (ix3 β s n) = Bd2 (F := Ideal) m ρ c (Proc.devRef .tc main_v6_1) (ix2 r n) := by
  have harr : (Bd3 (F := Ideal) m ρ c (Proc.devRef .tc main_v8) : S4x2048x1024.Idx → Ideal .bf16)
      = shapeCast S4x2048x1024 (Bd2 (F := Ideal) m ρ c (Proc.devRef .tc main_v6_1)) shapeCasts_S8192x1024_S4x2048x1024 := by
    show StableHlo.after hostOps1 (Bd2 (F := Ideal) m ρ c) (Proc.devRef .tc main_v8) = _
    after_results
    rfl
  show (Bd3 (F := Ideal) m ρ c (Proc.devRef .tc main_v8) : S4x2048x1024.Idx → Ideal .bf16) (ix3 β s n) = _
  rw [harr]
  exact unflatten_apply _ _ β s n r hr

theorem En1_main_v9 (c : Dev nD) (β : Fin 4) (s : Fin 2048) (n : Fin 1024) (r : Fin 8192) (hr : r.val = β.val * 2048 + s.val) :
    En1 (F := Ideal) m ρ c main_v9 (ix3 β s n) = Bd2 (F := Ideal) m ρ c (Proc.devRef .tc main_v6_2) (ix2 r n) := by
  have harr : (Bd3 (F := Ideal) m ρ c (Proc.devRef .tc main_v9) : S4x2048x1024.Idx → Ideal .bf16)
      = shapeCast S4x2048x1024 (Bd2 (F := Ideal) m ρ c (Proc.devRef .tc main_v6_2)) shapeCasts_S8192x1024_S4x2048x1024 := by
    show StableHlo.after hostOps1 (Bd2 (F := Ideal) m ρ c) (Proc.devRef .tc main_v9) = _
    after_results
    rfl
  show (Bd3 (F := Ideal) m ρ c (Proc.devRef .tc main_v9) : S4x2048x1024.Idx → Ideal .bf16) (ix3 β s n) = _
  rw [harr]
  exact unflatten_apply _ _ β s n r hr

/-- The attention output as the third kernel finds it: [8192, 1024], row 2048β + s the second kernel's row (β, s). -/
theorem En2_main_v11 (c : Dev nD) (β : Fin 4) (s : Fin 2048) (n : Fin 1024) (r : Fin 8192) (hr : r.val = β.val * 2048 + s.val) :
    En2 (F := Ideal) m ρ c main_v11 (ix2 r n) = Bd4 (F := Ideal) m ρ c (Proc.devRef .tc main_v10) (ix3 β s n) := by
  have harr : (Bd5 (F := Ideal) m ρ c (Proc.devRef .tc main_v11) : S8192x1024.Idx → Ideal .bf16)
      = shapeCast S8192x1024 (Bd4 (F := Ideal) m ρ c (Proc.devRef .tc main_v10)) shapeCasts_S4x2048x1024_S8192x1024 := by
    show StableHlo.after hostOps2 (Bd4 (F := Ideal) m ρ c) (Proc.devRef .tc main_v11) = _
    after_results
    rfl
  show (Bd5 (F := Ideal) m ρ c (Proc.devRef .tc main_v11) : S8192x1024.Idx → Ideal .bf16) (ix2 r n) = _
  rw [harr]
  exact flatten_apply _ _ β s n r hr

/-- The layer's result: [4, 2048, 1024], row (β, s) the third kernel's row 2048β + s. -/
theorem Bd7_main_v16 (c : Dev nD) (β : Fin 4) (s : Fin 2048) (e : Fin 1024) (r : Fin 8192) (hr : r.val = β.val * 2048 + s.val) :
    Bd7 (F := Ideal) m ρ c (Proc.devRef .tc main_v16) (ix3 β s e) = Bd6 (F := Ideal) m ρ c (Proc.devRef .tc main_v15) (ix2 r e) := by
  have harr : (Bd7 (F := Ideal) m ρ c (Proc.devRef .tc main_v16) : S4x2048x1024.Idx → EReal)
      = shapeCast S4x2048x1024 (Bd6 (F := Ideal) m ρ c (Proc.devRef .tc main_v15)) shapeCasts_S8192x1024_S4x2048x1024 := by
    show StableHlo.after hostOps3 (Bd6 (F := Ideal) m ρ c) (Proc.devRef .tc main_v16) = _
    after_results
    rfl
  show (Bd7 (F := Ideal) m ρ c (Proc.devRef .tc main_v16) : S4x2048x1024.Idx → EReal) (ix3 β s e) = _
  rw [harr]
  exact unflatten_apply _ _ β s e r hr

/-! ## The output weight transposed, the output bias as a row -/

/-- The output weight as the third kernel finds it: entry (n, e) is the launch entry (e, n). -/
theorem En2_main_v13 (c : Dev nD) (n e : Fin 1024) :
    En2 (F := Ideal) m ρ c main_v13 (ix2 n e) = m ((c : Thread nD τ).loc main_arg7) (ix2 e n) := by
  have harr : (Bd5 (F := Ideal) m ρ c (Proc.devRef .tc main_v13) : S1024x1024.Idx → Ideal .bf16)
      = (truncf (F := Ideal) .bf16 (transpose S1024x1024 [1, 0]
            (Bd4 (F := Ideal) m ρ c (Proc.devRef .tc main_arg7) : S1024x1024.Idx → Ideal .f32) transposes_S1024x1024_S1024x1024_1_0)
          bitsLt_bf16_f32 : S1024x1024.Idx → Ideal .bf16) := by
    show StableHlo.after hostOps2 (Bd4 (F := Ideal) m ρ c) (Proc.devRef .tc main_v13) = _
    after_results
  show (Bd5 (F := Ideal) m ρ c (Proc.devRef .tc main_v13) : S1024x1024.Idx → Ideal .bf16) (ix2 n e) = _
  rw [harr, Bd4_main_arg7, truncf_apply]
  exact transpose_ix2_apply _ _ n e

/-- The output bias as the third kernel finds it: the one row of a [1, 1024] array. -/
theorem En2_main_v14 (c : Dev nD) (e : Fin 1024) :
    En2 (F := Ideal) m ρ c main_v14 (ix2 (0 : Fin 1) e) = m ((c : Thread nD τ).loc main_arg8) (ix1 e) := by
  have harr : (Bd5 (F := Ideal) m ρ c (Proc.devRef .tc main_v14) : S1x1024.Idx → EReal)
      = shapeCast S1x1024 (Bd4 (F := Ideal) m ρ c (Proc.devRef .tc main_arg8)) shapeCasts_S1024_S1x1024 := by
    show StableHlo.after hostOps2 (Bd4 (F := Ideal) m ρ c) (Proc.devRef .tc main_v14) = _
    after_results
    rfl
  show (Bd5 (F := Ideal) m ρ c (Proc.devRef .tc main_v14) : S1x1024.Idx → EReal) (ix2 (0 : Fin 1) e) = _
  rw [harr, Bd4_main_arg8]
  exact shapeCast_a_1a_apply _ _ (0 : Fin 1) e

/-! ## The three weight matrices stacked and transposed, the three biases joined into a row -/

/-- The contents of a buffer after a stretch of host operations: each operation's result at its own buffer is its
    function of its operands' contents, and any other buffer is as before. -/
local macro "host_results" : tactic =>
  `(tactic| (simp only [StableHlo.after_cons, StableHlo.after_nil]
             repeat (first
               | rw [Cert.LibNary3.nary3_result] | rw [StableHlo.unary_result] | rw [StableHlo.reshape_result]
               | (rw [StableHlo.reshape_result_ne]; rotate_left; decide)
               | (rw [StableHlo.unary_result_ne]; rotate_left; decide)
               | (rw [StableHlo.nary_result_ne]; rotate_left; decide))))

/-- Row j of three [1024, 1024] arrays stacked along the first axis is row n of the first (j = n), of the second
    (j = 1024 + n) or of the third (j = 2048 + n). -/
theorem stack3_first {α : Type} (A B C : S1024x1024.Idx → α)
    (h : Shape.Concatenates [S1024x1024, S1024x1024, S1024x1024] S3072x1024 0) (j : Fin 3072) (n e : Fin 1024) (hj : j.val = n.val) :
    concatenate S3072x1024 0 [⟨S1024x1024, A⟩, ⟨S1024x1024, B⟩, ⟨S1024x1024, C⟩] h (ix2 j e) = A (ix2 n e) :=
  concatenate_apply_piece (t := S3072x1024) 0 [⟨S1024x1024, A⟩, ⟨S1024x1024, B⟩, ⟨S1024x1024, C⟩] h (ix2 j e) 0 (by show 0 < 3; omega) S1024x1024 A rfl rfl 0 rfl (ix2 n e)
    (fun b hb => match b with | ⟨0, _⟩ => absurd rfl hb | ⟨1, _⟩ => rfl)
    (by show 0 + n.val = j.val; omega)

theorem stack3_second {α : Type} (A B C : S1024x1024.Idx → α)
    (h : Shape.Concatenates [S1024x1024, S1024x1024, S1024x1024] S3072x1024 0) (j : Fin 3072) (n e : Fin 1024) (hj : j.val = 1024 + n.val) :
    concatenate S3072x1024 0 [⟨S1024x1024, A⟩, ⟨S1024x1024, B⟩, ⟨S1024x1024, C⟩] h (ix2 j e) = B (ix2 n e) :=
  concatenate_apply_piece (t := S3072x1024) 0 [⟨S1024x1024, A⟩, ⟨S1024x1024, B⟩, ⟨S1024x1024, C⟩] h (ix2 j e) 1 (by show 1 < 3; omega) S1024x1024 B rfl rfl 1024 rfl (ix2 n e)
    (fun b hb => match b with | ⟨0, _⟩ => absurd rfl hb | ⟨1, _⟩ => rfl)
    (by show 1024 + n.val = j.val; omega)

theorem stack3_third {α : Type} (A B C : S1024x1024.Idx → α)
    (h : Shape.Concatenates [S1024x1024, S1024x1024, S1024x1024] S3072x1024 0) (j : Fin 3072) (n e : Fin 1024) (hj : j.val = 2048 + n.val) :
    concatenate S3072x1024 0 [⟨S1024x1024, A⟩, ⟨S1024x1024, B⟩, ⟨S1024x1024, C⟩] h (ix2 j e) = C (ix2 n e) :=
  concatenate_apply_piece (t := S3072x1024) 0 [⟨S1024x1024, A⟩, ⟨S1024x1024, B⟩, ⟨S1024x1024, C⟩] h (ix2 j e) 2 (by show 2 < 3; omega) S1024x1024 C rfl rfl 2048 rfl (ix2 n e)
    (fun b hb => match b with | ⟨0, _⟩ => absurd rfl hb | ⟨1, _⟩ => rfl)
    (by show 2048 + n.val = j.val; omega)

/-- Entry j of three [1024] arrays joined end to end. -/
theorem join3_first {α : Type} (A B C : S1024.Idx → α)
    (h : Shape.Concatenates [S1024, S1024, S1024] S3072 0) (j : Fin 3072) (n : Fin 1024) (hj : j.val = n.val) :
    concatenate S3072 0 [⟨S1024, A⟩, ⟨S1024, B⟩, ⟨S1024, C⟩] h (ix1 j) = A (ix1 n) :=
  concatenate_apply_piece (t := S3072) 0 [⟨S1024, A⟩, ⟨S1024, B⟩, ⟨S1024, C⟩] h (ix1 j) 0 (by show 0 < 3; omega) S1024 A rfl rfl 0 rfl (ix1 n)
    (fun b hb => match b with | ⟨0, _⟩ => absurd rfl hb)
    (by show 0 + n.val = j.val; omega)

theorem join3_second {α : Type} (A B C : S1024.Idx → α)
    (h : Shape.Concatenates [S1024, S1024, S1024] S3072 0) (j : Fin 3072) (n : Fin 1024) (hj : j.val = 1024 + n.val) :
    concatenate S3072 0 [⟨S1024, A⟩, ⟨S1024, B⟩, ⟨S1024, C⟩] h (ix1 j) = B (ix1 n) :=
  concatenate_apply_piece (t := S3072) 0 [⟨S1024, A⟩, ⟨S1024, B⟩, ⟨S1024, C⟩] h (ix1 j) 1 (by show 1 < 3; omega) S1024 B rfl rfl 1024 rfl (ix1 n)
    (fun b hb => match b with | ⟨0, _⟩ => absurd rfl hb)
    (by show 1024 + n.val = j.val; omega)

theorem join3_third {α : Type} (A B C : S1024.Idx → α)
    (h : Shape.Concatenates [S1024, S1024, S1024] S3072 0) (j : Fin 3072) (n : Fin 1024) (hj : j.val = 2048 + n.val) :
    concatenate S3072 0 [⟨S1024, A⟩, ⟨S1024, B⟩, ⟨S1024, C⟩] h (ix1 j) = C (ix1 n) :=
  concatenate_apply_piece (t := S3072) 0 [⟨S1024, A⟩, ⟨S1024, B⟩, ⟨S1024, C⟩] h (ix1 j) 2 (by show 2 < 3; omega) S1024 C rfl rfl 2048 rfl (ix1 n)
    (fun b hb => match b with | ⟨0, _⟩ => absurd rfl hb)
    (by show 2048 + n.val = j.val; omega)

/-- The fused projection weight as the first kernel finds it: the three weight matrices stacked, then transposed. -/
theorem En0_main_v3_arr (c : Dev nD) :
    (Bd1 (F := Ideal) m ρ c (Proc.devRef .tc main_v3) : S1024x3072.Idx → Ideal .bf16)
      = (truncf (F := Ideal) .bf16 (transpose S1024x3072 [1, 0]
          (concatenate S3072x1024 0 [⟨S1024x1024, (m ((c : Thread nD τ).loc main_arg1) : S1024x1024.Idx → Ideal .f32)⟩,
            ⟨S1024x1024, (m ((c : Thread nD τ).loc main_arg3) : S1024x1024.Idx → Ideal .f32)⟩,
            ⟨S1024x1024, (m ((c : Thread nD τ).loc main_arg5) : S1024x1024.Idx → Ideal .f32)⟩]
            concatenates_S1024x1024_S1024x1024_S1024x1024_S3072x1024_d0)
          transposes_S3072x1024_S1024x3072_1_0) bitsLt_bf16_f32 : S1024x3072.Idx → Ideal .bf16) := by
  show StableHlo.after hostOps0 (Bd0 (F := Ideal) m ρ c) (Proc.devRef .tc main_v3) = _
  host_results
  all_goals rfl

/-- Column j = n of the fused weight is row n of the query weight. -/
theorem En0_main_v3_q (c : Dev nD) (e n : Fin 1024) (j : Fin 3072) (hj : j.val = n.val) :
    En0 (F := Ideal) m ρ c main_v3 (ix2 e j) = m ((c : Thread nD τ).loc main_arg1) (ix2 n e) := by
  show (Bd1 (F := Ideal) m ρ c (Proc.devRef .tc main_v3) : S1024x3072.Idx → Ideal .bf16) (ix2 e j) = _
  rw [En0_main_v3_arr, truncf_apply, transpose_ix2_apply]
  exact stack3_first _ _ _ _ j n e hj

/-- Column j = 1024 + n of the fused weight is row n of the key weight. -/
theorem En0_main_v3_k (c : Dev nD) (e n : Fin 1024) (j : Fin 3072) (hj : j.val = 1024 + n.val) :
    En0 (F := Ideal) m ρ c main_v3 (ix2 e j) = m ((c : Thread nD τ).loc main_arg3) (ix2 n e) := by
  show (Bd1 (F := Ideal) m ρ c (Proc.devRef .tc main_v3) : S1024x3072.Idx → Ideal .bf16) (ix2 e j) = _
  rw [En0_main_v3_arr, truncf_apply, transpose_ix2_apply]
  exact stack3_second _ _ _ _ j n e hj

/-- Column j = 2048 + n of the fused weight is row n of the value weight. -/
theorem En0_main_v3_v (c : Dev nD) (e n : Fin 1024) (j : Fin 3072) (hj : j.val = 2048 + n.val) :
    En0 (F := Ideal) m ρ c main_v3 (ix2 e j) = m ((c : Thread nD τ).loc main_arg5) (ix2 n e) := by
  show (Bd1 (F := Ideal) m ρ c (Proc.devRef .tc main_v3) : S1024x3072.Idx → Ideal .bf16) (ix2 e j) = _
  rw [En0_main_v3_arr, truncf_apply, transpose_ix2_apply]
  exact stack3_third _ _ _ _ j n e hj

/-- The fused bias as the first kernel finds it: the three biases joined, as the one row of a [1, 3072] array. -/
theorem En0_main_v5_arr (c : Dev nD) :
    (Bd1 (F := Ideal) m ρ c (Proc.devRef .tc main_v5) : S1x3072.Idx → EReal)
      = shapeCast S1x3072
          (concatenate S3072 0 [⟨S1024, (m ((c : Thread nD τ).loc main_arg2) : S1024.Idx → Ideal .f32)⟩,
            ⟨S1024, (m ((c : Thread nD τ).loc main_arg4) : S1024.Idx → Ideal .f32)⟩,
            ⟨S1024, (m ((c : Thread nD τ).loc main_arg6) : S1024.Idx → Ideal .f32)⟩]
            concatenates_S1024_S1024_S1024_S3072_d0) shapeCasts_S3072_S1x3072 := by
  show StableHlo.after hostOps0 (Bd0 (F := Ideal) m ρ c) (Proc.devRef .tc main_v5) = _
  host_results
  all_goals rfl

theorem En0_main_v5_q (c : Dev nD) (n : Fin 1024) (j : Fin 3072) (hj : j.val = n.val) :
    En0 (F := Ideal) m ρ c main_v5 (ix2 (0 : Fin 1) j) = m ((c : Thread nD τ).loc main_arg2) (ix1 n) := by
  show (Bd1 (F := Ideal) m ρ c (Proc.devRef .tc main_v5) : S1x3072.Idx → EReal) (ix2 (0 : Fin 1) j) = _
  rw [En0_main_v5_arr, shapeCast_a_1a_apply]
  exact join3_first _ _ _ _ j n hj

theorem En0_main_v5_k (c : Dev nD) (n : Fin 1024) (j : Fin 3072) (hj : j.val = 1024 + n.val) :
    En0 (F := Ideal) m ρ c main_v5 (ix2 (0 : Fin 1) j) = m ((c : Thread nD τ).loc main_arg4) (ix1 n) := by
  show (Bd1 (F := Ideal) m ρ c (Proc.devRef .tc main_v5) : S1x3072.Idx → EReal) (ix2 (0 : Fin 1) j) = _
  rw [En0_main_v5_arr, shapeCast_a_1a_apply]
  exact join3_second _ _ _ _ j n hj

theorem En0_main_v5_v (c : Dev nD) (n : Fin 1024) (j : Fin 3072) (hj : j.val = 2048 + n.val) :
    En0 (F := Ideal) m ρ c main_v5 (ix2 (0 : Fin 1) j) = m ((c : Thread nD τ).loc main_arg6) (ix1 n) := by
  show (Bd1 (F := Ideal) m ρ c (Proc.devRef .tc main_v5) : S1x3072.Idx → EReal) (ix2 (0 : Fin 1) j) = _
  rw [En0_main_v5_arr, shapeCast_a_1a_apply]
  exact join3_third _ _ _ _ j n hj

end Cert.KernelIdeal.Hand

end
-- ==== Proof.KernelIdeal.KerSpecProj.lean ====
/-
  The two linear layers of the attention block, each as ONE function of whole arrays, index by index, over the
  extended reals.

  A linear layer takes an activation array `a0` (rows × features), a weight array `a1` (features × columns) and a
  one-row bias `a2`, and its entry at row `r`, column `n` is the contraction `∑ e, a0[r, e] · a1[e, n]` plus the bias
  `a2[0, n]`. The output projection is that layer as it stands. The fused query/key/value projection is one such layer
  with 3072 columns whose column range is cut in three: columns 0 … 1023 are the queries, scaled by the float 0.125
  (one over the square root of the head width 64, kept as its bit pattern), columns 1024 … 2047 the keys and columns
  2048 … 3071 the values.
-/
import Idealize.ShloMosaic.PureOps.Ideal
import Idealize.ShloMosaic.Lib.ValueIdx

noncomputable section

namespace Cert.KerSpec

open Idealize.ShloMosaic Idealize.ShloMosaic.ValueIdx

/-- One entry of the output projection: row `r` of the [8192, 1024] activations against column `n` of the
    [1024, 1024] weights, plus the bias of column `n`. -/
def linOut (a0 : (⟨2, ![8192, 1024]⟩ : Shape).Idx → EReal) (a1 : (⟨2, ![1024, 1024]⟩ : Shape).Idx → EReal)
    (a2 : (⟨2, ![1, 1024]⟩ : Shape).Idx → EReal) (r : Fin 8192) (n : Fin 1024) : EReal :=
  (∑ e : Fin 1024, a0 (ix2 r e) * a1 (ix2 e n)) + a2 (ix2 (0 : Fin 1) n)

/-- The output projection as a whole [8192, 1024] array. -/
def Out2d (a0 : (⟨2, ![8192, 1024]⟩ : Shape).Idx → EReal) (a1 : (⟨2, ![1024, 1024]⟩ : Shape).Idx → EReal)
    (a2 : (⟨2, ![1, 1024]⟩ : Shape).Idx → EReal) : (⟨2, ![8192, 1024]⟩ : Shape).Idx → EReal :=
  fun i => linOut a0 a1 a2 (i 0) (i 1)

/-- One entry of the fused projection: row `r` of the [8192, 1024] activations against column `n` of the
    [1024, 3072] weights, plus the bias of column `n`. -/
def lin (a0 : (⟨2, ![8192, 1024]⟩ : Shape).Idx → EReal) (a1 : (⟨2, ![1024, 3072]⟩ : Shape).Idx → EReal)
    (a2 : (⟨2, ![1, 3072]⟩ : Shape).Idx → EReal) (r : Fin 8192) (n : Fin 3072) : EReal :=
  (∑ e : Fin 1024, a0 (ix2 r e) * a1 (ix2 e n)) + a2 (ix2 (0 : Fin 1) n)

/-- The column of the fused projection that entry `q` of the part starting at column `off` comes from. -/
def col (off : Nat) (h : off + 1024 ≤ 3072) (q : Fin 1024) : Fin 3072 := ⟨off + q.val, by have := q.isLt; omega⟩

/-- The queries: columns 0 … 1023 of the fused projection, times the float 0.125. -/
def Q2d (a0 : (⟨2, ![8192, 1024]⟩ : Shape).Idx → EReal) (a1 : (⟨2, ![1024, 3072]⟩ : Shape).Idx → EReal)
    (a2 : (⟨2, ![1, 3072]⟩ : Shape).Idx → EReal) : (⟨2, ![8192, 1024]⟩ : Shape).Idx → EReal :=
  fun i => lin a0 a1 a2 (i 0) (col 0 (by decide) (i 1)) * Ideal.ofBits .f32 0x3E000000#32

/-- The keys: columns 1024 … 2047 of the fused projection. -/
def K2d (a0 : (⟨2, ![8192, 1024]⟩ : Shape).Idx → EReal) (a1 : (⟨2, ![1024, 3072]⟩ : Shape).Idx → EReal)
    (a2 : (⟨2, ![1, 3072]⟩ : Shape).Idx → EReal) : (⟨2, ![8192, 1024]⟩ : Shape).Idx → EReal :=
  fun i => lin a0 a1 a2 (i 0) (col 1024 (by decide) (i 1))

/-- The values: columns 2048 … 3071 of the fused projection. -/
def V2d (a0 : (⟨2, ![8192, 1024]⟩ : Shape).Idx → EReal) (a1 : (⟨2, ![1024, 3072]⟩ : Shape).Idx → EReal)
    (a2 : (⟨2, ![1, 3072]⟩ : Shape).Idx → EReal) : (⟨2, ![8192, 1024]⟩ : Shape).Idx → EReal :=
  fun i => lin a0 a1 a2 (i 0) (col 2048 (by decide) (i 1))

end Cert.KerSpec

end
-- ==== Proof.KernelIdeal.QkvEntry.lean ====
/-
  One entry of each block the fused query/key/value projection's body stores, read index by index over the extended
  reals. The body forms ONE product of a block of 512 activation rows with the [1024, 3072] weights, adds the bias row
  to every row, and cuts the 3072 columns in three: an entry of the product block is the contraction of an activation
  row with a weight column over the 1024 features plus that column's bias; the query block is columns 0 .. 1023, each
  entry times the float 0.125; the key block is columns 1024 .. 2047; the value block is columns 2048 .. 3071. The
  changes of format and of shape on the way are the identity on extended reals, and the product's accumulator is zero.
-/
import proofs.«144204_j5497558139332_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx

/-- The left operand's row is the output's row, -/
theorem qkv_lhs_row (i : S512x3072.Idx) (q : dot_S512x1024_S1024x3072_S512x3072_1_0_0_1_n_n.contr.Idx) :
    (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
/-- its column the contracted coordinate; -/
theorem qkv_lhs_col (i : S512x3072.Idx) (q : dot_S512x1024_S1024x3072_S512x3072_1_0_0_1_n_n.contr.Idx) :
    (dot_S512x1024_S1024x3072_S512x3072_1_0_0_1_n_n.lhsIdx i q 1).val = (q ⟨0, by decide⟩).val :=
  dot_S512x1024_S1024x3072_S512x3072_1_0_0_1_n_n.lhsIdx_val_of_single rfl i q
/-- the right operand's row is the contracted coordinate, -/
theorem qkv_rhs_row (i : S512x3072.Idx) (q : dot_S512x1024_S1024x3072_S512x3072_1_0_0_1_n_n.contr.Idx) :
    (dot_S512x1024_S1024x3072_S512x3072_1_0_0_1_n_n.rhsIdx i q 0).val = (q ⟨0, by decide⟩).val :=
  dot_S512x1024_S1024x3072_S512x3072_1_0_0_1_n_n.rhsIdx_val_of_single rfl i q
/-- its column the output's column. -/
theorem qkv_rhs_col (i : S512x3072.Idx) (q : dot_S512x1024_S1024x3072_S512x3072_1_0_0_1_n_n.contr.Idx) :
    (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl

/-- One entry of the fused projection of a block of 512 rows: the contraction of row `p` of the activation block with
    column `n` of the [1024, 3072] weights over the 1024 features, plus the bias of column `n` (the change of format
    and the changes of shape are the identity, the accumulator is zero, the bias row is repeated down the rows). -/
theorem qkv_entry (x0 : Vec Ideal S512x1024 .f32) (x1 : Vec Ideal S1024x3072 .bf16) (x2 : Vec Ideal S1x3072 .f32)
    (p : Fin 512) (n : Fin 3072) :
    k0_pay1 (F := Ideal) x0 x1 x2 (ix2 p n)
      = (∑ e : Fin 1024, x0 (ix2 p e) * x1 (ix2 e n)) + x2 (ix2 (0 : Fin 1) n) := by
  unfold k0_pay1
  simp only [shapeCast_self]
  rw [addf_apply, broadcastTo_1b_ab_apply]
  refine congrArg (· + x2 (ix2 (0 : Fin 1) n)) ?_
  refine (Ideal.matmul_constant_zero_apply (φ₁ := .bf16) (φ₂ := .bf16) dot_S512x1024_S1024x3072_S512x3072_1_0_0_1_n_n none (truncf .bf16 x0 bitsLt_bf16_f32) x1 (ix2 p n)).trans ?_
  rw [← Equiv.sum_comp (contrEquiv1 dot_S512x1024_S1024x3072_S512x3072_1_0_0_1_n_n 1024 rfl rfl).symm]
  refine Finset.sum_congr rfl fun k _ => ?_
  have hk := contrEquiv1_symm_val dot_S512x1024_S1024x3072_S512x3072_1_0_0_1_n_n 1024 rfl rfl k
  have el : dot_S512x1024_S1024x3072_S512x3072_1_0_0_1_n_n.lhsIdx (ix2 p n) ((contrEquiv1 dot_S512x1024_S1024x3072_S512x3072_1_0_0_1_n_n 1024 rfl rfl).symm k) = ix2 p k := funext fun a => Fin.ext (by
    match a with
    | ⟨0, _⟩ => exact qkv_lhs_row _ _
    | ⟨1, _⟩ => exact (qkv_lhs_col _ _).trans hk)
  have er : dot_S512x1024_S1024x3072_S512x3072_1_0_0_1_n_n.rhsIdx (ix2 p n) ((contrEquiv1 dot_S512x1024_S1024x3072_S512x3072_1_0_0_1_n_n 1024 rfl rfl).symm k) = ix2 k n := funext fun a => Fin.ext (by
    match a with
    | ⟨0, _⟩ => exact (qkv_rhs_row _ _).trans hk
    | ⟨1, _⟩ => exact qkv_rhs_col _ _)
  rw [el, er, truncf_apply]

/-- The query block: columns 0 … 1023 of the fused projection, each entry times the float 0.125. -/
theorem qkv_q_entry (x0 : Vec Ideal S512x1024 .f32) (x1 : Vec Ideal S1024x3072 .bf16) (x2 : Vec Ideal S1x3072 .f32)
    (p : Fin 512) (q : Fin 1024) :
    k0_pay2 (F := Ideal) x0 x1 x2 (ix2 p q)
      = k0_pay1 (F := Ideal) x0 x1 x2 (ix2 p (⟨0 + q.val, by have := q.isLt; omega⟩ : Fin 3072)) * Ideal.ofBits .f32 0x3E000000#32 := by
  unfold k0_pay2
  rw [truncf_apply, mulf_apply, broadcast_apply, slice2_axis1_eq]
  rfl

/-- The key block: columns 1024 … 2047 of the fused projection. -/
theorem qkv_k_entry (x0 : Vec Ideal S512x1024 .f32) (x1 : Vec Ideal S1024x3072 .bf16) (x2 : Vec Ideal S1x3072 .f32)
    (p : Fin 512) (q : Fin 1024) :
    k0_pay3 (F := Ideal) x0 x1 x2 (ix2 p q)
      = k0_pay1 (F := Ideal) x0 x1 x2 (ix2 p (⟨1024 + q.val, by have := q.isLt; omega⟩ : Fin 3072)) := by
  unfold k0_pay3
  rw [truncf_apply, slice2_axis1_eq]

/-- The value block: columns 2048 … 3071 of the fused projection. -/
theorem qkv_v_entry (x0 : Vec Ideal S512x1024 .f32) (x1 : Vec Ideal S1024x3072 .bf16) (x2 : Vec Ideal S1x3072 .f32)
    (p : Fin 512) (q : Fin 1024) :
    k0_pay4 (F := Ideal) x0 x1 x2 (ix2 p q)
      = k0_pay1 (F := Ideal) x0 x1 x2 (ix2 p (⟨2048 + q.val, by have := q.isLt; omega⟩ : Fin 3072)) := by
  unfold k0_pay4
  rw [truncf_apply, slice2_axis1_eq]

end Cert.KernelIdeal.Hand

end
-- ==== Proof.KernelIdeal.ValueRegion0.lean ====
/-
  The three arrays of the fused query/key/value projection after its region: every grid point writes one block of 512
  rows of each, and that block is the same 512 rows of ONE whole-array function of the region's three input arrays —
  each entry the contraction of a row of the activations with a column of the [1024, 3072] weights plus that column's
  bias, the queries from columns 0 .. 1023 and scaled by the float 0.125, the keys from columns 1024 .. 2047, the values
  from columns 2048 .. 3071. The sixteen blocks tile the 8192 rows, so each array ends holding its function.
-/
import proofs.«144204_j5497558139332_2_alg».proof.Proof.KernelIdeal.Region0
import proofs.«144204_j5497558139332_2_alg».proof.Proof.KernelIdeal.KerSpecProj
import proofs.«144204_j5497558139332_2_alg».proof.Proof.KernelIdeal.QkvEntry
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

-- the core's buffer contents when the region is entered
variable (V : (c : Dev nD) → (b : Ref sig .tc) → Buf (Elt Ideal) ((c : Thread nD τ).loc b))

/-- The body's rectangles sit at offset zero on both axes. -/
theorem qkv_offsets_zero : (![0, 0] : Fin 2 → Nat) = fun _ => 0 := funext fun a => by fin_cases a <;> rfl

/-- The block index maps, decided over the sixteen grid points: the activations' block moves down the rows with each
    output's block; the weights and the bias are one block each; no block index leaves its range. -/
theorem qkv_idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 15 ∧ win0_3.index t (1 : Fin 2) = 0
    ∧ win0_4.index t (0 : Fin 2) = win0_3.index t (0 : Fin 2) ∧ win0_4.index t (1 : Fin 2) = 0
    ∧ win0_5.index t (0 : Fin 2) = win0_3.index t (0 : Fin 2) ∧ win0_5.index t (1 : Fin 2) = 0 :=
  (by decide +kernel : ∀ t : Fin grid0.N, _)

/-- Every one of the sixteen row blocks of the query array is some grid point's, -/
theorem qkv_q_idx_onto : ∀ q0 : Fin 16, ∃ t : Fin cfg0.N, win0_3.index t = ![q0.val, 0] :=
  (by decide +kernel : ∀ q0 : Fin 16, ∃ t : Fin grid0.N, win0_3.index t = ![q0.val, 0])
/-- of the key array, -/
theorem qkv_k_idx_onto : ∀ q0 : Fin 16, ∃ t : Fin cfg0.N, win0_4.index t = ![q0.val, 0] :=
  (by decide +kernel : ∀ q0 : Fin 16, ∃ t : Fin grid0.N, win0_4.index t = ![q0.val, 0])
/-- and of the value array. -/
theorem qkv_v_idx_onto : ∀ q0 : Fin 16, ∃ t : Fin cfg0.N, win0_5.index t = ![q0.val, 0] :=
  (by decide +kernel : ∀ q0 : Fin 16, ∃ t : Fin grid0.N, win0_5.index t = ![q0.val, 0])

/-- An entry of the product block is the fused linear layer's entry at row r of the arrays, once row p of the
    activation block is row r of the activations and the weight and bias blocks are the whole weights and bias. -/
theorem qkv_lin_of_reads (A0 : S8192x1024.Idx → EReal) (A1 : S1024x3072.Idx → EReal) (A2 : S1x3072.Idx → EReal)
    (x0 : Vec Ideal S512x1024 .f32) (x1 : Vec Ideal S1024x3072 .bf16) (x2 : Vec Ideal S1x3072 .f32)
    (r : Fin 8192) (p : Fin 512) (n : Fin 3072)
    (h0 : ∀ e : Fin 1024, x0 (ix2 p e) = A0 (ix2 r e))
    (h1 : ∀ e : Fin 1024, x1 (ix2 e n) = A1 (ix2 e n))
    (h2 : x2 (ix2 (0 : Fin 1) n) = A2 (ix2 (0 : Fin 1) n)) :
    k0_pay1 (F := Ideal) x0 x1 x2 (ix2 p n) = Cert.KerSpec.lin A0 A1 A2 r n := by
  rw [qkv_entry]
  unfold Cert.KerSpec.lin
  rw [h2]
  refine congrArg (· + A2 (ix2 (0 : Fin 1) n)) ?_
  exact Finset.sum_congr rfl fun e _ => by rw [h0, h1]

/-- An entry of the stored q block is the q array's entry at an array index i, once the three loaded blocks
    read the arrays where i says: row p of the activation block is row i 0 of the activations, the weight and bias
    blocks are the whole weights and bias, and column q of the block is column i 1 of the array. -/
theorem qkv_q_of_reads (A0 : S8192x1024.Idx → EReal) (A1 : S1024x3072.Idx → EReal) (A2 : S1x3072.Idx → EReal)
    (x0 : Vec Ideal S512x1024 .f32) (x1 : Vec Ideal S1024x3072 .bf16) (x2 : Vec Ideal S1x3072 .f32)
    (i : S8192x1024.Idx) (p : Fin 512) (q : Fin 1024)
    (h0 : ∀ e : Fin 1024, x0 (ix2 p e) = A0 (ix2 (i 0) e))
    (h1 : ∀ (e : Fin 1024) (n : Fin 3072), x1 (ix2 e n) = A1 (ix2 e n))
    (h2 : ∀ n : Fin 3072, x2 (ix2 (0 : Fin 1) n) = A2 (ix2 (0 : Fin 1) n))
    (hq : (i 1).val = q.val) :
    k0_pay2 (F := Ideal) x0 x1 x2 (ix2 p q) = Cert.KerSpec.Q2d A0 A1 A2 i := by
  rw [qkv_q_entry]
  unfold Cert.KerSpec.Q2d
  have hc : (⟨0 + q.val, by have := q.isLt; omega⟩ : Fin 3072) = Cert.KerSpec.col 0 (by decide) (i 1) :=
    Fin.ext (by show 0 + q.val = 0 + (i 1).val; omega)
  rw [hc, qkv_lin_of_reads A0 A1 A2 x0 x1 x2 (i 0) p _ h0 (fun e => h1 e _) (h2 _)]

/-- What grid point t writes back to the q array is block t of the q function of the arrays as the region
    finds them. -/
theorem qkv_q_flushed_eq (c : Dev nD) (t : Fin cfg0.N) :
    (dat0 (F := Ideal) V c).flushed 3 t
      = ((cfg0.win 3).blk t).view.read (Elt Ideal) (Cert.KerSpec.Q2d (V c main_v0) (V c main_v3) (V c main_v5)) := by
  show (cfg0.win 3).cut (grid0.coords t) ((dat0 V c).after 3 t) = _
  rw [after0_3]
  unfold out0_3
  rw [View.canon_unit_zero qkv_offsets_zero]
  simp only [View.ld_unit_zero (S := S512x1024) qkv_offsets_zero, View.ld_unit_zero (S := S1024x3072) qkv_offsets_zero,
    View.ld_unit_zero (S := S1x3072) qkv_offsets_zero]
  obtain ⟨e0, e1, e2, e3, e4, e5, e6, e7, e8, e9, e10, e11⟩ := qkv_idx_facts t
  funext j
  obtain ⟨p, q, rfl⟩ : ∃ (p : Fin 512) (q : Fin 1024), j = ix2 p q := ⟨j 0, j 1, eq_ix2 j⟩
  show k0_pay2 (F := Ideal) (iblk0 V c 0 t) (iblk0 V c 1 t) (iblk0 V c 2 t) (ix2 p q)
    = Cert.KerSpec.Q2d (V c main_v0) (V c main_v3) (V c main_v5) (((cfg0.win 3).blk t).view.emb (ix2 p q))
  refine qkv_q_of_reads (V c main_v0) (V c main_v3) (V c main_v5) (iblk0 V c 0 t) (iblk0 V c 1 t) (iblk0 V c 2 t)
    (((cfg0.win 3).blk t).view.emb (ix2 p q)) p q ?_ ?_ ?_ ?_
  · intro e
    show V c main_v0 (((cfg0.win 0).blk t).view.emb (ix2 p e)) = V c main_v0 (ix2 ((((cfg0.win 3).blk t).view.emb (ix2 p q)) 0) e)
    refine congrArg (V c main_v0) (funext fun a => Fin.ext ?_)
    match a with
    | ⟨0, _⟩ => show win0_0.index t (0 : Fin 2) * 512 + 1 * p.val = win0_3.index t (0 : Fin 2) * 512 + 1 * p.val; omega
    | ⟨1, _⟩ => show win0_0.index t (1 : Fin 2) * 1024 + 1 * e.val = e.val; omega
  · intro e n
    show V c main_v3 (((cfg0.win 1).blk t).view.emb (ix2 e n)) = V c main_v3 (ix2 e n)
    refine congrArg (V c main_v3) (funext fun a => Fin.ext ?_)
    match a with
    | ⟨0, _⟩ => show win0_1.index t (0 : Fin 2) * 1024 + 1 * e.val = e.val; omega
    | ⟨1, _⟩ => show win0_1.index t (1 : Fin 2) * 3072 + 1 * n.val = n.val; omega
  · intro n
    show V c main_v5 (((cfg0.win 2).blk t).view.emb (ix2 (0 : Fin 1) n)) = V c main_v5 (ix2 (0 : Fin 1) n)
    refine congrArg (V c main_v5) (funext fun a => Fin.ext ?_)
    match a with
    | ⟨0, _⟩ => show win0_2.index t (0 : Fin 2) * 1 + 1 * 0 = 0; omega
    | ⟨1, _⟩ => show win0_2.index t (1 : Fin 2) * 3072 + 1 * n.val = n.val; omega
  · show win0_3.index t (1 : Fin 2) * 1024 + 1 * q.val = q.val; omega

/-- An index of the q array is in point t's block iff each coordinate is in the block's range on its axis. -/
theorem qkv_q_mem_blk (t : Fin cfg0.N) (i : S8192x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v6_0).slice (win0_3.rect t)).set ↔ _
  rw [View.set_slice_whole, Rect.mem_set_unit]
  exact Iff.rfl

/-- Every index of the q array is in some grid point's block: row r is in block r / 512. -/
theorem qkv_q_cover (i : S8192x1024.Idx) :
    ∃ t : Fin cfg0.N, (cfg0.win 3).flush t = true ∧ i ∈ ((cfg0.win 3).blk t).view.set := by
  have hi0 : (i 0).val < 8192 := (i 0).isLt
  have hi1 : (i 1).val < 1024 := (i 1).isLt
  obtain ⟨t, ht⟩ := qkv_q_idx_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [qkv_q_mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- The q array after the region is the q function of the region's input arrays. -/
theorem final0_3 (c : Dev nD) :
    (dat0 (F := Ideal) V c).arrAt 3 cfg0.N = Cert.KerSpec.Q2d (V c main_v0) (V c main_v3) (V c main_v5) :=
  (dat0 (F := Ideal) V c).arrAt_eq_of_cover 3 (Cert.KerSpec.Q2d (V c main_v0) (V c main_v3) (V c main_v5))
    (fun t _ => qkv_q_flushed_eq V c t) qkv_q_cover

/-- An entry of the stored k block is the k array's entry at an array index i, once the three loaded blocks
    read the arrays where i says: row p of the activation block is row i 0 of the activations, the weight and bias
    blocks are the whole weights and bias, and column q of the block is column i 1 of the array. -/
theorem qkv_k_of_reads (A0 : S8192x1024.Idx → EReal) (A1 : S1024x3072.Idx → EReal) (A2 : S1x3072.Idx → EReal)
    (x0 : Vec Ideal S512x1024 .f32) (x1 : Vec Ideal S1024x3072 .bf16) (x2 : Vec Ideal S1x3072 .f32)
    (i : S8192x1024.Idx) (p : Fin 512) (q : Fin 1024)
    (h0 : ∀ e : Fin 1024, x0 (ix2 p e) = A0 (ix2 (i 0) e))
    (h1 : ∀ (e : Fin 1024) (n : Fin 3072), x1 (ix2 e n) = A1 (ix2 e n))
    (h2 : ∀ n : Fin 3072, x2 (ix2 (0 : Fin 1) n) = A2 (ix2 (0 : Fin 1) n))
    (hq : (i 1).val = q.val) :
    k0_pay3 (F := Ideal) x0 x1 x2 (ix2 p q) = Cert.KerSpec.K2d A0 A1 A2 i := by
  rw [qkv_k_entry]
  unfold Cert.KerSpec.K2d
  have hc : (⟨1024 + q.val, by have := q.isLt; omega⟩ : Fin 3072) = Cert.KerSpec.col 1024 (by decide) (i 1) :=
    Fin.ext (by show 1024 + q.val = 1024 + (i 1).val; omega)
  rw [hc, qkv_lin_of_reads A0 A1 A2 x0 x1 x2 (i 0) p _ h0 (fun e => h1 e _) (h2 _)]

/-- What grid point t writes back to the k array is block t of the k function of the arrays as the region
    finds them. -/
theorem qkv_k_flushed_eq (c : Dev nD) (t : Fin cfg0.N) :
    (dat0 (F := Ideal) V c).flushed 4 t
      = ((cfg0.win 4).blk t).view.read (Elt Ideal) (Cert.KerSpec.K2d (V c main_v0) (V c main_v3) (V c main_v5)) := by
  show (cfg0.win 4).cut (grid0.coords t) ((dat0 V c).after 4 t) = _
  rw [after0_4]
  unfold out0_4
  rw [View.canon_unit_zero qkv_offsets_zero]
  simp only [View.ld_unit_zero (S := S512x1024) qkv_offsets_zero, View.ld_unit_zero (S := S1024x3072) qkv_offsets_zero,
    View.ld_unit_zero (S := S1x3072) qkv_offsets_zero]
  obtain ⟨e0, e1, e2, e3, e4, e5, e6, e7, e8, e9, e10, e11⟩ := qkv_idx_facts t
  funext j
  obtain ⟨p, q, rfl⟩ : ∃ (p : Fin 512) (q : Fin 1024), j = ix2 p q := ⟨j 0, j 1, eq_ix2 j⟩
  show k0_pay3 (F := Ideal) (iblk0 V c 0 t) (iblk0 V c 1 t) (iblk0 V c 2 t) (ix2 p q)
    = Cert.KerSpec.K2d (V c main_v0) (V c main_v3) (V c main_v5) (((cfg0.win 4).blk t).view.emb (ix2 p q))
  refine qkv_k_of_reads (V c main_v0) (V c main_v3) (V c main_v5) (iblk0 V c 0 t) (iblk0 V c 1 t) (iblk0 V c 2 t)
    (((cfg0.win 4).blk t).view.emb (ix2 p q)) p q ?_ ?_ ?_ ?_
  · intro e
    show V c main_v0 (((cfg0.win 0).blk t).view.emb (ix2 p e)) = V c main_v0 (ix2 ((((cfg0.win 4).blk t).view.emb (ix2 p q)) 0) e)
    refine congrArg (V c main_v0) (funext fun a => Fin.ext ?_)
    match a with
    | ⟨0, _⟩ => show win0_0.index t (0 : Fin 2) * 512 + 1 * p.val = win0_4.index t (0 : Fin 2) * 512 + 1 * p.val; omega
    | ⟨1, _⟩ => show win0_0.index t (1 : Fin 2) * 1024 + 1 * e.val = e.val; omega
  · intro e n
    show V c main_v3 (((cfg0.win 1).blk t).view.emb (ix2 e n)) = V c main_v3 (ix2 e n)
    refine congrArg (V c main_v3) (funext fun a => Fin.ext ?_)
    match a with
    | ⟨0, _⟩ => show win0_1.index t (0 : Fin 2) * 1024 + 1 * e.val = e.val; omega
    | ⟨1, _⟩ => show win0_1.index t (1 : Fin 2) * 3072 + 1 * n.val = n.val; omega
  · intro n
    show V c main_v5 (((cfg0.win 2).blk t).view.emb (ix2 (0 : Fin 1) n)) = V c main_v5 (ix2 (0 : Fin 1) n)
    refine congrArg (V c main_v5) (funext fun a => Fin.ext ?_)
    match a with
    | ⟨0, _⟩ => show win0_2.index t (0 : Fin 2) * 1 + 1 * 0 = 0; omega
    | ⟨1, _⟩ => show win0_2.index t (1 : Fin 2) * 3072 + 1 * n.val = n.val; omega
  · show win0_4.index t (1 : Fin 2) * 1024 + 1 * q.val = q.val; omega

/-- An index of the k array is in point t's block iff each coordinate is in the block's range on its axis. -/
theorem qkv_k_mem_blk (t : Fin cfg0.N) (i : S8192x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v6_1).slice (win0_4.rect t)).set ↔ _
  rw [View.set_slice_whole, Rect.mem_set_unit]
  exact Iff.rfl

/-- Every index of the k array is in some grid point's block: row r is in block r / 512. -/
theorem qkv_k_cover (i : S8192x1024.Idx) :
    ∃ t : Fin cfg0.N, (cfg0.win 4).flush t = true ∧ i ∈ ((cfg0.win 4).blk t).view.set := by
  have hi0 : (i 0).val < 8192 := (i 0).isLt
  have hi1 : (i 1).val < 1024 := (i 1).isLt
  obtain ⟨t, ht⟩ := qkv_k_idx_onto ⟨(i 0).val / 512, by omega⟩
  have q0 : win0_4.index t (0 : Fin 2) = (i 0).val / 512 := congrFun ht 0
  have q1 : win0_4.index t (1 : Fin 2) = 0 := congrFun ht 1
  refine ⟨t, flush0_4 t, ?_⟩
  rw [qkv_k_mem_blk]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

/-- The k array after the region is the k function of the region's input arrays. -/
theorem final0_4 (c : Dev nD) :
    (dat0 (F := Ideal) V c).arrAt 4 cfg0.N = Cert.KerSpec.K2d (V c main_v0) (V c main_v3) (V c main_v5) :=
  (dat0 (F := Ideal) V c).arrAt_eq_of_cover 4 (Cert.KerSpec.K2d (V c main_v0) (V c main_v3) (V c main_v5))
    (fun t _ => qkv_k_flushed_eq V c t) qkv_k_cover

/-- An entry of the stored v block is the v array's entry at an array index i, once the three loaded blocks
    read the arrays where i says: row p of the activation block is row i 0 of the activations, the weight and bias
    blocks are the whole weights and bias, and column q of the block is column i 1 of the array. -/
theorem qkv_v_of_reads (A0 : S8192x1024.Idx → EReal) (A1 : S1024x3072.Idx → EReal) (A2 : S1x3072.Idx → EReal)
    (x0 : Vec Ideal S512x1024 .f32) (x1 : Vec Ideal S1024x3072 .bf16) (x2 : Vec Ideal S1x3072 .f32)
    (i : S8192x1024.Idx) (p : Fin 512) (q : Fin 1024)
    (h0 : ∀ e : Fin 1024, x0 (ix2 p e) = A0 (ix2 (i 0) e))
    (h1 : ∀ (e : Fin 1024) (n : Fin 3072), x1 (ix2 e n) = A1 (ix2 e n))
    (h2 : ∀ n : Fin 3072, x2 (ix2 (0 : Fin 1) n) = A2 (ix2 (0 : Fin 1) n))
    (hq : (i 1).val = q.val) :
    k0_pay4 (F := Ideal) x0 x1 x2 (ix2 p q) = Cert.KerSpec.V2d A0 A1 A2 i := by
  rw [qkv_v_entry]
  unfold Cert.KerSpec.V2d
  have hc : (⟨2048 + q.val, by have := q.isLt; omega⟩ : Fin 3072) = Cert.KerSpec.col 2048 (by decide) (i 1) :=
    Fin.ext (by show 2048 + q.val = 2048 + (i 1).val; omega)
  rw [hc, qkv_lin_of_reads A0 A1 A2 x0 x1 x2 (i 0) p _ h0 (fun e => h1 e _) (h2 _)]

/-- What grid point t writes back to the v array is block t of the v function of the arrays as the region
    finds them. -/
theorem qkv_v_flushed_eq (c : Dev nD) (t : Fin cfg0.N) :
    (dat0 (F := Ideal) V c).flushed 5 t
      = ((cfg0.win 5).blk t).view.read (Elt Ideal) (Cert.KerSpec.V2d (V c main_v0) (V c main_v3) (V c main_v5)) := by
  show (cfg0.win 5).cut (grid0.coords t) ((dat0 V c).after 5 t) = _
  rw [after0_5]
  unfold out0_5
  rw [View.canon_unit_zero qkv_offsets_zero]
  simp only [View.ld_unit_zero (S := S512x1024) qkv_offsets_zero, View.ld_unit_zero (S := S1024x3072) qkv_offsets_zero,
    View.ld_unit_zero (S := S1x3072) qkv_offsets_zero]
  obtain ⟨e0, e1, e2, e3, e4, e5, e6, e7, e8, e9, e10, e11⟩ := qkv_idx_facts t
  funext j
  obtain ⟨p, q, rfl⟩ : ∃ (p : Fin 512) (q : Fin 1024), j = ix2 p q := ⟨j 0, j 1, eq_ix2 j⟩
  show k0_pay4 (F := Ideal) (iblk0 V c 0 t) (iblk0 V c 1 t) (iblk0 V c 2 t) (ix2 p q)
    = Cert.KerSpec.V2d (V c main_v0) (V c main_v3) (V c main_v5) (((cfg0.win 5).blk t).view.emb (ix2 p q))
  refine qkv_v_of_reads (V c main_v0) (V c main_v3) (V c main_v5) (iblk0 V c 0 t) (iblk0 V c 1 t) (iblk0 V c 2 t)
    (((cfg0.win 5).blk t).view.emb (ix2 p q)) p q ?_ ?_ ?_ ?_
  · intro e
    show V c main_v0 (((cfg0.win 0).blk t).view.emb (ix2 p e)) = V c main_v0 (ix2 ((((cfg0.win 5).blk t).view.emb (ix2 p q)) 0) e)
    refine congrArg (V c main_v0) (funext fun a => Fin.ext ?_)
    match a with
    | ⟨0, _⟩ => show win0_0.index t (0 : Fin 2) * 512 + 1 * p.val = win0_5.index t (0 : Fin 2) * 512 + 1 * p.val; omega
    | ⟨1, _⟩ => show win0_0.index t (1 : Fin 2) * 1024 + 1 * e.val = e.val; omega
  · intro e n
    show V c main_v3 (((cfg0.win 1).blk t).view.emb (ix2 e n)) = V c main_v3 (ix2 e n)
    refine congrArg (V c main_v3) (funext fun a => Fin.ext ?_)
    match a with
    | ⟨0, _⟩ => show win0_1.index t (0 : Fin 2) * 1024 + 1 * e.val = e.val; omega
    | ⟨1, _⟩ => show win0_1.index t (1 : Fin 2) * 3072 + 1 * n.val = n.val; omega
  · intro n
    show V c main_v5 (((cfg0.win 2).blk t).view.emb (ix2 (0 : Fin 1) n)) = V c main_v5 (ix2 (0 : Fin 1) n)
    refine congrArg (V c main_v5) (funext fun a => Fin.ext ?_)
    match a with
    | ⟨0, _⟩ => show win0_2.index t (0 : Fin 2) * 1 + 1 * 0 = 0; omega
    | ⟨1, _⟩ => show win0_2.index t (1 : Fin 2) * 3072 + 1 * n.val = n.val; omega
  · show win0_5.index t (1 : Fin 2) * 1024 + 1 * q.val = q.val; omega

/-- An index of the v array is in point t's block iff each coordinate is in the block's range on its axis. -/
theorem qkv_v_mem_blk (t : Fin cfg0.N) (i : S8192x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v6_2).slice (win0_5.rect t)).set ↔ _
  rw [View.set_slice_whole, Rect.mem_set_unit]
  exact Iff.rfl

/-- Every index of the v array is in some grid point's block: row r is in block r / 512. -/
theorem qkv_v_cover (i : S8192x1024.Idx) :
    ∃ t : Fin cfg0.N, (cfg0.win 5).flush t = true ∧ i ∈ ((cfg0.win 5).blk t).view.set := by
  have hi0 : (i 0).val < 8192 := (i 0).isLt
  have hi1 : (i 1).val < 1024 := (i 1).isLt
  obtain ⟨t, ht⟩ := qkv_v_idx_onto ⟨(i 0).val / 512, by omega⟩
  have q0 : win0_5.index t (0 : Fin 2) = (i 0).val / 512 := congrFun ht 0
  have q1 : win0_5.index t (1 : Fin 2) = 0 := congrFun ht 1
  refine ⟨t, flush0_5 t, ?_⟩
  rw [qkv_v_mem_blk]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

/-- The v array after the region is the v function of the region's input arrays. -/
theorem final0_5 (c : Dev nD) :
    (dat0 (F := Ideal) V c).arrAt 5 cfg0.N = Cert.KerSpec.V2d (V c main_v0) (V c main_v3) (V c main_v5) :=
  (dat0 (F := Ideal) V c).arrAt_eq_of_cover 5 (Cert.KerSpec.V2d (V c main_v0) (V c main_v3) (V c main_v5))
    (fun t _ => qkv_v_flushed_eq V c t) qkv_v_cover

end Cert.KernelIdeal.Hand

end
-- ==== Proof.RefSpec.lean ====
/-
  Multi-head attention as ONE explicit function of its nine argument arrays, on the extended reals, index by index.
  Shapes: x [4, 2048, 1024]; the four weight matrices [1024, 1024]; the four biases [1024]; sixteen heads of width 64,
  feature n = 64·h + d.

    proj x W b (β, s, n)      = (Σ_e x(β, s, e) · W(n, e)) + b(n)                              (Q, K, V from their own W, b)
    scores  (β, h, q, k)      = (Σ_d Q(β, q, 64h + d) · K(β, k, 64h + d)) · c
    rowmax  (β, h, q)         = max (-∞) (the fold of max from -∞ over k of scores(β, h, q, k))
    probs   (β, h, q, k)      = exp (scores(β, h, q, k) − rowmax(β, h, q))
    rowsum  (β, h, q)         = 0 + Σ_k probs(β, h, q, k)
    attn    (β, h, q, k)      = probs(β, h, q, k) / rowsum(β, h, q)
    headout (β, h, q, d)      = Σ_k attn(β, h, q, k) · V(β, k, 64h + d)
    merged  (β, s, n)         = headout(β, n / 64, s, n % 64)
    out     (β, s, e)         = (Σ_n merged(β, s, n) · Wo(e, n)) + bo(e)

  The scale c is a parameter; the program's own scale is the quotient of the float 1.0 by the square root of the float 64.0
  (scale, below). The words -∞ and 0 are kept as the floats' bit patterns.
-/
import Idealize.ShloMosaic.PureOps.Ideal
import Idealize.ShloMosaic.Lib.ValueIdx

noncomputable section

namespace Cert.RefSpec

open Idealize.ShloMosaic Idealize.ShloMosaic.ValueIdx

/-- Activations [4, 2048, 1024]. -/
abbrev Act : Type := FVec Ideal (⟨3, ![4, 2048, 1024]⟩ : Shape) .f32
/-- A weight matrix [1024, 1024]. -/
abbrev Mat : Type := FVec Ideal (⟨2, ![1024, 1024]⟩ : Shape) .f32
/-- A bias [1024]. -/
abbrev Bias : Type := FVec Ideal (⟨1, ![1024]⟩ : Shape) .f32

/-- Feature 64·h + d of head h, lane d. -/
def hd (h : Fin 16) (d : Fin 64) : Fin 1024 := ⟨h.val * 64 + d.val, by have := h.isLt; have := d.isLt; omega⟩

/-- The head of feature n. -/
def headOf (n : Fin 1024) : Fin 16 := ⟨n.val / 64, by have := n.isLt; omega⟩

/-- The lane of feature n inside its head. -/
def laneOf (n : Fin 1024) : Fin 64 := ⟨n.val % 64, Nat.mod_lt _ (by decide)⟩

theorem hd_headOf_laneOf (n : Fin 1024) : hd (headOf n) (laneOf n) = n :=
  Fin.ext (by show n.val / 64 * 64 + n.val % 64 = n.val; omega)

theorem headOf_hd (h : Fin 16) (d : Fin 64) : headOf (hd h d) = h :=
  Fin.ext (by have := d.isLt; show (h.val * 64 + d.val) / 64 = h.val; omega)

theorem laneOf_hd (h : Fin 16) (d : Fin 64) : laneOf (hd h d) = d :=
  Fin.ext (by have := d.isLt; show (h.val * 64 + d.val) % 64 = d.val; omega)

/-- The float -∞. -/
abbrev negInf : EReal := Ideal.ofBits .f32 0xFF800000#32

/-- The float 0. -/
abbrev zero : EReal := Ideal.ofBits .f32 0x00000000#32

/-- The program's scale: the float 1.0 divided by the square root of the float 64.0. -/
def scale : EReal := Ideal.div (Ideal.ofBits .f32 0x3F800000#32) (Ideal.sqrt (Ideal.ofBits .f32 0x42800000#32))

/-- A linear projection with bias: row (β, s) of x against row n of W, plus b(n). -/
def proj (x : Act) (W : Mat) (b : Bias) (β : Fin 4) (s : Fin 2048) (n : Fin 1024) : EReal :=
  (∑ e : Fin 1024, x (ix3 β s e) * W (ix2 n e)) + b (ix1 n)

/-- The scaled dot product of query row q and key row k inside head h. -/
def scores (c : EReal) (x : Act) (Wq : Mat) (bq : Bias) (Wk : Mat) (bk : Bias)
    (β : Fin 4) (h : Fin 16) (q k : Fin 2048) : EReal :=
  (∑ d : Fin 64, proj x Wq bq β q (hd h d) * proj x Wk bk β k (hd h d)) * c

/-- The largest score of query row q (the fold of max from -∞ over the keys, joined once more with -∞). -/
def rowmax (c : EReal) (x : Act) (Wq : Mat) (bq : Bias) (Wk : Mat) (bk : Bias)
    (β : Fin 4) (h : Fin 16) (q : Fin 2048) : EReal :=
  max negInf ((Finset.univ : Finset (Fin 2048)).fold max negInf (fun k => scores c x Wq bq Wk bk β h q k))

/-- The unnormalized softmax weight. -/
def probs (c : EReal) (x : Act) (Wq : Mat) (bq : Bias) (Wk : Mat) (bk : Bias)
    (β : Fin 4) (h : Fin 16) (q k : Fin 2048) : EReal :=
  Ideal.exp (scores c x Wq bq Wk bk β h q k - rowmax c x Wq bq Wk bk β h q)

/-- The softmax denominator. -/
def rowsum (c : EReal) (x : Act) (Wq : Mat) (bq : Bias) (Wk : Mat) (bk : Bias)
    (β : Fin 4) (h : Fin 16) (q : Fin 2048) : EReal :=
  zero + ∑ k : Fin 2048, probs c x Wq bq Wk bk β h q k

/-- The softmax weight of key k for query q. -/
def attn (c : EReal) (x : Act) (Wq : Mat) (bq : Bias) (Wk : Mat) (bk : Bias)
    (β : Fin 4) (h : Fin 16) (q k : Fin 2048) : EReal :=
  Ideal.div (probs c x Wq bq Wk bk β h q k) (rowsum c x Wq bq Wk bk β h q)

/-- The attention-weighted sum of the value rows, lane d of head h. -/
def headout (c : EReal) (x : Act) (Wq : Mat) (bq : Bias) (Wk : Mat) (bk : Bias) (Wv : Mat) (bv : Bias)
    (β : Fin 4) (h : Fin 16) (q : Fin 2048) (d : Fin 64) : EReal :=
  ∑ k : Fin 2048, attn c x Wq bq Wk bk β h q k * proj x Wv bv β k (hd h d)

/-- The heads side by side again: feature n of row (β, s). -/
def merged (c : EReal) (x : Act) (Wq : Mat) (bq : Bias) (Wk : Mat) (bk : Bias) (Wv : Mat) (bv : Bias)
    (β : Fin 4) (s : Fin 2048) (n : Fin 1024) : EReal :=
  headout c x Wq bq Wk bk Wv bv β (headOf n) s (laneOf n)

/-- The output projection at coordinates. -/
def outAt (c : EReal) (x : Act) (Wq : Mat) (bq : Bias) (Wk : Mat) (bk : Bias) (Wv : Mat) (bv : Bias) (Wo : Mat) (bo : Bias)
    (β : Fin 4) (s : Fin 2048) (e : Fin 1024) : EReal :=
  (∑ n : Fin 1024, merged c x Wq bq Wk bk Wv bv β s n * Wo (ix2 e n)) + bo (ix1 e)

/-- The whole layer as an array [4, 2048, 1024]. -/
def out (c : EReal) (x : Act) (Wq : Mat) (bq : Bias) (Wk : Mat) (bk : Bias) (Wv : Mat) (bv : Bias) (Wo : Mat) (bo : Bias) : Act :=
  fun i => outAt c x Wq bq Wk bk Wv bv Wo bo (i 0) (i 1) (i 2)

theorem out_ix3 (c : EReal) (x : Act) (Wq : Mat) (bq : Bias) (Wk : Mat) (bk : Bias) (Wv : Mat) (bv : Bias) (Wo : Mat) (bo : Bias)
    (β : Fin 4) (s : Fin 2048) (e : Fin 1024) :
    out c x Wq bq Wk bk Wv bv Wo bo (ix3 β s e) = outAt c x Wq bq Wk bk Wv bv Wo bo β s e := rfl

end Cert.RefSpec

end
-- ==== Proof.KerSpecAttn.lean ====
/-
  The attention of one multi-head layer as ONE explicit function of its three input arrays q, k, v (each [4, 2048, 1024]:
  batch β, sequence position, feature n = 64·h + d of head h, lane d), on the extended reals, index by index:

    kscore (β, h, s, k')  = Σ_d q(β, s, 64h + d) · k(β, k', 64h + d)
    kmax   (β, h, s)      = the fold of max from -∞ over the keys k' of kscore(β, h, s, k')
    kprob  (β, h, s, k')  = exp (kscore(β, h, s, k') − kmax(β, h, s))
    ksum   (β, h, s)      = Σ_k' kprob(β, h, s, k')
    Attn   (β, s, n)      = (Σ_k' kprob(β, n / 64, s, k') · v(β, k', n)) / ksum(β, n / 64, s)

  The queries arrive already scaled, so no scale appears; the word -∞ is kept as the float's bit pattern.
-/
import proofs.«144204_j5497558139332_2_alg».proof.Proof.RefSpec

noncomputable section

namespace Cert.KerSpec

open Idealize.ShloMosaic Idealize.ShloMosaic.ValueIdx Cert.RefSpec

/-- An array [4, 2048, 1024] of extended reals. -/
abbrev Arr : Type := (⟨3, ![4, 2048, 1024]⟩ : Shape).Idx → EReal

/-- The dot product of query row s and key row k' inside head h. -/
def kscore (q k : Arr) (β : Fin 4) (h : Fin 16) (s k' : Fin 2048) : EReal :=
  ∑ d : Fin 64, q (ix3 β s (hd h d)) * k (ix3 β k' (hd h d))

/-- The largest score of query row s: the fold of max from -∞ over the keys. -/
def kmax (q k : Arr) (β : Fin 4) (h : Fin 16) (s : Fin 2048) : EReal :=
  (Finset.univ : Finset (Fin 2048)).fold max negInf (fun k' => kscore q k β h s k')

/-- The unnormalized softmax weight. -/
def kprob (q k : Arr) (β : Fin 4) (h : Fin 16) (s k' : Fin 2048) : EReal :=
  Ideal.exp (kscore q k β h s k' - kmax q k β h s)

/-- The softmax denominator. -/
def ksum (q k : Arr) (β : Fin 4) (h : Fin 16) (s : Fin 2048) : EReal :=
  ∑ k' : Fin 2048, kprob q k β h s k'

/-- The attention at coordinates: the weighted sum of the value rows at feature n, divided by the denominator of n's head. -/
def attnAt (q k v : Arr) (β : Fin 4) (s : Fin 2048) (n : Fin 1024) : EReal :=
  Ideal.div (∑ k' : Fin 2048, kprob q k β (headOf n) s k' * v (ix3 β k' n)) (ksum q k β (headOf n) s)

/-- The attention as an array [4, 2048, 1024]. -/
def Attn (q k v : Arr) : Arr :=
  fun i => Ideal.div (∑ k' : Fin 2048, kprob q k (i 0) (headOf (i 2)) (i 1) k' * v (ix3 (i 0) k' (i 2)))
    (ksum q k (i 0) (headOf (i 2)) (i 1))

theorem Attn_ix3 (q k v : Arr) (β : Fin 4) (s : Fin 2048) (n : Fin 1024) :
    Attn q k v (ix3 β s n) = attnAt q k v β s n := rfl

end Cert.KerSpec

end
-- ==== Proof.KernelIdeal.AttnPayload.lean ====
/-
  What the attention body stores, read at an index, on the extended reals.

  The body receives three blocks: x0 = one tile of 512 query rows, x1, x2 = all 2048 key and value rows, each with a leading
  unit axis and the 128 lanes of a PAIR of heads. For each head of the pair (lanes c(e) = o + e, o = 0 or 64) it forms

      score(p, k') = Σ_e x0(0, p, c e) · x1(0, k', c e)        (a matrix product into a zero accumulator)
      max(p)       = the fold of max from -∞ over k' of score(p, k')
      prob(p, k')  = exp (score(p, k') − max(p))
      out(p, d)    = (Σ_k' prob(p, k') · x2(0, k', c d)) / (Σ_k' prob(p, k'))

  and stores the two heads' [512, 64] results side by side along the lanes. A change of float format is the identity on the
  extended reals. The last lemma says: when the three blocks are the rows (β, 512·i + p) of q and all rows of k and v of batch β,
  at the features 128·g + n of head pair g, what is stored at (row p, lane n) is the attention of the whole arrays at
  (β, 512·i + p, 128·g + n).
-/
import proofs.«144204_j5497558139332_2_alg».proof.Proof.Gen.KernelIdeal.Skeleton
import proofs.«144204_j5497558139332_2_alg».proof.Proof.KerSpecAttn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx

/-! ## The two matrix products read at an index -/

theorem score_lhs_0 (i : S512x2048.Idx) (q : dot_S512x64_S2048x64_S512x2048_1_1_0_0_n_n.contr.Idx) : (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem score_lhs_1 (i : S512x2048.Idx) (q : dot_S512x64_S2048x64_S512x2048_1_1_0_0_n_n.contr.Idx) : (dot_S512x64_S2048x64_S512x2048_1_1_0_0_n_n.lhsIdx i q 1).val = (q ⟨0, by decide⟩).val :=
  dot_S512x64_S2048x64_S512x2048_1_1_0_0_n_n.lhsIdx_val_of_single rfl i q
theorem score_rhs_0 (i : S512x2048.Idx) (q : dot_S512x64_S2048x64_S512x2048_1_1_0_0_n_n.contr.Idx) : (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem score_rhs_1 (i : S512x2048.Idx) (q : dot_S512x64_S2048x64_S512x2048_1_1_0_0_n_n.contr.Idx) : (dot_S512x64_S2048x64_S512x2048_1_1_0_0_n_n.rhsIdx i q 1).val = (q ⟨0, by decide⟩).val :=
  dot_S512x64_S2048x64_S512x2048_1_1_0_0_n_n.rhsIdx_val_of_single rfl i q

/-- The product of the queries with the transposed keys, into a zero accumulator: entry (p, k') is the dot product of query
    row p and key row k' over the 64 lanes. -/
theorem score_apply (qh : FVec Ideal S512x64 .bf16) (kh : FVec Ideal S2048x64 .bf16) (p : Fin 512) (k' : Fin 2048) :
    matmul dot_S512x64_S2048x64_S512x2048_1_1_0_0_n_n none qh kh (constant (F := Ideal) S512x2048 .f32 0x00000000#32) (ix2 p k')
      = ∑ e : Fin 64, qh (ix2 p e) * kh (ix2 k' e) := by
  simp only [matmul]
  rw [Ideal.matmul_constant_zero_apply, ← Equiv.sum_comp (contrEquiv1 dot_S512x64_S2048x64_S512x2048_1_1_0_0_n_n 64 rfl rfl).symm]
  refine Finset.sum_congr rfl fun e _ => ?_
  have he := contrEquiv1_symm_val dot_S512x64_S2048x64_S512x2048_1_1_0_0_n_n 64 rfl rfl e
  have el : dot_S512x64_S2048x64_S512x2048_1_1_0_0_n_n.lhsIdx (ix2 p k') ((contrEquiv1 dot_S512x64_S2048x64_S512x2048_1_1_0_0_n_n 64 rfl rfl).symm e) = ix2 p e := funext fun a => Fin.ext (by
    match a with
    | ⟨0, _⟩ => exact score_lhs_0 _ _
    | ⟨1, _⟩ => exact (score_lhs_1 _ _).trans he)
  have er : dot_S512x64_S2048x64_S512x2048_1_1_0_0_n_n.rhsIdx (ix2 p k') ((contrEquiv1 dot_S512x64_S2048x64_S512x2048_1_1_0_0_n_n 64 rfl rfl).symm e) = ix2 k' e := funext fun a => Fin.ext (by
    match a with
    | ⟨0, _⟩ => exact score_rhs_0 _ _
    | ⟨1, _⟩ => exact (score_rhs_1 _ _).trans he)
  rw [el, er]

theorem pv_lhs_0 (i : S512x64.Idx) (q : dot_S512x2048_S2048x64_S512x64_1_0_0_1_n_n.contr.Idx) : (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem pv_lhs_1 (i : S512x64.Idx) (q : dot_S512x2048_S2048x64_S512x64_1_0_0_1_n_n.contr.Idx) : (dot_S512x2048_S2048x64_S512x64_1_0_0_1_n_n.lhsIdx i q 1).val = (q ⟨0, by decide⟩).val :=
  dot_S512x2048_S2048x64_S512x64_1_0_0_1_n_n.lhsIdx_val_of_single rfl i q
theorem pv_rhs_0 (i : S512x64.Idx) (q : dot_S512x2048_S2048x64_S512x64_1_0_0_1_n_n.contr.Idx) : (dot_S512x2048_S2048x64_S512x64_1_0_0_1_n_n.rhsIdx i q 0).val = (q ⟨0, by decide⟩).val :=
  dot_S512x2048_S2048x64_S512x64_1_0_0_1_n_n.rhsIdx_val_of_single rfl i q
theorem pv_rhs_1 (i : S512x64.Idx) (q : dot_S512x2048_S2048x64_S512x64_1_0_0_1_n_n.contr.Idx) : (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The product of the weights with the values, into a zero accumulator: entry (p, d) is the sum over the 2048 keys. -/
theorem pv_apply (w : FVec Ideal S512x2048 .bf16) (vh : FVec Ideal S2048x64 .bf16) (p : Fin 512) (d : Fin 64) :
    matmul dot_S512x2048_S2048x64_S512x64_1_0_0_1_n_n none w vh (constant (F := Ideal) S512x64 .f32 0x00000000#32) (ix2 p d)
      = ∑ k' : Fin 2048, w (ix2 p k') * vh (ix2 k' d) := by
  simp only [matmul]
  rw [Ideal.matmul_constant_zero_apply, ← Equiv.sum_comp (contrEquiv1 dot_S512x2048_S2048x64_S512x64_1_0_0_1_n_n 2048 rfl rfl).symm]
  refine Finset.sum_congr rfl fun e _ => ?_
  have he := contrEquiv1_symm_val dot_S512x2048_S2048x64_S512x64_1_0_0_1_n_n 2048 rfl rfl e
  have el : dot_S512x2048_S2048x64_S512x64_1_0_0_1_n_n.lhsIdx (ix2 p d) ((contrEquiv1 dot_S512x2048_S2048x64_S512x64_1_0_0_1_n_n 2048 rfl rfl).symm e) = ix2 p e := funext fun a => Fin.ext (by
    match a with
    | ⟨0, _⟩ => exact pv_lhs_0 _ _
    | ⟨1, _⟩ => exact (pv_lhs_1 _ _).trans he)
  have er : dot_S512x2048_S2048x64_S512x64_1_0_0_1_n_n.rhsIdx (ix2 p d) ((contrEquiv1 dot_S512x2048_S2048x64_S512x64_1_0_0_1_n_n 2048 rfl rfl).symm e) = ix2 e d := funext fun a => Fin.ext (by
    match a with
    | ⟨0, _⟩ => exact (pv_rhs_0 _ _).trans he
    | ⟨1, _⟩ => exact pv_rhs_1 _ _)
  rw [el, er]

/-! ## The row reductions and the column they are kept in -/

/-- A row's maximum over the 2048 keys, from -∞. -/
theorem rowmax_apply (s : FVec Ideal S512x2048 .f32) (p : Fin 512) :
    multiReduction (F := Ideal) .maximumf [1] S512 s 0xFF800000#32 reduces_S512x2048_S512 (.inl rfl) rfl (ix1 p)
      = (Finset.univ : Finset (Fin 2048)).fold max Cert.RefSpec.negInf (fun k' => s (ix2 p k')) := by
  refine (Ideal.multiReduction_maximumf_single s 0xFF800000#32 reduces_S512x2048_S512 (.inl rfl) rfl (ix1 p)).trans ?_
  refine congrArg (Finset.fold max _ · _) (funext fun k' => congrArg s (funext fun c => Fin.ext ?_))
  match c with
  | ⟨0, _⟩ => rfl
  | ⟨1, _⟩ => rfl

/-- A row's sum over the 2048 keys. -/
theorem rowsum_apply (s : FVec Ideal S512x2048 .f32) (p : Fin 512) :
    multiReduction (F := Ideal) .add [1] S512 s 0x00000000#32 reduces_S512x2048_S512 (.inl rfl) rfl (ix1 p)
      = ∑ k' : Fin 2048, s (ix2 p k') := by
  refine (Ideal.multiReduction_add_single s 0x00000000#32 reduces_S512x2048_S512 (.inl rfl) rfl (ix1 p)).trans ?_
  refine Finset.sum_congr rfl fun k' _ => congrArg s (funext fun c => Fin.ext ?_)
  match c with
  | ⟨0, _⟩ => rfl
  | ⟨1, _⟩ => rfl

variable {α : Type}

/-- A vector of 512 entries viewed as a column. -/
theorem column_apply (v : S512.Idx → α) (h : S512.ShapeCasts S512x1) (p : Fin 512) (z : Fin 1) :
    shapeCast S512x1 v h (ix2 p z) = v (ix1 p) :=
  shapeCast_apply v h _ _ (by
    rw [Shape.rowMajor_val_one, Shape.rowMajor_val_two]
    show p.val = p.val * 1 + z.val
    omega)

/-- The column repeated along 2048 lanes. -/
theorem column_keys_apply (v : S512x1.Idx → α) (h : S512x1.Broadcasts S512x2048) (p : Fin 512) (k' : Fin 2048) :
    broadcastTo S512x2048 v h (ix2 p k') = v (ix2 p 0) :=
  broadcastTo_apply v h _ _ (fun a => match a with | ⟨0, _⟩ => rfl | ⟨1, _⟩ => rfl)

/-- The column repeated along 64 lanes. -/
theorem column_lanes_apply (v : S512x1.Idx → α) (h : S512x1.Broadcasts S512x64) (p : Fin 512) (d : Fin 64) :
    broadcastTo S512x64 v h (ix2 p d) = v (ix2 p 0) :=
  broadcastTo_apply v h _ _ (fun a => match a with | ⟨0, _⟩ => rfl | ⟨1, _⟩ => rfl)

/-! ## One head -/

/-- The exponential at an index. -/
theorem exp_at {s : Shape} {φ : FTy} (a : FVec Ideal s φ) (i : s.Idx) : exp a i = Ideal.exp (a i) := rfl

/-- One head's arithmetic on its [512, 64] queries and its [2048, 64] keys and values, as the body spells it: scores, row
    maximum, exponentials of the differences, row sum, the weighted values divided by the row sum. -/
def headPay (qh : FVec Ideal S512x64 .bf16) (kh vh : FVec Ideal S2048x64 .bf16) : FVec Ideal S512x64 .f32 :=
  have cst : FVec Ideal S512x2048 .f32 := constant S512x2048 .f32 0x00000000#32
  have v9 : FVec Ideal S512x2048 .f32 := matmul dot_S512x64_S2048x64_S512x2048_1_1_0_0_n_n none qh kh cst
  have v10 : FVec Ideal S512 .f32 := multiReduction .maximumf [1] S512 v9 0xFF800000#32 reduces_S512x2048_S512 (.inl rfl) rfl
  have v11 : FVec Ideal S512x1 .f32 := shapeCast S512x1 v10 shapeCasts_S512_S512x1
  have v12 : FVec Ideal S512x2048 .f32 := broadcastTo S512x2048 v11 broadcasts_S512x1_S512x2048
  have v13 : FVec Ideal S512x2048 .f32 := subf v9 v12
  have v14 : FVec Ideal S512x2048 .f32 := exp v13
  have v15 : FVec Ideal S512 .f32 := multiReduction .add [1] S512 v14 0x00000000#32 reduces_S512x2048_S512 (.inl rfl) rfl
  have v16 : FVec Ideal S512x1 .f32 := shapeCast S512x1 v15 shapeCasts_S512_S512x1
  have v17 : FVec Ideal S512x2048 .bf16 := truncf .bf16 v14 bitsLt_bf16_f32
  have cst_10 : FVec Ideal S512x64 .f32 := constant S512x64 .f32 0x00000000#32
  have v18 : FVec Ideal S512x64 .f32 := matmul dot_S512x2048_S2048x64_S512x64_1_0_0_1_n_n none v17 vh cst_10
  have v19 : FVec Ideal S512x64 .f32 := broadcastTo S512x64 v16 broadcasts_S512x1_S512x64
  divf v18 v19

/-- The dot product of query row p and key row k' of one head. -/
def hscore (qh : FVec Ideal S512x64 .bf16) (kh : FVec Ideal S2048x64 .bf16) (p : Fin 512) (k' : Fin 2048) : EReal :=
  ∑ e : Fin 64, qh (ix2 p e) * kh (ix2 k' e)

/-- The largest score of query row p. -/
def hmax (qh : FVec Ideal S512x64 .bf16) (kh : FVec Ideal S2048x64 .bf16) (p : Fin 512) : EReal :=
  (Finset.univ : Finset (Fin 2048)).fold max Cert.RefSpec.negInf (fun k' => hscore qh kh p k')

/-- The unnormalized weight of key k' for query row p. -/
def hprob (qh : FVec Ideal S512x64 .bf16) (kh : FVec Ideal S2048x64 .bf16) (p : Fin 512) (k' : Fin 2048) : EReal :=
  Ideal.exp (hscore qh kh p k' - hmax qh kh p)

/-- One head at an index: the weighted sum of the value rows divided by the sum of the weights. -/
theorem headPay_apply (qh : FVec Ideal S512x64 .bf16) (kh vh : FVec Ideal S2048x64 .bf16) (p : Fin 512) (d : Fin 64) :
    headPay qh kh vh (ix2 p d)
      = Ideal.div (∑ k' : Fin 2048, hprob qh kh p k' * vh (ix2 k' d)) (∑ k' : Fin 2048, hprob qh kh p k') := by
  unfold headPay
  rw [divf_apply, pv_apply, column_lanes_apply, column_apply, rowsum_apply]
  simp only [truncf_apply, exp_at, subf_apply, column_keys_apply, column_apply]
  rw [rowmax_apply]
  simp only [score_apply]
  rfl

/-! ## The block: two heads side by side along the 128 lanes -/

/-- Lane d of the block's first head. -/
def lane0 (d : Fin 64) : Fin 128 := ⟨d.val, by have := d.isLt; omega⟩
/-- Lane d of the block's second head. -/
def lane1 (d : Fin 64) : Fin 128 := ⟨64 + d.val, by have := d.isLt; omega⟩

/-- The scores of the head whose lanes are `c`, read off the three-axis blocks. -/
def bscore (x0 : FVec Ideal S1x512x128 .bf16) (x1 : FVec Ideal S1x2048x128 .bf16) (c : Fin 64 → Fin 128) (p : Fin 512) (k' : Fin 2048) : EReal :=
  ∑ e : Fin 64, x0 (ix3 (0 : Fin 1) p (c e)) * x1 (ix3 (0 : Fin 1) k' (c e))

def bmax (x0 : FVec Ideal S1x512x128 .bf16) (x1 : FVec Ideal S1x2048x128 .bf16) (c : Fin 64 → Fin 128) (p : Fin 512) : EReal :=
  (Finset.univ : Finset (Fin 2048)).fold max Cert.RefSpec.negInf (fun k' => bscore x0 x1 c p k')

def bprob (x0 : FVec Ideal S1x512x128 .bf16) (x1 : FVec Ideal S1x2048x128 .bf16) (c : Fin 64 → Fin 128) (p : Fin 512) (k' : Fin 2048) : EReal :=
  Ideal.exp (bscore x0 x1 c p k' - bmax x0 x1 c p)

/-- The attention of the head whose lanes are `c`, at row p and lane d, read off the three-axis blocks. -/
def battn (x0 : FVec Ideal S1x512x128 .bf16) (x1 x2 : FVec Ideal S1x2048x128 .bf16) (c : Fin 64 → Fin 128) (p : Fin 512) (d : Fin 64) : EReal :=
  Ideal.div (∑ k' : Fin 2048, bprob x0 x1 c p k' * x2 (ix3 (0 : Fin 1) k' (c d))) (∑ k' : Fin 2048, bprob x0 x1 c p k')

variable {α : Type}

/-- 64 lanes from offset o of a [512, 128] block viewed without its unit axis. -/
theorem lanes512_apply (x : S1x512x128.Idx → α) (o : ℕ) (h : S512x128.Slices ![0, o] S512x64) (c : Fin 64 → Fin 128)
    (hc : ∀ e, (c e).val = o + e.val) (p : Fin 512) (e : Fin 64) :
    extractStridedSlice S512x64 ![0, o] (shapeCast S512x128 x shapeCasts_S1x512x128_S512x128) h (ix2 p e) = x (ix3 (0 : Fin 1) p (c e)) :=
  (extractStridedSlice_apply _ _ h (ix2 p e) (ix2 p (c e)) (fun a => match a with
    | ⟨0, _⟩ => by show p.val = 0 + p.val; omega
    | ⟨1, _⟩ => by show (c e).val = o + e.val; exact hc e)).trans (shapeCast_1ab_ab_apply x _ p (c e))

/-- 64 lanes from offset o of a [2048, 128] block viewed without its unit axis. -/
theorem lanes2048_apply (x : S1x2048x128.Idx → α) (o : ℕ) (h : S2048x128.Slices ![0, o] S2048x64) (c : Fin 64 → Fin 128)
    (hc : ∀ e, (c e).val = o + e.val) (k' : Fin 2048) (e : Fin 64) :
    extractStridedSlice S2048x64 ![0, o] (shapeCast S2048x128 x shapeCasts_S1x2048x128_S2048x128) h (ix2 k' e) = x (ix3 (0 : Fin 1) k' (c e)) :=
  (extractStridedSlice_apply _ _ h (ix2 k' e) (ix2 k' (c e)) (fun a => match a with
    | ⟨0, _⟩ => by show k'.val = 0 + k'.val; omega
    | ⟨1, _⟩ => by show (c e).val = o + e.val; exact hc e)).trans (shapeCast_1ab_ab_apply x _ k' (c e))

/-- One head of the block: its arithmetic on the 64 lanes from offset o is the attention read off the blocks at those lanes. -/
theorem head_block (x0 : FVec Ideal S1x512x128 .bf16) (x1 x2 : FVec Ideal S1x2048x128 .bf16) (o : ℕ)
    (hq : S512x128.Slices ![0, o] S512x64) (hk : S2048x128.Slices ![0, o] S2048x64) (c : Fin 64 → Fin 128)
    (hc : ∀ e, (c e).val = o + e.val) (p : Fin 512) (d : Fin 64) :
    headPay (extractStridedSlice S512x64 ![0, o] (shapeCast S512x128 x0 shapeCasts_S1x512x128_S512x128) hq)
        (extractStridedSlice S2048x64 ![0, o] (shapeCast S2048x128 x1 shapeCasts_S1x2048x128_S2048x128) hk)
        (extractStridedSlice S2048x64 ![0, o] (shapeCast S2048x128 x2 shapeCasts_S1x2048x128_S2048x128) hk) (ix2 p d)
      = battn x0 x1 x2 c p d := by
  rw [headPay_apply]
  unfold hprob hmax hscore battn bprob bmax bscore
  simp only [lanes512_apply _ o hq c hc, lanes2048_apply _ o hk c hc]

/-- The stored block at row p and lane d of the first head. -/
theorem pay_left (x0 : Vec Ideal S1x512x128 .bf16) (x1 x2 : Vec Ideal S1x2048x128 .bf16) (u : Fin 1) (p : Fin 512) (d : Fin 64) :
    k1_pay1 (k1_pay2 x0 x1 x2) (ix3 u p (lane0 d)) = battn x0 x1 x2 lane0 p d := by
  unfold k1_pay1
  rw [shapeCast_ab_1ab_apply]
  show (truncf .bf16 (concatenate S512x128 1
      [⟨S512x64, headPay (extractStridedSlice S512x64 ![0, 0] (shapeCast S512x128 x0 shapeCasts_S1x512x128_S512x128) slices_S512x128_o0_0_S512x64)
        (extractStridedSlice S2048x64 ![0, 0] (shapeCast S2048x128 x1 shapeCasts_S1x2048x128_S2048x128) slices_S2048x128_o0_0_S2048x64)
        (extractStridedSlice S2048x64 ![0, 0] (shapeCast S2048x128 x2 shapeCasts_S1x2048x128_S2048x128) slices_S2048x128_o0_0_S2048x64)⟩,
       ⟨S512x64, headPay (extractStridedSlice S512x64 ![0, 64] (shapeCast S512x128 x0 shapeCasts_S1x512x128_S512x128) slices_S512x128_o0_64_S512x64)
        (extractStridedSlice S2048x64 ![0, 64] (shapeCast S2048x128 x1 shapeCasts_S1x2048x128_S2048x128) slices_S2048x128_o0_64_S2048x64)
        (extractStridedSlice S2048x64 ![0, 64] (shapeCast S2048x128 x2 shapeCasts_S1x2048x128_S2048x128) slices_S2048x128_o0_64_S2048x64)⟩]
      concatenates_S512x64_S512x64_S512x128_d1) bitsLt_bf16_f32 : FVec Ideal S512x128 .bf16) (ix2 p (lane0 d)) = _
  rw [truncf_apply]
  refine (concatenate_pair_apply_left (s₁ := S512x64) (s₂ := S512x64) 1 _ _ _ (ix2 p (lane0 d)) rfl (ix2 p d) (fun b => match b with
    | ⟨0, _⟩ => rfl
    | ⟨1, _⟩ => rfl)).trans ?_
  exact head_block x0 x1 x2 0 _ _ lane0 (fun e => by show e.val = 0 + e.val; omega) p d

/-- The stored block at row p and lane d of the second head. -/
theorem pay_right (x0 : Vec Ideal S1x512x128 .bf16) (x1 x2 : Vec Ideal S1x2048x128 .bf16) (u : Fin 1) (p : Fin 512) (d : Fin 64) :
    k1_pay1 (k1_pay2 x0 x1 x2) (ix3 u p (lane1 d)) = battn x0 x1 x2 lane1 p d := by
  unfold k1_pay1
  rw [shapeCast_ab_1ab_apply]
  show (truncf .bf16 (concatenate S512x128 1
      [⟨S512x64, headPay (extractStridedSlice S512x64 ![0, 0] (shapeCast S512x128 x0 shapeCasts_S1x512x128_S512x128) slices_S512x128_o0_0_S512x64)
        (extractStridedSlice S2048x64 ![0, 0] (shapeCast S2048x128 x1 shapeCasts_S1x2048x128_S2048x128) slices_S2048x128_o0_0_S2048x64)
        (extractStridedSlice S2048x64 ![0, 0] (shapeCast S2048x128 x2 shapeCasts_S1x2048x128_S2048x128) slices_S2048x128_o0_0_S2048x64)⟩,
       ⟨S512x64, headPay (extractStridedSlice S512x64 ![0, 64] (shapeCast S512x128 x0 shapeCasts_S1x512x128_S512x128) slices_S512x128_o0_64_S512x64)
        (extractStridedSlice S2048x64 ![0, 64] (shapeCast S2048x128 x1 shapeCasts_S1x2048x128_S2048x128) slices_S2048x128_o0_64_S2048x64)
        (extractStridedSlice S2048x64 ![0, 64] (shapeCast S2048x128 x2 shapeCasts_S1x2048x128_S2048x128) slices_S2048x128_o0_64_S2048x64)⟩]
      concatenates_S512x64_S512x64_S512x128_d1) bitsLt_bf16_f32 : FVec Ideal S512x128 .bf16) (ix2 p (lane1 d)) = _
  rw [truncf_apply]
  refine (concatenate_pair_apply_right (s₁ := S512x64) (s₂ := S512x64) 1 _ _ _ (ix2 p (lane1 d)) rfl rfl (ix2 p d) (fun b hb => match b, hb with
    | ⟨0, _⟩, _ => rfl
    | ⟨1, _⟩, hb => absurd rfl hb) (by show d.val + 64 = 64 + d.val; omega)).trans ?_
  exact head_block x0 x1 x2 64 _ _ lane1 (fun e => rfl) p d

/-! ## The block against the whole arrays -/

open Cert.RefSpec Cert.KerSpec

/-- Row p of query tile i. -/
def tileRow (i : Fin 4) (p : Fin 512) : Fin 2048 := ⟨512 * i.val + p.val, by have := i.isLt; have := p.isLt; omega⟩
/-- Lane n of head pair g: feature 128·g + n. -/
def pairFeat (g : Fin 8) (n : Fin 128) : Fin 1024 := ⟨128 * g.val + n.val, by have := g.isLt; have := n.isLt; omega⟩

/-- When the blocks hold, at the lanes `c` of one head h, the rows of q, k, v that row s attends over, the block's attention is the arrays'. -/
theorem battn_eq_attnAt (x0 : FVec Ideal S1x512x128 .bf16) (x1 x2 : FVec Ideal S1x2048x128 .bf16) (q k v : Arr)
    (c : Fin 64 → Fin 128) (β : Fin 4) (s : Fin 2048) (h : Fin 16) (p : Fin 512) (d : Fin 64)
    (h0 : ∀ e, x0 (ix3 (0 : Fin 1) p (c e)) = q (ix3 β s (hd h e)))
    (h1 : ∀ k' e, x1 (ix3 (0 : Fin 1) k' (c e)) = k (ix3 β k' (hd h e)))
    (h2 : ∀ k', x2 (ix3 (0 : Fin 1) k' (c d)) = v (ix3 β k' (hd h d))) :
    battn x0 x1 x2 c p d = attnAt q k v β s (hd h d) := by
  unfold battn bprob bmax bscore attnAt ksum kprob kmax kscore
  rw [headOf_hd]
  simp only [h0, h1, h2]

/-- WHAT ONE GRID POINT STORES: if the three loaded blocks are batch β, head pair g of q (rows of tile i), k and v (all rows), the
    stored block at row p, lane n is the attention of the arrays at (β, 512·i + p, 128·g + n). -/
theorem point_value (x0 : Vec Ideal S1x512x128 .bf16) (x1 x2 : Vec Ideal S1x2048x128 .bf16) (q k v : Arr)
    (β : Fin 4) (g : Fin 8) (i : Fin 4)
    (r0 : ∀ p n, x0 (ix3 (0 : Fin 1) p n) = q (ix3 β (tileRow i p) (pairFeat g n)))
    (r1 : ∀ k' n, x1 (ix3 (0 : Fin 1) k' n) = k (ix3 β k' (pairFeat g n)))
    (r2 : ∀ k' n, x2 (ix3 (0 : Fin 1) k' n) = v (ix3 β k' (pairFeat g n)))
    (u : Fin 1) (p : Fin 512) (n : Fin 128) :
    k1_pay1 (k1_pay2 x0 x1 x2) (ix3 u p n) = Attn q k v (ix3 β (tileRow i p) (pairFeat g n)) := by
  have hg := g.isLt
  rw [Attn_ix3]
  rcases Nat.lt_or_ge n.val 64 with hn | hn
  · obtain ⟨d, rfl⟩ : ∃ d : Fin 64, n = lane0 d := ⟨⟨n.val, hn⟩, Fin.ext rfl⟩
    have hf : ∀ e, pairFeat g (lane0 e) = hd ⟨2 * g.val, by omega⟩ e := fun e =>
      Fin.ext (by show 128 * g.val + e.val = 2 * g.val * 64 + e.val; omega)
    rw [pay_left, hf d]
    exact battn_eq_attnAt x0 x1 x2 q k v lane0 β (tileRow i p) ⟨2 * g.val, by omega⟩ p d
      (fun e => by rw [r0, hf]) (fun k' e => by rw [r1, hf]) (fun k' => by rw [r2, hf])
  · obtain ⟨d, rfl⟩ : ∃ d : Fin 64, n = lane1 d :=
      ⟨⟨n.val - 64, by have := n.isLt; omega⟩, Fin.ext (by show n.val = 64 + (n.val - 64); omega)⟩
    have hf : ∀ e, pairFeat g (lane1 e) = hd ⟨2 * g.val + 1, by omega⟩ e := fun e =>
      Fin.ext (by show 128 * g.val + (64 + e.val) = (2 * g.val + 1) * 64 + e.val; omega)
    rw [pay_right, hf d]
    exact battn_eq_attnAt x0 x1 x2 q k v lane1 β (tileRow i p) ⟨2 * g.val + 1, by omega⟩ p d
      (fun e => by rw [r0, hf]) (fun k' e => by rw [r1, hf]) (fun k' => by rw [r2, hf])

end Cert.KernelIdeal.Hand

end
-- ==== Proof.KernelIdeal.ValueRegion1.lean ====
/-
  The value of the attention region: the output array after the region's grid is the attention of the three input arrays as
  the region finds them, index by index.

  The grid has 128 points: batch β (4), head pair g (8), query tile i (4). At a point the body receives the block of 512 query
  rows (β, 512·i .. 512·i + 511) and the blocks of all 2048 key and value rows of batch β, each at the 128 features
  128·g .. 128·g + 127, and writes back the block of the output at the same place as the queries' block. The index maps are decided
  once over the grid; what a point writes back is then the block of the attention function read through the point's rectangle
  (the payload read at an index, with each loaded block read where the rectangle says); every index (β, s, n) of the output lies
  in the block of the point (β, n / 128, s / 512), and every point writes back.
-/
import proofs.«144204_j5497558139332_2_alg».proof.Proof.KernelIdeal.Region1
import proofs.«144204_j5497558139332_2_alg».proof.Proof.KernelIdeal.AttnPayload
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## The index maps over the grid -/

theorem zero_offsets3 : (![0, 0, 0] : Fin 3 → Nat) = fun _ => 0 := funext fun a => by fin_cases a <;> rfl

/-- The printed index maps, decided once over the 128 grid points: point t is batch t / 32, head pair (t / 4) % 8, query tile
    t % 4; the queries' and the output's blocks sit at (batch, tile, pair), the keys' and values' at (batch, 0, pair). -/
theorem index_maps1 : ∀ t : Fin cfg1.N,
    win1_3.index t (0 : Fin 3) = t.val / 32 ∧ win1_3.index t (1 : Fin 3) = t.val % 4 ∧ win1_3.index t (2 : Fin 3) = t.val / 4 % 8
    ∧ win1_0.index t (0 : Fin 3) = t.val / 32 ∧ win1_0.index t (1 : Fin 3) = t.val % 4 ∧ win1_0.index t (2 : Fin 3) = t.val / 4 % 8
    ∧ win1_1.index t (0 : Fin 3) = t.val / 32 ∧ win1_1.index t (1 : Fin 3) = 0 ∧ win1_1.index t (2 : Fin 3) = t.val / 4 % 8
    ∧ win1_2.index t (0 : Fin 3) = t.val / 32 ∧ win1_2.index t (1 : Fin 3) = 0 ∧ win1_2.index t (2 : Fin 3) = t.val / 4 % 8 :=
  (by decide +kernel : ∀ t : Fin grid1.N, _)

/-! ## The cover: every index of the output array lies in some point's block -/

/-- An index of the array is in point t's block iff each coordinate is in the block's range on its axis. -/
theorem mem_blk1_3 (t : Fin cfg1.N) (i : S4x2048x1024.Idx) :
    i ∈ ((cfg1.win 3).blk t).view.set ↔ ∀ a : Fin 3, win1_3.index t a * S1x512x128.size a ≤ (i a).val ∧ (i a).val < win1_3.index t a * S1x512x128.size a + S1x512x128.size a := by
  show i ∈ ((View.whole main_v10).slice (win1_3.rect t)).set ↔ _
  rw [View.set_slice_whole, Rect.mem_set_unit]
  exact Iff.rfl

/-- Index (β, s, n) is in the block of the point of batch β, head pair n / 128, query tile s / 512. -/
theorem covered1_3 (i : S4x2048x1024.Idx) :
    ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 1024 := (i 2).isLt
  obtain ⟨t, tv⟩ : ∃ t : Fin cfg1.N, t.val = 32 * (i 0).val + 4 * ((i 2).val / 128) + (i 1).val / 512 :=
    ⟨⟨32 * (i 0).val + 4 * ((i 2).val / 128) + (i 1).val / 512, by show _ < grid1.N; rw [N_1]; omega⟩, rfl⟩
  obtain ⟨e0, e1, e2, -⟩ := index_maps1 t
  refine ⟨t, flush1_3 t, ?_⟩
  rw [mem_blk1_3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 128 ≤ (i 2).val ∧ (i 2).val < win1_3.index t (2 : Fin 3) * 128 + 128; omega

/-! ## What one grid point writes back -/

open Cert.KerSpec

/-- WHAT POINT t WRITES BACK is block t of the attention of the three input arrays as the region finds them: the loaded blocks
    are the rows the point's block of the output depends on, read where the output's rectangle says. -/
theorem flushed1_3_eq (c : Dev nD) (t : Fin cfg1.N) :
    (dat1 (F := Ideal) V c).flushed 3 t
      = ((cfg1.win 3).blk t).view.read (Elt Ideal) (Attn (V c main_v7) (V c main_v8) (V c main_v9)) := by
  show (cfg1.win 3).cut (grid1.coords t) ((dat1 V c).after 3 t) = _
  rw [after1_3]
  unfold out1_3
  rw [View.canon_unit_zero zero_offsets3]
  simp only [View.ld_unit_zero (S := S1x512x128) zero_offsets3, View.ld_unit_zero (S := S1x2048x128) zero_offsets3]
  obtain ⟨e30, e31, e32, e00, e01, e02, e10, e11, e12, e20, e21, e22⟩ := index_maps1 t
  have ht : t.val < 128 := lt_of_lt_of_eq t.isLt N_1
  refine funext fun (j : S1x512x128.Idx) => ?_
  obtain ⟨u, p, n, rfl⟩ : ∃ (u : Fin 1) (p : Fin 512) (n : Fin 128), j = ix3 u p n := ⟨j 0, j 1, j 2, eq_ix3 j⟩
  show k1_pay1 (k1_pay2 (iblk1 V c 0 t) (iblk1 V c 1 t) (iblk1 V c 2 t)) (ix3 u p n)
    = Attn (V c main_v7) (V c main_v8) (V c main_v9) (((cfg1.win 3).blk t).view.emb (ix3 u p n))
  have hu : u.val = 0 := by omega
  have hemb : ((cfg1.win 3).blk t).view.emb (ix3 u p n)
      = ix3 (⟨t.val / 32, by omega⟩ : Fin 4) (tileRow ⟨t.val % 4, by omega⟩ p) (pairFeat ⟨t.val / 4 % 8, by omega⟩ n) := by
    funext a; apply Fin.ext
    match a with
    | ⟨0, _⟩ => show win1_3.index t (0 : Fin 3) * 1 + 1 * u.val = t.val / 32; omega
    | ⟨1, _⟩ => show win1_3.index t (1 : Fin 3) * 512 + 1 * p.val = 512 * (t.val % 4) + p.val; omega
    | ⟨2, _⟩ => show win1_3.index t (2 : Fin 3) * 128 + 1 * n.val = 128 * (t.val / 4 % 8) + n.val; omega
  rw [hemb]
  refine point_value (iblk1 V c 0 t) (iblk1 V c 1 t) (iblk1 V c 2 t) (V c main_v7) (V c main_v8) (V c main_v9)
    ⟨t.val / 32, by omega⟩ ⟨t.val / 4 % 8, by omega⟩ ⟨t.val % 4, by omega⟩ ?_ ?_ ?_ u p n
  · intro p n
    show V c main_v7 (((cfg1.win 0).blk t).view.emb (ix3 (0 : Fin 1) p n)) = V c main_v7 _
    refine congrArg (V c main_v7) (funext fun a => Fin.ext ?_)
    match a with
    | ⟨0, _⟩ => show win1_0.index t (0 : Fin 3) * 1 + 1 * 0 = t.val / 32; omega
    | ⟨1, _⟩ => show win1_0.index t (1 : Fin 3) * 512 + 1 * p.val = 512 * (t.val % 4) + p.val; omega
    | ⟨2, _⟩ => show win1_0.index t (2 : Fin 3) * 128 + 1 * n.val = 128 * (t.val / 4 % 8) + n.val; omega
  · intro k' n
    show V c main_v8 (((cfg1.win 1).blk t).view.emb (ix3 (0 : Fin 1) k' n)) = V c main_v8 _
    refine congrArg (V c main_v8) (funext fun a => Fin.ext ?_)
    match a with
    | ⟨0, _⟩ => show win1_1.index t (0 : Fin 3) * 1 + 1 * 0 = t.val / 32; omega
    | ⟨1, _⟩ => show win1_1.index t (1 : Fin 3) * 2048 + 1 * k'.val = k'.val; omega
    | ⟨2, _⟩ => show win1_1.index t (2 : Fin 3) * 128 + 1 * n.val = 128 * (t.val / 4 % 8) + n.val; omega
  · intro k' n
    show V c main_v9 (((cfg1.win 2).blk t).view.emb (ix3 (0 : Fin 1) k' n)) = V c main_v9 _
    refine congrArg (V c main_v9) (funext fun a => Fin.ext ?_)
    match a with
    | ⟨0, _⟩ => show win1_2.index t (0 : Fin 3) * 1 + 1 * 0 = t.val / 32; omega
    | ⟨1, _⟩ => show win1_2.index t (1 : Fin 3) * 2048 + 1 * k'.val = k'.val; omega
    | ⟨2, _⟩ => show win1_2.index t (2 : Fin 3) * 128 + 1 * n.val = 128 * (t.val / 4 % 8) + n.val; omega

/-! ## The array after the region -/

/-- THE OUTPUT ARRAY after the region's grid: the attention of the three input arrays as the region finds them, index by index. -/
theorem final1_3 (c : Dev nD) :
    (dat1 (F := Ideal) V c).arrAt 3 cfg1.N = Attn (V c main_v7) (V c main_v8) (V c main_v9) :=
  (dat1 (F := Ideal) V c).arrAt_eq_of_cover 3 (Attn (V c main_v7) (V c main_v8) (V c main_v9))
    (fun t _ => flushed1_3_eq V c t) covered1_3

end Cert.KernelIdeal.Hand

end
-- ==== Proof.KernelIdeal.OutProjEntry.lean ====
/-
  One entry of the block the output projection's body stores, read index by index over the extended reals: the
  contraction of a row of the activation block with a column of the weights, plus the column's bias.
-/
import proofs.«144204_j5497558139332_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx

/-- The left operand's row is the output's row, -/
theorem outProj_lhs_row (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- its column the contracted coordinate; -/
theorem outProj_lhs_col (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
/-- the right operand's row is the contracted coordinate, -/
theorem outProj_rhs_row (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
/-- its column the output's column. -/
theorem outProj_rhs_col (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- One entry of the block the body stores: the contraction of row `p` of the activation block with column `n` of
    the weights over the 1024 features, plus the bias of column `n` (the changes of shape are the identity, the
    accumulator is zero, the bias row is repeated down the rows). -/
theorem outProj_entry (x0 : Vec Ideal S512x1024 .bf16) (x1 : Vec Ideal S1024x1024 .bf16) (x2 : Vec Ideal S1x1024 .f32)
    (p : Fin 512) (n : Fin 1024) :
    k2_pay1 (F := Ideal) x0 x1 x2 (ix2 p n)
      = (∑ e : Fin 1024, x0 (ix2 p e) * x1 (ix2 e n)) + x2 (ix2 (0 : Fin 1) n) := by
  unfold k2_pay1
  simp only [shapeCast_self]
  rw [addf_apply, broadcastTo_1b_ab_apply]
  refine congrArg (· + x2 (ix2 (0 : Fin 1) n)) ?_
  refine (Ideal.matmul_constant_zero_apply (φ₁ := .bf16) (φ₂ := .bf16) dot_S512x1024_S1024x1024_S512x1024_1_0_0_1_n_n none x0 x1 (ix2 p n)).trans ?_
  rw [← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p n) ((contrEquiv1 dot_S512x1024_S1024x1024_S512x1024_1_0_0_1_n_n 1024 rfl rfl).symm k) = ix2 p k := funext fun a => Fin.ext (by
    match a with
    | ⟨0, _⟩ => exact outProj_lhs_row _ _
    | ⟨1, _⟩ => exact (outProj_lhs_col _ _).trans hk)
  have er : dot_S512x1024_S1024x1024_S512x1024_1_0_0_1_n_n.rhsIdx (ix2 p n) ((contrEquiv1 dot_S512x1024_S1024x1024_S512x1024_1_0_0_1_n_n 1024 rfl rfl).symm k) = ix2 k n := funext fun a => Fin.ext (by
    match a with
    | ⟨0, _⟩ => exact (outProj_rhs_row _ _).trans hk
    | ⟨1, _⟩ => exact outProj_rhs_col _ _)
  rw [el, er]

end Cert.KernelIdeal.Hand

end
-- ==== Proof.KernelIdeal.ValueRegion2.lean ====
/-
  The output projection's array after its region: every grid point writes one block of 512 rows, and that block is the
  same 512 rows of ONE whole-array function of the region's three input arrays — each entry the contraction of a row
  of the activations with a column of the weights plus that column's bias. The sixteen blocks tile the 8192 rows, so
  the array ends holding that function.
-/
import proofs.«144204_j5497558139332_2_alg».proof.Proof.KernelIdeal.Region2
import proofs.«144204_j5497558139332_2_alg».proof.Proof.KernelIdeal.KerSpecProj
import proofs.«144204_j5497558139332_2_alg».proof.Proof.KernelIdeal.OutProjEntry
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

-- the core's buffer contents when the region is entered
variable (V : (c : Dev nD) → (b : Ref sig .tc) → Buf (Elt Ideal) ((c : Thread nD τ).loc b))

/-- The body's rectangles sit at offset zero on both axes. -/
theorem outProj_offsets_zero : (![0, 0] : Fin 2 → Nat) = fun _ => 0 := funext fun a => by fin_cases a <;> rfl

/-- The block index maps, decided over the sixteen grid points: the activations' block moves down the rows with the
    output's block; the weights and the bias are one block each; no block index leaves its range. -/
theorem outProj_idx_facts : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) ≤ 15 ∧ win2_3.index t (1 : Fin 2) = 0 :=
  (by decide +kernel : ∀ t : Fin grid2.N, _)

/-- Every one of the sixteen row blocks is some grid point's. -/
theorem outProj_idx_onto : ∀ q0 : Fin 16, ∃ t : Fin cfg2.N, win2_3.index t = ![q0.val, 0] :=
  (by decide +kernel : ∀ q0 : Fin 16, ∃ t : Fin grid2.N, win2_3.index t = ![q0.val, 0])

/-- An entry of the stored block is the projection's entry at an array index `i`, once the three loaded blocks read
    the arrays where `i` says: row `p` of the activation block is row `i 0` of the activations, column `q` of the
    weight and bias blocks is column `i 1`. -/
theorem outProj_entry_of_reads (A0 : S8192x1024.Idx → EReal) (A1 : S1024x1024.Idx → EReal) (A2 : S1x1024.Idx → EReal)
    (x0 : Vec Ideal S512x1024 .bf16) (x1 : Vec Ideal S1024x1024 .bf16) (x2 : Vec Ideal S1x1024 .f32)
    (i : S8192x1024.Idx) (p : Fin 512) (q : Fin 1024)
    (h0 : ∀ e : Fin 1024, x0 (ix2 p e) = A0 (ix2 (i 0) e))
    (h1 : ∀ e : Fin 1024, x1 (ix2 e q) = A1 (ix2 e (i 1)))
    (h2 : x2 (ix2 (0 : Fin 1) q) = A2 (ix2 (0 : Fin 1) (i 1))) :
    k2_pay1 (F := Ideal) x0 x1 x2 (ix2 p q) = Cert.KerSpec.Out2d A0 A1 A2 i := by
  rw [outProj_entry]
  unfold Cert.KerSpec.Out2d Cert.KerSpec.linOut
  rw [h2]
  refine congrArg (· + A2 (ix2 (0 : Fin 1) (i 1))) ?_
  exact Finset.sum_congr rfl fun e _ => by rw [h0, h1]

/-- What grid point `t` writes back is block `t` of the projection of the arrays as the region finds them. -/
theorem outProj_flushed_eq (c : Dev nD) (t : Fin cfg2.N) :
    (dat2 (F := Ideal) V c).flushed 3 t
      = ((cfg2.win 3).blk t).view.read (Elt Ideal) (Cert.KerSpec.Out2d (V c main_v11) (V c main_v13) (V c main_v14)) := by
  show (cfg2.win 3).cut (grid2.coords t) ((dat2 V c).after 3 t) = _
  rw [after2_3]
  unfold out2_3
  rw [View.canon_unit_zero outProj_offsets_zero]
  simp only [View.ld_unit_zero (S := S512x1024) outProj_offsets_zero, View.ld_unit_zero (S := S1024x1024) outProj_offsets_zero,
    View.ld_unit_zero (S := S1x1024) outProj_offsets_zero]
  obtain ⟨e0, e1, e2, e3, e4, e5, e6, e7⟩ := outProj_idx_facts t
  funext j
  obtain ⟨p, q, rfl⟩ : ∃ (p : Fin 512) (q : Fin 1024), j = ix2 p q := ⟨j 0, j 1, eq_ix2 j⟩
  show k2_pay1 (F := Ideal) (iblk2 V c 0 t) (iblk2 V c 1 t) (iblk2 V c 2 t) (ix2 p q)
    = Cert.KerSpec.Out2d (V c main_v11) (V c main_v13) (V c main_v14) (((cfg2.win 3).blk t).view.emb (ix2 p q))
  refine outProj_entry_of_reads (V c main_v11) (V c main_v13) (V c main_v14) (iblk2 V c 0 t) (iblk2 V c 1 t) (iblk2 V c 2 t)
    (((cfg2.win 3).blk t).view.emb (ix2 p q)) p q ?_ ?_ ?_
  · intro e
    show V c main_v11 (((cfg2.win 0).blk t).view.emb (ix2 p e)) = V c main_v11 (ix2 ((((cfg2.win 3).blk t).view.emb (ix2 p q)) 0) e)
    refine congrArg (V c main_v11) (funext fun a => Fin.ext ?_)
    match a with
    | ⟨0, _⟩ => show win2_0.index t (0 : Fin 2) * 512 + 1 * p.val = win2_3.index t (0 : Fin 2) * 512 + 1 * p.val; omega
    | ⟨1, _⟩ => show win2_0.index t (1 : Fin 2) * 1024 + 1 * e.val = e.val; omega
  · intro e
    show V c main_v13 (((cfg2.win 1).blk t).view.emb (ix2 e q)) = V c main_v13 (ix2 e ((((cfg2.win 3).blk t).view.emb (ix2 p q)) 1))
    refine congrArg (V c main_v13) (funext fun a => Fin.ext ?_)
    match a with
    | ⟨0, _⟩ => show win2_1.index t (0 : Fin 2) * 1024 + 1 * e.val = e.val; omega
    | ⟨1, _⟩ => show win2_1.index t (1 : Fin 2) * 1024 + 1 * q.val = win2_3.index t (1 : Fin 2) * 1024 + 1 * q.val; omega
  · show V c main_v14 (((cfg2.win 2).blk t).view.emb (ix2 (0 : Fin 1) q)) = V c main_v14 (ix2 (0 : Fin 1) ((((cfg2.win 3).blk t).view.emb (ix2 p q)) 1))
    refine congrArg (V c main_v14) (funext fun a => Fin.ext ?_)
    match a with
    | ⟨0, _⟩ => show win2_2.index t (0 : Fin 2) * 1 + 1 * 0 = 0; omega
    | ⟨1, _⟩ => show win2_2.index t (1 : Fin 2) * 1024 + 1 * q.val = win2_3.index t (1 : Fin 2) * 1024 + 1 * q.val; omega

/-- An index of the array is in point `t`'s block iff each coordinate is in the block's range on its axis. -/
theorem outProj_mem_blk (t : Fin cfg2.N) (i : S8192x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v15).slice (win2_3.rect t)).set ↔ _
  rw [View.set_slice_whole, Rect.mem_set_unit]
  exact Iff.rfl

/-- Every index of the array is in some grid point's block: row `r` is in block `r / 512`. -/
theorem outProj_cover (i : S8192x1024.Idx) :
    ∃ t : Fin cfg2.N, (cfg2.win 3).flush t = true ∧ i ∈ ((cfg2.win 3).blk t).view.set := by
  have hi0 : (i 0).val < 8192 := (i 0).isLt
  have hi1 : (i 1).val < 1024 := (i 1).isLt
  obtain ⟨t, ht⟩ := outProj_idx_onto ⟨(i 0).val / 512, by omega⟩
  have q0 : win2_3.index t (0 : Fin 2) = (i 0).val / 512 := congrFun ht 0
  have q1 : win2_3.index t (1 : Fin 2) = 0 := congrFun ht 1
  refine ⟨t, flush2_3 t, ?_⟩
  rw [outProj_mem_blk]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 1024 ≤ (i 1).val ∧ (i 1).val < win2_3.index t (1 : Fin 2) * 1024 + 1024; omega

/-- The output projection's array after the region is the projection of the region's input arrays. -/
theorem final2_3 (c : Dev nD) :
    (dat2 (F := Ideal) V c).arrAt 3 cfg2.N = Cert.KerSpec.Out2d (V c main_v11) (V c main_v13) (V c main_v14) :=
  (dat2 (F := Ideal) V c).arrAt_eq_of_cover 3 (Cert.KerSpec.Out2d (V c main_v11) (V c main_v13) (V c main_v14))
    (fun t _ => outProj_flushed_eq V c t) outProj_cover

end Cert.KernelIdeal.Hand

end
-- ==== Proof.KerLayer.lean ====
/-
  The same attention layer in the KERNEL's arrangement, index by index on the extended reals. It differs from the
  reference's arrangement (RefSpec) in two places only:

    * the scale (the float 0.125) multiplies the query projection, BEFORE the score's sum over the head's 64 lanes,
      instead of multiplying the finished score;
    * the weighted sum of value rows is formed with the UNNORMALIZED weights exp(score − max) and divided by their sum
      AFTERWARDS, instead of normalizing each weight first.

    qproj   (β, s, n)     = ((Σ_e x(β, s, e) · Wq(n, e)) + bq(n)) · 0.125
    kscore  (β, h, q, k)  = Σ_d qproj(β, q, 64h + d) · K(β, k, 64h + d)
    headout (β, h, q, d)  = (Σ_k exp(kscore(k) − M) · V(β, k, 64h + d)) / (Σ_k exp(kscore(k) − M)),   M = mx (kscore(·))
    merged, out           as in the reference's arrangement

  The row maximum is taken by an operator `mx` on the row of scores, left as a parameter: the result does not depend on
  which finite number is subtracted.
-/
import proofs.«144204_j5497558139332_2_alg».proof.Proof.RefSpec

noncomputable section

namespace Cert.KerLayer

open Idealize.ShloMosaic Idealize.ShloMosaic.ValueIdx
open Cert.RefSpec (Act Mat Bias hd headOf laneOf proj)

/-- The float 0.125, the kernel's folded scale. -/
abbrev eighth : EReal := Ideal.ofBits .f32 0x3E000000#32

/-- The query projection, already scaled. -/
def qproj (x : Act) (Wq : Mat) (bq : Bias) (β : Fin 4) (s : Fin 2048) (n : Fin 1024) : EReal :=
  proj x Wq bq β s n * eighth

/-- The dot product of the scaled query row q and key row k inside head h. -/
def kscore (x : Act) (Wq : Mat) (bq : Bias) (Wk : Mat) (bk : Bias) (β : Fin 4) (h : Fin 16) (q k : Fin 2048) : EReal :=
  ∑ d : Fin 64, qproj x Wq bq β q (hd h d) * proj x Wk bk β k (hd h d)

/-- The number subtracted from the scores of query row q: the operator `mx` of that row. -/
def kmax (mx : (Fin 2048 → EReal) → EReal) (x : Act) (Wq : Mat) (bq : Bias) (Wk : Mat) (bk : Bias)
    (β : Fin 4) (h : Fin 16) (q : Fin 2048) : EReal :=
  mx fun k => kscore x Wq bq Wk bk β h q k

/-- The unnormalized softmax weight. -/
def kprob (mx : (Fin 2048 → EReal) → EReal) (x : Act) (Wq : Mat) (bq : Bias) (Wk : Mat) (bk : Bias)
    (β : Fin 4) (h : Fin 16) (q k : Fin 2048) : EReal :=
  Ideal.exp (kscore x Wq bq Wk bk β h q k - kmax mx x Wq bq Wk bk β h q)

/-- The weighted sum of value rows with unnormalized weights, divided by the weights' sum: lane d of head h. -/
def headout (mx : (Fin 2048 → EReal) → EReal) (x : Act) (Wq : Mat) (bq : Bias) (Wk : Mat) (bk : Bias) (Wv : Mat) (bv : Bias)
    (β : Fin 4) (h : Fin 16) (q : Fin 2048) (d : Fin 64) : EReal :=
  Ideal.div (∑ k : Fin 2048, kprob mx x Wq bq Wk bk β h q k * proj x Wv bv β k (hd h d))
    (∑ k : Fin 2048, kprob mx x Wq bq Wk bk β h q k)

/-- The heads side by side: feature n of row (β, s). -/
def merged (mx : (Fin 2048 → EReal) → EReal) (x : Act) (Wq : Mat) (bq : Bias) (Wk : Mat) (bk : Bias) (Wv : Mat) (bv : Bias)
    (β : Fin 4) (s : Fin 2048) (n : Fin 1024) : EReal :=
  headout mx x Wq bq Wk bk Wv bv β (headOf n) s (laneOf n)

/-- The output projection at coordinates. -/
def outAt (mx : (Fin 2048 → EReal) → EReal) (x : Act) (Wq : Mat) (bq : Bias) (Wk : Mat) (bk : Bias) (Wv : Mat) (bv : Bias)
    (Wo : Mat) (bo : Bias) (β : Fin 4) (s : Fin 2048) (e : Fin 1024) : EReal :=
  (∑ n : Fin 1024, merged mx x Wq bq Wk bk Wv bv β s n * Wo (ix2 e n)) + bo (ix1 e)

/-- The whole layer as an array [4, 2048, 1024]. -/
def layer (mx : (Fin 2048 → EReal) → EReal) (x : Act) (Wq : Mat) (bq : Bias) (Wk : Mat) (bk : Bias) (Wv : Mat) (bv : Bias)
    (Wo : Mat) (bo : Bias) : Act :=
  fun i => outAt mx x Wq bq Wk bk Wv bv Wo bo (i 0) (i 1) (i 2)

theorem layer_ix3 (mx : (Fin 2048 → EReal) → EReal) (x : Act) (Wq : Mat) (bq : Bias) (Wk : Mat) (bk : Bias) (Wv : Mat) (bv : Bias)
    (Wo : Mat) (bo : Bias) (β : Fin 4) (s : Fin 2048) (e : Fin 1024) :
    layer mx x Wq bq Wk bk Wv bv Wo bo (ix3 β s e) = outAt mx x Wq bq Wk bk Wv bv Wo bo β s e := rfl

end Cert.KerLayer

end
-- ==== Proof.LayerCompose.lean ====
/-
  THE THREE STAGES COMPOSED: projections, attention, output projection, re-laid between stages, are the layer.

  The layer is computed in three stages on re-laid arrays:

    * one fused linear layer on the activations flattened to rows r = 2048 * b + s, against the three weight
      matrices transposed and set side by side (columns 0..1023 the queries, 1024..2047 the keys, 2048..3071 the
      values), with the three biases side by side; the query columns are then scaled by the float 1/8;
    * the attention of the arrays q, k, v so obtained, read back as [batch, position, feature];
    * one linear layer on the attention's output, flattened again, against the transposed output matrix.

  Given, as hypotheses, what the re-laying does to entries (the flattened activations are the activations, the
  fused weights and biases are the three matrices and biases, each stage reads what the previous stage wrote), every
  entry of the last stage's output is the entry of the attention layer in the kernel's arrangement, with the row's
  number taken as the fold of max from the float -oo. Nothing here is analysis: each step rewrites an entry by a
  hypothesis under a finite sum, and a feature n is feature 64 * (n / 64) + n % 64.
-/
import proofs.«144204_j5497558139332_2_alg».proof.Proof.KernelIdeal.KerSpecProj
import proofs.«144204_j5497558139332_2_alg».proof.Proof.KerSpecAttn
import proofs.«144204_j5497558139332_2_alg».proof.Proof.KerLayer

namespace Cert.AttnLaw

open Idealize.ShloMosaic Idealize.ShloMosaic.ValueIdx
open Cert.RefSpec (Act Mat Bias hd headOf laneOf proj)
open scoped BigOperators

/-- Row 2048 * b + s of the flattened activations. -/
def row (β : Fin 4) (s : Fin 2048) : Fin 8192 := ⟨β.val * 2048 + s.val, by have := β.isLt; have := s.isLt; omega⟩

/-- The row's number in the kernel's arrangement: the fold of max from the float -oo over the row. -/
noncomputable abbrev rowMax : (Fin 2048 → EReal) → EReal :=
  fun f => (Finset.univ : Finset (Fin 2048)).fold max (Ideal.ofBits .f32 0xFF800000#32) f

/-- One part of the fused linear layer, read on the flattened activations, is the projection with that part's
    matrix and bias. -/
theorem lin_eq_proj (x : Act) (W : Mat) (b : Bias)
    (x2d : (⟨2, ![8192, 1024]⟩ : Shape).Idx → EReal) (w3 : (⟨2, ![1024, 3072]⟩ : Shape).Idx → EReal)
    (b3 : (⟨2, ![1, 3072]⟩ : Shape).Idx → EReal) (off : Nat) (hoff : off + 1024 ≤ 3072)
    (hx : ∀ β s e, x2d (ix2 (row β s) e) = x (ix3 β s e))
    (hw : ∀ e n, w3 (ix2 e (Cert.KerSpec.col off hoff n)) = W (ix2 n e))
    (hb : ∀ n, b3 (ix2 (0 : Fin 1) (Cert.KerSpec.col off hoff n)) = b (ix1 n))
    (β : Fin 4) (s : Fin 2048) (n : Fin 1024) :
    Cert.KerSpec.lin x2d w3 b3 (row β s) (Cert.KerSpec.col off hoff n) = proj x W b β s n := by
  unfold Cert.KerSpec.lin Cert.RefSpec.proj
  rw [hb n]
  exact congrArg (· + b (ix1 n)) (Finset.sum_congr rfl fun e _ => by rw [hx β s e, hw e n])

/-- With queries that are the scaled query projection and keys that are the key projection, the attention stage's
    scores are the layer's scores. -/
theorem kscore_eq (x : Act) (Wq : Mat) (bq : Bias) (Wk : Mat) (bk : Bias) (q k : Cert.KerSpec.Arr)
    (hq : ∀ β s n, q (ix3 β s n) = Cert.KerLayer.qproj x Wq bq β s n)
    (hk : ∀ β s n, k (ix3 β s n) = proj x Wk bk β s n)
    (β : Fin 4) (h : Fin 16) (s k' : Fin 2048) :
    Cert.KerSpec.kscore q k β h s k' = Cert.KerLayer.kscore x Wq bq Wk bk β h s k' := by
  unfold Cert.KerSpec.kscore Cert.KerLayer.kscore
  exact Finset.sum_congr rfl fun d _ => by rw [hq β s (hd h d), hk β k' (hd h d)]

/-- ... its row maxima are the layer's row numbers, ... -/
theorem kmax_eq (x : Act) (Wq : Mat) (bq : Bias) (Wk : Mat) (bk : Bias) (q k : Cert.KerSpec.Arr)
    (hq : ∀ β s n, q (ix3 β s n) = Cert.KerLayer.qproj x Wq bq β s n)
    (hk : ∀ β s n, k (ix3 β s n) = proj x Wk bk β s n)
    (β : Fin 4) (h : Fin 16) (s : Fin 2048) :
    Cert.KerSpec.kmax q k β h s = Cert.KerLayer.kmax rowMax x Wq bq Wk bk β h s := by
  unfold Cert.KerSpec.kmax Cert.KerLayer.kmax
  show (Finset.univ : Finset (Fin 2048)).fold max (Ideal.ofBits .f32 0xFF800000#32)
      (fun k' => Cert.KerSpec.kscore q k β h s k')
    = (Finset.univ : Finset (Fin 2048)).fold max (Ideal.ofBits .f32 0xFF800000#32)
      (fun k' => Cert.KerLayer.kscore x Wq bq Wk bk β h s k')
  rw [show (fun k' => Cert.KerSpec.kscore q k β h s k') = (fun k' => Cert.KerLayer.kscore x Wq bq Wk bk β h s k')
    from funext fun k' => kscore_eq x Wq bq Wk bk q k hq hk β h s k']

/-- ... and its weights are the layer's weights. -/
theorem kprob_eq (x : Act) (Wq : Mat) (bq : Bias) (Wk : Mat) (bk : Bias) (q k : Cert.KerSpec.Arr)
    (hq : ∀ β s n, q (ix3 β s n) = Cert.KerLayer.qproj x Wq bq β s n)
    (hk : ∀ β s n, k (ix3 β s n) = proj x Wk bk β s n)
    (β : Fin 4) (h : Fin 16) (s k' : Fin 2048) :
    Cert.KerSpec.kprob q k β h s k' = Cert.KerLayer.kprob rowMax x Wq bq Wk bk β h s k' := by
  unfold Cert.KerSpec.kprob Cert.KerLayer.kprob
  rw [kscore_eq x Wq bq Wk bk q k hq hk, kmax_eq x Wq bq Wk bk q k hq hk]

/-- With values that are the value projection too, the attention stage's output at feature n is the layer's merged
    head output at feature n: feature n is lane n % 64 of head n / 64. -/
theorem attnAt_eq_merged (x : Act) (Wq : Mat) (bq : Bias) (Wk : Mat) (bk : Bias) (Wv : Mat) (bv : Bias)
    (q k v : Cert.KerSpec.Arr)
    (hq : ∀ β s n, q (ix3 β s n) = Cert.KerLayer.qproj x Wq bq β s n)
    (hk : ∀ β s n, k (ix3 β s n) = proj x Wk bk β s n)
    (hv : ∀ β s n, v (ix3 β s n) = proj x Wv bv β s n)
    (β : Fin 4) (s : Fin 2048) (n : Fin 1024) :
    Cert.KerSpec.attnAt q k v β s n = Cert.KerLayer.merged rowMax x Wq bq Wk bk Wv bv β s n := by
  unfold Cert.KerSpec.attnAt Cert.KerSpec.ksum Cert.KerLayer.merged Cert.KerLayer.headout
  rw [Cert.RefSpec.hd_headOf_laneOf]
  exact congrArg₂ Ideal.div
    (Finset.sum_congr rfl fun k' _ => by rw [kprob_eq x Wq bq Wk bk q k hq hk, hv β k' n])
    (Finset.sum_congr rfl fun k' _ => kprob_eq x Wq bq Wk bk q k hq hk β (headOf n) s k')

/-- THE COMPOSITION: the output stage, on the attention stage's output, on the fused projection stage's three
    outputs, all on re-laid arrays, is entry by entry the layer in the kernel's arrangement. -/
theorem compose (x : Act) (Wq : Mat) (bq : Bias) (Wk : Mat) (bk : Bias) (Wv : Mat) (bv : Bias) (Wo : Mat) (bo : Bias)
    (x2d : (⟨2, ![8192, 1024]⟩ : Shape).Idx → EReal) (w3 : (⟨2, ![1024, 3072]⟩ : Shape).Idx → EReal)
    (b3 : (⟨2, ![1, 3072]⟩ : Shape).Idx → EReal) (q k v : Cert.KerSpec.Arr)
    (o2d : (⟨2, ![8192, 1024]⟩ : Shape).Idx → EReal) (woT : (⟨2, ![1024, 1024]⟩ : Shape).Idx → EReal)
    (bo2 : (⟨2, ![1, 1024]⟩ : Shape).Idx → EReal)
    (hx : ∀ β s e, x2d (ix2 (row β s) e) = x (ix3 β s e))
    (hwq : ∀ e n, w3 (ix2 e (Cert.KerSpec.col 0 (by decide) n)) = Wq (ix2 n e))
    (hwk : ∀ e n, w3 (ix2 e (Cert.KerSpec.col 1024 (by decide) n)) = Wk (ix2 n e))
    (hwv : ∀ e n, w3 (ix2 e (Cert.KerSpec.col 2048 (by decide) n)) = Wv (ix2 n e))
    (hbq : ∀ n, b3 (ix2 (0 : Fin 1) (Cert.KerSpec.col 0 (by decide) n)) = bq (ix1 n))
    (hbk : ∀ n, b3 (ix2 (0 : Fin 1) (Cert.KerSpec.col 1024 (by decide) n)) = bk (ix1 n))
    (hbv : ∀ n, b3 (ix2 (0 : Fin 1) (Cert.KerSpec.col 2048 (by decide) n)) = bv (ix1 n))
    (hq : ∀ β s n, q (ix3 β s n) = Cert.KerSpec.Q2d x2d w3 b3 (ix2 (row β s) n))
    (hk : ∀ β s n, k (ix3 β s n) = Cert.KerSpec.K2d x2d w3 b3 (ix2 (row β s) n))
    (hv : ∀ β s n, v (ix3 β s n) = Cert.KerSpec.V2d x2d w3 b3 (ix2 (row β s) n))
    (ho : ∀ β s n, o2d (ix2 (row β s) n) = Cert.KerSpec.Attn q k v (ix3 β s n))
    (hwo : ∀ n e, woT (ix2 n e) = Wo (ix2 e n)) (hbo : ∀ e, bo2 (ix2 (0 : Fin 1) e) = bo (ix1 e))
    (β : Fin 4) (s : Fin 2048) (e : Fin 1024) :
    Cert.KerSpec.Out2d o2d woT bo2 (ix2 (row β s) e)
      = Cert.KerLayer.outAt (fun f => (Finset.univ : Finset (Fin 2048)).fold max (Ideal.ofBits .f32 0xFF800000#32) f)
          x Wq bq Wk bk Wv bv Wo bo β s e := by
  have hq' : ∀ β s n, q (ix3 β s n) = Cert.KerLayer.qproj x Wq bq β s n := fun β s n => by
    rw [hq β s n]
    show Cert.KerSpec.lin x2d w3 b3 (row β s) (Cert.KerSpec.col 0 (by decide) n) * Ideal.ofBits .f32 0x3E000000#32
      = proj x Wq bq β s n * Cert.KerLayer.eighth
    rw [lin_eq_proj x Wq bq x2d w3 b3 0 (by decide) hx hwq hbq]
  have hk' : ∀ β s n, k (ix3 β s n) = proj x Wk bk β s n := fun β s n => by
    rw [hk β s n]
    exact lin_eq_proj x Wk bk x2d w3 b3 1024 (by decide) hx hwk hbk β s n
  have hv' : ∀ β s n, v (ix3 β s n) = proj x Wv bv β s n := fun β s n => by
    rw [hv β s n]
    exact lin_eq_proj x Wv bv x2d w3 b3 2048 (by decide) hx hwv hbv β s n
  show Cert.KerSpec.linOut o2d woT bo2 (row β s) e = Cert.KerLayer.outAt rowMax x Wq bq Wk bk Wv bv Wo bo β s e
  unfold Cert.KerSpec.linOut Cert.KerLayer.outAt
  rw [hbo e]
  exact congrArg (· + bo (ix1 e)) (Finset.sum_congr rfl fun n _ => by
    rw [hwo n e, ho β s n, Cert.KerSpec.Attn_ix3, attnAt_eq_merged x Wq bq Wk bk Wv bv q k v hq' hk' hv' β s n])

end Cert.AttnLaw
-- ==== Proof.LibSoftmaxLaw.lean ====
/-
  THE SOFTMAX-AVERAGE LAW OVER THE EXTENDED REALS.

  One row of an attention layer: scores s k (k over a finite nonempty set of keys), a shift M,
  weights p k = exp (s k - M), normalizer L = sum of the p k, one value column v k. Two programs
  compute the weighted average in two orders:

    "normalize, then average":   sum over k of (p k / L) * v k          (a softmax followed by a product)
    "average, then normalize":   (sum over k of p k * v k) / L          (one division at the end)

  Over the real numbers the two are equal (the division distributes over the finite sum), and both are
  equal to (sum of exp (s k) * v k) / (sum of exp (s k)), WHATEVER real number the shift M is: the factor
  exp (-M) cancels between numerator and denominator. Over the extended reals [-oo, +oo], with the
  conventions that make every operation total, distributing a division over a sum is false in general
  (at an infinite or zero normalizer), so the statement needs the finiteness that is in fact there:
  if every score, the shift and every value are (coercions of) real numbers, every weight exp (s k - M)
  is a positive real, the normalizer is a positive real (the key set is not empty), no operation leaves
  the reals, and the extended-real computation is the coercion of the real one.

  The file proves, in this order:
    * the coercion from the reals commutes with finite sums;
    * the bit patterns of the constants 1, 64, 1/8, 0 and -oo, and sqrt 64 = 8, 1 / sqrt 64 = 1/8;
    * a score written (sum of q d * k d) * c and the same score written sum of (q d * c) * k d are one real;
    * the running maximum, from -oo, of finitely many reals over a nonempty set is a real (the largest one);
    * the two orders of the weighted average above, each equal to the coercion of the real softmax average,
      hence equal to each other.
-/
import Idealize.ShloMosaic.PureOps.Ideal
import Idealize.ShloMosaic.PureOps.Ideal.Laws

namespace Cert.AttnLaw

open Idealize.ShloMosaic
open scoped BigOperators

/-! ## The coercion from the reals commutes with finite sums -/

/-- The coercion of a finite sum of reals is the sum of the coercions. -/
theorem coe_sum {ι : Type*} (t : Finset ι) (g : ι → ℝ) :
    ((∑ k ∈ t, g k : ℝ) : EReal) = ∑ k ∈ t, (g k : EReal) := by
  classical
  induction t using Finset.induction_on with
  | empty => simp
  | insert a t ha ih => rw [Finset.sum_insert ha, Finset.sum_insert ha, EReal.coe_add, ih]

/-- A finite sum of extended reals each of which is (the coercion of) a real is the coercion of the real sum. -/
theorem sum_eq_coe {ι : Type*} (t : Finset ι) (f : ι → EReal) (g : ι → ℝ) (hf : ∀ k ∈ t, f k = (g k : EReal)) :
    ∑ k ∈ t, f k = ((∑ k ∈ t, g k : ℝ) : EReal) := by
  rw [coe_sum]; exact Finset.sum_congr rfl hf

/-! ## The constants -/

/-- The f32 pattern 0x3F800000 denotes one. -/
theorem ofBits_one : Ideal.ofBits .f32 0x3F800000#32 = ((1 : ℝ) : EReal) := by
  simp [Ideal.ofBits, Ideal.ieee, -EReal.coe_mul]; norm_num

/-- The f32 pattern 0x42800000 denotes sixty-four. -/
theorem ofBits_sixtyfour : Ideal.ofBits .f32 0x42800000#32 = ((64 : ℝ) : EReal) := by
  simp [Ideal.ofBits, Ideal.ieee, -EReal.coe_mul]; norm_num

/-- The f32 pattern 0x3E000000 denotes one eighth. -/
theorem ofBits_eighth : Ideal.ofBits .f32 0x3E000000#32 = ((1 / 8 : ℝ) : EReal) := by
  simp [Ideal.ofBits, Ideal.ieee, -EReal.coe_mul]; norm_num

/-- The f32 pattern 0xFF800000 denotes minus infinity, the bottom of the extended reals. -/
theorem ofBits_neg_inf : Ideal.ofBits .f32 0xFF800000#32 = (⊥ : EReal) := by
  simp [Ideal.ofBits, Ideal.ieee]

/-- The f32 pattern 0x00000000 denotes zero. -/
theorem ofBits_zero : Ideal.ofBits .f32 0x00000000#32 = (0 : EReal) := Ideal.ofBits_zero_f32

/-- The square root of sixty-four is eight. -/
theorem sqrt_sixtyfour : Ideal.sqrt ((64 : ℝ) : EReal) = ((8 : ℝ) : EReal) := by
  have h : Real.sqrt 64 = 8 := by
    rw [show (64 : ℝ) = 8 ^ 2 by norm_num]; exact Real.sqrt_sq (by norm_num)
  rw [Ideal.sqrt_coe, if_neg (by norm_num), h]

/-- One divided by the square root of sixty-four is one eighth. -/
theorem one_div_sqrt_sixtyfour :
    Ideal.div ((1 : ℝ) : EReal) (Ideal.sqrt ((64 : ℝ) : EReal)) = ((1 / 8 : ℝ) : EReal) := by
  rw [sqrt_sixtyfour, Ideal.div_coe (by norm_num), ← EReal.coe_mul, one_mul]

/-- The reference's scale, one over the square root of the head width, written with the bit patterns of its
    two constants, is one eighth. -/
theorem scale_eq_eighth :
    Ideal.div (Ideal.ofBits .f32 0x3F800000#32) (Ideal.sqrt (Ideal.ofBits .f32 0x42800000#32)) = ((1 / 8 : ℝ) : EReal) := by
  rw [ofBits_one, ofBits_sixtyfour, one_div_sqrt_sixtyfour]

/-- ... and is the kernel's folded constant, the f32 pattern 0x3E000000. -/
theorem scale_eq_ofBits :
    Ideal.div (Ideal.ofBits .f32 0x3F800000#32) (Ideal.sqrt (Ideal.ofBits .f32 0x42800000#32))
      = Ideal.ofBits .f32 0x3E000000#32 := by
  rw [scale_eq_eighth, ofBits_eighth]

/-! ## One score, written two ways -/

/-- A finite sum of products of (coercions of) reals is the coercion of the real sum of products. -/
theorem sum_mul_coe {ι : Type*} (t : Finset ι) (x w : ι → ℝ) :
    ∑ e ∈ t, (x e : EReal) * (w e : EReal) = ((∑ e ∈ t, x e * w e : ℝ) : EReal) :=
  sum_eq_coe t _ _ fun e _ => (EReal.coe_mul (x e) (w e)).symm

/-- The reference's score: the contraction of a query row with a key row, then the scale. -/
theorem score_scaled_after {δ : Type*} (D : Finset δ) (q k : δ → ℝ) (c : ℝ) :
    (∑ d ∈ D, (q d : EReal) * (k d : EReal)) * (c : EReal) = (((∑ d ∈ D, q d * k d) * c : ℝ) : EReal) := by
  rw [sum_mul_coe, ← EReal.coe_mul]

/-- The kernel's score: the scale folded into the query row before the contraction. The same real. -/
theorem score_scaled_before {δ : Type*} (D : Finset δ) (q k : δ → ℝ) (c : ℝ) :
    ∑ d ∈ D, ((q d : EReal) * (c : EReal)) * (k d : EReal) = (((∑ d ∈ D, q d * k d) * c : ℝ) : EReal) := by
  rw [Finset.sum_mul]
  exact sum_eq_coe D _ _ fun d _ => by rw [← EReal.coe_mul, ← EReal.coe_mul, mul_right_comm]

/-! ## The running maximum of finitely many reals -/

/-- The fold of the maximum, from minus infinity, over a nonempty finite set of (coercions of) reals is the
    coercion of the largest of them. The operation is any one that IS the maximum (so the statement applies to
    the lattice's max and to a float instance's maximum field alike), the initial value anything that is
    minus infinity, and the folded function anything that is pointwise a real on the set. -/
theorem fold_max_eq_coe_sup' {ι : Type*} (op : EReal → EReal → EReal) [Std.Commutative op] [Std.Associative op]
    (hop : ∀ x y, op x y = max x y) (t : Finset ι) (ht : t.Nonempty) (b : EReal) (hb : b = ⊥)
    (f : ι → EReal) (s : ι → ℝ) (hf : ∀ k ∈ t, f k = (s k : EReal)) :
    t.fold op b f = ((t.sup' ht s : ℝ) : EReal) := by
  subst hb
  induction ht using Finset.Nonempty.cons_induction with
  | singleton a =>
    rw [Finset.fold_singleton, hop, hf a (Finset.mem_singleton_self a), Finset.sup'_singleton]
    exact max_eq_left bot_le
  | cons a t ha ht ih =>
    rw [Finset.fold_cons, hop, hf a (Finset.mem_cons_self a t), ih fun k hk => hf k (Finset.mem_cons_of_mem hk),
      Finset.sup'_cons ht]
    exact (EReal.coe_strictMono.monotone.map_max).symm

/-- So that fold is (the coercion of) a real, which is all the softmax-average law asks of its shift. -/
theorem fold_max_eq_coe {ι : Type*} (op : EReal → EReal → EReal) [Std.Commutative op] [Std.Associative op]
    (hop : ∀ x y, op x y = max x y) (t : Finset ι) (ht : t.Nonempty) (b : EReal) (hb : b = ⊥)
    (f : ι → EReal) (s : ι → ℝ) (hf : ∀ k ∈ t, f k = (s k : EReal)) :
    ∃ M : ℝ, t.fold op b f = (M : EReal) ∧ (∀ k ∈ t, s k ≤ M) ∧ ∃ k ∈ t, M = s k := by
  refine ⟨t.sup' ht s, fold_max_eq_coe_sup' op hop t ht b hb f s hf, fun k hk => Finset.le_sup' s hk, ?_⟩
  obtain ⟨k, hk, e⟩ := Finset.exists_mem_eq_sup' ht s
  exact ⟨k, hk, e⟩

/-- A further maximum with minus infinity in front changes nothing. -/
theorem max_bot_coe (M : ℝ) : max (⊥ : EReal) (M : EReal) = (M : EReal) := max_eq_right bot_le

/-! ## The softmax average -/

/-- The real softmax average of the values v with scores s over the key set t. -/
noncomputable def softmaxAvg {κ : Type*} (t : Finset κ) (s v : κ → ℝ) : ℝ :=
  (∑ k ∈ t, Real.exp (s k) * v k) / ∑ k ∈ t, Real.exp (s k)

/-- Over the reals the softmax average does not depend on the shift: the factor exp (-M) cancels. -/
theorem softmaxAvg_shift {κ : Type*} (t : Finset κ) (s v : κ → ℝ) (M : ℝ) :
    (∑ k ∈ t, Real.exp (s k - M) * v k) / (∑ k ∈ t, Real.exp (s k - M)) = softmaxAvg t s v := by
  have hM : Real.exp M ≠ 0 := (Real.exp_pos M).ne'
  have h1 : ∑ k ∈ t, Real.exp (s k - M) * v k = (∑ k ∈ t, Real.exp (s k) * v k) / Real.exp M := by
    rw [Finset.sum_div]; exact Finset.sum_congr rfl fun k _ => by rw [Real.exp_sub]; ring
  have h2 : ∑ k ∈ t, Real.exp (s k - M) = (∑ k ∈ t, Real.exp (s k)) / Real.exp M := by
    rw [Finset.sum_div]; exact Finset.sum_congr rfl fun k _ => by rw [Real.exp_sub]
  rw [h1, h2, softmaxAvg, div_div_div_cancel_right₀ hM]

/-- The normalizer of a nonempty key set is a positive real. -/
theorem normalizer_pos {κ : Type*} (t : Finset κ) (ht : t.Nonempty) (s : κ → ℝ) (M : ℝ) :
    0 < ∑ k ∈ t, Real.exp (s k - M) :=
  Finset.sum_pos (fun k _ => Real.exp_pos _) ht

/-- A weight: the exponential of a real score minus a real shift is the coercion of the real exponential. -/
theorem exp_sub_coe (s M : ℝ) : Ideal.exp ((s : EReal) - (M : EReal)) = ((Real.exp (s - M) : ℝ) : EReal) := by
  rw [← EReal.coe_sub, Ideal.exp_coe]

/-- The normalizer, over the extended reals, is the coercion of the real normalizer. -/
theorem normalizer_coe {κ : Type*} (t : Finset κ) (s : κ → ℝ) (M : ℝ) :
    ∑ k ∈ t, Ideal.exp ((s k : EReal) - (M : EReal)) = ((∑ k ∈ t, Real.exp (s k - M) : ℝ) : EReal) :=
  sum_eq_coe t _ _ fun k _ => exp_sub_coe (s k) M

/-- AVERAGE, THEN NORMALIZE (the kernel's order): the weighted sum of the values divided once by the normalizer
    is the coercion of the real softmax average, for real scores, any real shift and real values over a
    nonempty key set. -/
theorem avg_then_normalize {κ : Type*} (t : Finset κ) (ht : t.Nonempty) (s v : κ → ℝ) (M : ℝ) :
    Ideal.div (∑ k ∈ t, Ideal.exp ((s k : EReal) - (M : EReal)) * (v k : EReal))
        (∑ k ∈ t, Ideal.exp ((s k : EReal) - (M : EReal)))
      = ((softmaxAvg t s v : ℝ) : EReal) := by
  have hL : (∑ k ∈ t, Real.exp (s k - M)) ≠ 0 := (normalizer_pos t ht s M).ne'
  have hN : ∑ k ∈ t, Ideal.exp ((s k : EReal) - (M : EReal)) * (v k : EReal)
      = ((∑ k ∈ t, Real.exp (s k - M) * v k : ℝ) : EReal) :=
    sum_eq_coe t _ _ fun k _ => by rw [exp_sub_coe, ← EReal.coe_mul]
  rw [hN, normalizer_coe, Ideal.div_coe hL, ← EReal.coe_mul, ← softmaxAvg_shift t s v M, mul_one_div]

/-- NORMALIZE, THEN AVERAGE (the reference's order): each weight divided by the normalizer, times its value,
    summed, is the coercion of the same real softmax average. -/
theorem normalize_then_avg {κ : Type*} (t : Finset κ) (ht : t.Nonempty) (s v : κ → ℝ) (M : ℝ) :
    ∑ k ∈ t, Ideal.div (Ideal.exp ((s k : EReal) - (M : EReal))) (∑ k' ∈ t, Ideal.exp ((s k' : EReal) - (M : EReal)))
        * (v k : EReal)
      = ((softmaxAvg t s v : ℝ) : EReal) := by
  have hL : (∑ k ∈ t, Real.exp (s k - M)) ≠ 0 := (normalizer_pos t ht s M).ne'
  rw [normalizer_coe, ← softmaxAvg_shift t s v M, Finset.sum_div]
  exact sum_eq_coe t _ _ fun k _ => by
    rw [Ideal.div_coe hL, exp_sub_coe, ← EReal.coe_mul, ← EReal.coe_mul]
    congr 1; ring

/-- The same with the host sum's initial value, zero, in front of the normalizer. -/
theorem normalize_then_avg_zero_add {κ : Type*} (t : Finset κ) (ht : t.Nonempty) (s v : κ → ℝ) (M : ℝ) :
    ∑ k ∈ t, Ideal.div (Ideal.exp ((s k : EReal) - (M : EReal)))
          (0 + ∑ k' ∈ t, Ideal.exp ((s k' : EReal) - (M : EReal))) * (v k : EReal)
      = ((softmaxAvg t s v : ℝ) : EReal) := by
  rw [zero_add]; exact normalize_then_avg t ht s v M

/-- THE LAW: the two orders agree, each with its own real shift. -/
theorem avg_then_normalize_eq_normalize_then_avg {κ : Type*} (t : Finset κ) (ht : t.Nonempty) (s v : κ → ℝ)
    (M M' : ℝ) :
    Ideal.div (∑ k ∈ t, Ideal.exp ((s k : EReal) - (M' : EReal)) * (v k : EReal))
        (∑ k ∈ t, Ideal.exp ((s k : EReal) - (M' : EReal)))
      = ∑ k ∈ t, Ideal.div (Ideal.exp ((s k : EReal) - (M : EReal)))
          (0 + ∑ k' ∈ t, Ideal.exp ((s k' : EReal) - (M : EReal))) * (v k : EReal) := by
  rw [avg_then_normalize t ht s v M', normalize_then_avg_zero_add t ht s v M]

/-! ## The same law for terms that are only KNOWN to be reals

The forms a program's value is rewritten with: the scores, the values, the shift and the sum's initial
value are arbitrary extended-real terms, each with a proof that it is (the coercion of) a real. -/

/-- Average, then normalize, for terms known to be reals. -/
theorem avg_then_normalize_of_eq {κ : Type*} (t : Finset κ) (ht : t.Nonempty) (S V : κ → EReal) (Mx : EReal)
    (s v : κ → ℝ) (M : ℝ) (hS : ∀ k ∈ t, S k = (s k : EReal)) (hV : ∀ k ∈ t, V k = (v k : EReal))
    (hM : Mx = (M : EReal)) :
    Ideal.div (∑ k ∈ t, Ideal.exp (S k - Mx) * V k) (∑ k ∈ t, Ideal.exp (S k - Mx))
      = ((softmaxAvg t s v : ℝ) : EReal) := by
  subst hM
  have e1 : ∑ k ∈ t, Ideal.exp (S k - (M : EReal)) * V k
      = ∑ k ∈ t, Ideal.exp ((s k : EReal) - (M : EReal)) * (v k : EReal) :=
    Finset.sum_congr rfl fun k hk => by rw [hS k hk, hV k hk]
  have e2 : ∑ k ∈ t, Ideal.exp (S k - (M : EReal)) = ∑ k ∈ t, Ideal.exp ((s k : EReal) - (M : EReal)) :=
    Finset.sum_congr rfl fun k hk => by rw [hS k hk]
  rw [e1, e2, avg_then_normalize t ht s v M]

/-- Normalize, then average, for terms known to be reals; the normalizer's sum starts from a term z that is zero
    (a host sum's initial value; take z := 0 and the sum is plain after zero_add). -/
theorem normalize_then_avg_of_eq {κ : Type*} (t : Finset κ) (ht : t.Nonempty) (S V : κ → EReal) (Mx z : EReal)
    (s v : κ → ℝ) (M : ℝ) (hS : ∀ k ∈ t, S k = (s k : EReal)) (hV : ∀ k ∈ t, V k = (v k : EReal))
    (hM : Mx = (M : EReal)) (hz : z = 0) :
    ∑ k ∈ t, Ideal.div (Ideal.exp (S k - Mx)) (z + ∑ k' ∈ t, Ideal.exp (S k' - Mx)) * V k
      = ((softmaxAvg t s v : ℝ) : EReal) := by
  subst hM hz
  have e2 : ∑ k ∈ t, Ideal.exp (S k - (M : EReal)) = ∑ k ∈ t, Ideal.exp ((s k : EReal) - (M : EReal)) :=
    Finset.sum_congr rfl fun k hk => by rw [hS k hk]
  rw [zero_add, e2, ← normalize_then_avg t ht s v M]
  exact Finset.sum_congr rfl fun k hk => by rw [hS k hk, hV k hk]

/-- THE LAW for terms known to be reals: the kernel's row (scores SK, values VK, shift MK) and the reference's
    (SR, VR, MR, initial value z) agree as soon as both score families are the same reals, both value families
    are the same reals, and each shift is some real. -/
theorem row_eq_of_eq {κ : Type*} (t : Finset κ) (ht : t.Nonempty) (SK SR VK VR : κ → EReal) (MK MR z : EReal)
    (s v : κ → ℝ) (mK mR : ℝ)
    (hSK : ∀ k ∈ t, SK k = (s k : EReal)) (hSR : ∀ k ∈ t, SR k = (s k : EReal))
    (hVK : ∀ k ∈ t, VK k = (v k : EReal)) (hVR : ∀ k ∈ t, VR k = (v k : EReal))
    (hMK : MK = (mK : EReal)) (hMR : MR = (mR : EReal)) (hz : z = 0) :
    Ideal.div (∑ k ∈ t, Ideal.exp (SK k - MK) * VK k) (∑ k ∈ t, Ideal.exp (SK k - MK))
      = ∑ k ∈ t, Ideal.div (Ideal.exp (SR k - MR)) (z + ∑ k' ∈ t, Ideal.exp (SR k' - MR)) * VR k := by
  rw [avg_then_normalize_of_eq t ht SK VK MK s v mK hSK hVK hMK,
    normalize_then_avg_of_eq t ht SR VR MR z s v mR hSR hVR hMR hz]

end Cert.AttnLaw
-- ==== Proof.LibFiniteSums.lean ====
/-
  FINITENESS THROUGH SUMS OF PRODUCTS, AND THE ATTENTION ROW ASSEMBLED.

  On the extended reals [-oo, +oo] the ring laws fail at the infinities (a product does not distribute over a sum,
  a scale cannot be moved across a contraction, a quotient cannot be moved across a sum), and hold on the reals.
  A program whose inputs are finite never leaves the reals as long as it only adds, subtracts, multiplies,
  exponentiates, divides by something that is not zero, and takes maxima over nonempty sets. This file makes
  that precise:

    * IsReal x: the extended real x is (the coercion of) a real number; it is exactly "neither infinity", and
      it follows from |x| < +oo, the shape in which a precondition on a float array states it;
    * IsReal is closed under +, -, *, negation, exp, division by a nonzero real, finite sums, and the
      running maximum from -oo over a nonempty finite set;
    * a linear projection  (sum over e of x e * w e) + b  of reals is the coercion of the real projection,
      and so is that times a real scale; with or without an initial accumulator that is zero;
    * moving a real scale across a contraction of reals: sum of (q d * c) * k d = (sum of q d * k d) * c;
    * an output projection  (sum over n of o n * w n) + b  depends only on the values o n;
    * the attention row, assembled: for finite scores and values, "average, then normalize" with ANY finite
      shift equals "normalize, then average" with the running maximum as the shift, in the literal shape of
      a softmax (maximum joined once more with -oo, normalizer summed from an initial zero).
-/
import proofs.«144204_j5497558139332_2_alg».proof.Proof.LibSoftmaxLaw

namespace Cert.AttnLaw

open Idealize.ShloMosaic
open scoped BigOperators

/-! ## Being a real -/

/-- The extended real x is (the coercion of) a real number. -/
def IsReal (x : EReal) : Prop := ∃ r : ℝ, x = (r : EReal)

/-- A coercion is a real. -/
theorem isReal_coe (r : ℝ) : IsReal (r : EReal) := ⟨r, rfl⟩

/-- Zero is a real. -/
theorem isReal_zero : IsReal (0 : EReal) := ⟨0, rfl⟩

/-- One is a real. -/
theorem isReal_one : IsReal (1 : EReal) := ⟨1, rfl⟩

/-- A real is the coercion of its real part. -/
theorem IsReal.eq_coe_toReal {x : EReal} (h : IsReal x) : x = ((x.toReal : ℝ) : EReal) := by
  obtain ⟨r, rfl⟩ := h; rw [EReal.toReal_coe]

/-- Being a real is being neither infinity. -/
theorem isReal_iff {x : EReal} : IsReal x ↔ x ≠ ⊥ ∧ x ≠ ⊤ := by
  constructor
  · rintro ⟨r, rfl⟩; exact ⟨EReal.coe_ne_bot r, EReal.coe_ne_top r⟩
  · rintro ⟨hb, ht⟩; exact ⟨x.toReal, (EReal.coe_toReal ht hb).symm⟩

/-- An extended real whose absolute value, max x (-x), is below plus infinity is a real. -/
theorem isReal_of_abs_lt_top {x : EReal} (h : max x (-x) < ⊤) : IsReal x := by
  induction x using EReal.rec with
  | bot => simp at h
  | top => simp at h
  | coe r => exact ⟨r, rfl⟩

/-- The f32 pattern 0x7F800000 denotes plus infinity, the top of the extended reals. -/
theorem ofBits_pos_inf : Ideal.ofBits .f32 0x7F800000#32 = (⊤ : EReal) := by
  simp [Ideal.ofBits, Ideal.ieee]

/-- The constants of the attention programs are reals. -/
theorem isReal_ofBits_one : IsReal (Ideal.ofBits .f32 0x3F800000#32) := ⟨1, ofBits_one⟩
theorem isReal_ofBits_eighth : IsReal (Ideal.ofBits .f32 0x3E000000#32) := ⟨1 / 8, ofBits_eighth⟩
theorem isReal_ofBits_zero : IsReal (Ideal.ofBits .f32 0x00000000#32) := ⟨0, ofBits_zero⟩
theorem isReal_scale :
    IsReal (Ideal.div (Ideal.ofBits .f32 0x3F800000#32) (Ideal.sqrt (Ideal.ofBits .f32 0x42800000#32))) :=
  ⟨1 / 8, scale_eq_eighth⟩

/-- Reals are closed under addition. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- Reals are closed under multiplication. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- Reals are closed under subtraction. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- Reals are closed under negation. -/
theorem IsReal.neg {x : EReal} (hx : IsReal x) : IsReal (-x) := by
  obtain ⟨a, rfl⟩ := hx; exact ⟨-a, (EReal.coe_neg a).symm⟩

/-- The exponential of a real is a real. -/
theorem IsReal.exp {x : EReal} (hx : IsReal x) : IsReal (Ideal.exp x) := by
  obtain ⟨a, rfl⟩ := hx; exact ⟨Real.exp a, Ideal.exp_coe a⟩

/-- The quotient of a real by a nonzero real is a real. -/
theorem IsReal.div {x y : EReal} (hx : IsReal x) (hy : IsReal y) (hy0 : y ≠ 0) : IsReal (Ideal.div x y) := by
  obtain ⟨a, rfl⟩ := hx; obtain ⟨b, rfl⟩ := hy
  have hb : b ≠ 0 := fun e => hy0 (by rw [e, EReal.coe_zero])
  exact ⟨a * (1 / b), by rw [Ideal.div_coe hb, EReal.coe_mul]⟩

/-- A finite sum of reals is a real. -/
theorem IsReal.sum {ι : Type*} (t : Finset ι) (f : ι → EReal) (h : ∀ k ∈ t, IsReal (f k)) : IsReal (∑ k ∈ t, f k) :=
  ⟨∑ k ∈ t, (f k).toReal, sum_eq_coe t f _ fun k hk => (h k hk).eq_coe_toReal⟩

/-- A finite sum of products of reals is a real. -/
theorem IsReal.sum_mul {ι : Type*} (t : Finset ι) (X W : ι → EReal) (hX : ∀ e ∈ t, IsReal (X e))
    (hW : ∀ e ∈ t, IsReal (W e)) : IsReal (∑ e ∈ t, X e * W e) :=
  IsReal.sum t _ fun e he => (hX e he).mul (hW e he)

/-- A linear projection of reals, with its bias, is a real. -/
theorem IsReal.affine {ι : Type*} (t : Finset ι) (X W : ι → EReal) (B : EReal) (hX : ∀ e ∈ t, IsReal (X e))
    (hW : ∀ e ∈ t, IsReal (W e)) (hB : IsReal B) : IsReal ((∑ e ∈ t, X e * W e) + B) :=
  (IsReal.sum_mul t X W hX hW).add hB

/-- The running maximum, from minus infinity, of reals over a nonempty finite set is a real. -/
theorem IsReal.fold_max {ι : Type*} (op : EReal → EReal → EReal) [Std.Commutative op] [Std.Associative op]
    (hop : ∀ x y, op x y = max x y) (t : Finset ι) (ht : t.Nonempty) (b : EReal) (hb : b = ⊥) (f : ι → EReal)
    (hf : ∀ k ∈ t, IsReal (f k)) : IsReal (t.fold op b f) :=
  ⟨_, fold_max_eq_coe_sup' op hop t ht b hb f (fun k => (f k).toReal) fun k hk => (hf k hk).eq_coe_toReal⟩

/-- Joining a real once more with minus infinity leaves it. -/
theorem IsReal.max_bot {x b : EReal} (hx : IsReal x) (hb : b = ⊥) : max b x = x := by
  subst hb; exact max_eq_right bot_le

/-! ## Linear projections, explicitly -/

/-- A sum of products of terms known to be reals is the coercion of the real sum of products. -/
theorem sum_mul_eq_coe {ι : Type*} (t : Finset ι) (X W : ι → EReal) (x w : ι → ℝ)
    (hX : ∀ e ∈ t, X e = (x e : EReal)) (hW : ∀ e ∈ t, W e = (w e : EReal)) :
    ∑ e ∈ t, X e * W e = ((∑ e ∈ t, x e * w e : ℝ) : EReal) :=
  sum_eq_coe t _ _ fun e he => by rw [hX e he, hW e he, EReal.coe_mul]

/-- A linear projection with bias, of reals, is the coercion of the real projection. -/
theorem affine_coe {ι : Type*} (t : Finset ι) (x w : ι → ℝ) (b : ℝ) :
    (∑ e ∈ t, (x e : EReal) * (w e : EReal)) + (b : EReal) = (((∑ e ∈ t, x e * w e) + b : ℝ) : EReal) := by
  rw [sum_mul_coe, ← EReal.coe_add]

/-- The same for terms known to be reals. -/
theorem affine_eq_coe {ι : Type*} (t : Finset ι) (X W : ι → EReal) (B : EReal) (x w : ι → ℝ) (b : ℝ)
    (hX : ∀ e ∈ t, X e = (x e : EReal)) (hW : ∀ e ∈ t, W e = (w e : EReal)) (hB : B = (b : EReal)) :
    (∑ e ∈ t, X e * W e) + B = (((∑ e ∈ t, x e * w e) + b : ℝ) : EReal) := by
  rw [sum_mul_eq_coe t X W x w hX hW, hB, ← EReal.coe_add]

/-- The same with an initial accumulator z that is zero in front of the sum (a matrix product into a zero
    accumulator, a host sum from an initial zero). -/
theorem acc_affine_eq_coe {ι : Type*} (t : Finset ι) (X W : ι → EReal) (B z : EReal) (x w : ι → ℝ) (b : ℝ)
    (hX : ∀ e ∈ t, X e = (x e : EReal)) (hW : ∀ e ∈ t, W e = (w e : EReal)) (hB : B = (b : EReal)) (hz : z = 0) :
    (z + ∑ e ∈ t, X e * W e) + B = (((∑ e ∈ t, x e * w e) + b : ℝ) : EReal) := by
  rw [hz, zero_add, affine_eq_coe t X W B x w b hX hW hB]

/-- A linear projection with bias, then a scale: the coercion of the real expression. -/
theorem affine_scaled_coe {ι : Type*} (t : Finset ι) (x w : ι → ℝ) (b c : ℝ) :
    ((∑ e ∈ t, (x e : EReal) * (w e : EReal)) + (b : EReal)) * (c : EReal)
      = ((((∑ e ∈ t, x e * w e) + b) * c : ℝ) : EReal) := by
  rw [affine_coe, ← EReal.coe_mul]

/-- The same for terms known to be reals. -/
theorem affine_scaled_eq_coe {ι : Type*} (t : Finset ι) (X W : ι → EReal) (B C : EReal) (x w : ι → ℝ) (b c : ℝ)
    (hX : ∀ e ∈ t, X e = (x e : EReal)) (hW : ∀ e ∈ t, W e = (w e : EReal)) (hB : B = (b : EReal))
    (hC : C = (c : EReal)) :
    ((∑ e ∈ t, X e * W e) + B) * C = ((((∑ e ∈ t, x e * w e) + b) * c : ℝ) : EReal) := by
  rw [affine_eq_coe t X W B x w b hX hW hB, hC, ← EReal.coe_mul]

/-! ## A scale across a contraction -/

/-- The reference's score for terms known to be reals. -/
theorem score_scaled_after_of_eq {δ : Type*} (D : Finset δ) (Q K : δ → EReal) (C : EReal) (q k : δ → ℝ) (c : ℝ)
    (hQ : ∀ d ∈ D, Q d = (q d : EReal)) (hK : ∀ d ∈ D, K d = (k d : EReal)) (hC : C = (c : EReal)) :
    (∑ d ∈ D, Q d * K d) * C = (((∑ d ∈ D, q d * k d) * c : ℝ) : EReal) := by
  rw [sum_mul_eq_coe D Q K q k hQ hK, hC, ← EReal.coe_mul]

/-- The kernel's score for terms known to be reals. -/
theorem score_scaled_before_of_eq {δ : Type*} (D : Finset δ) (Q K : δ → EReal) (C : EReal) (q k : δ → ℝ) (c : ℝ)
    (hQ : ∀ d ∈ D, Q d = (q d : EReal)) (hK : ∀ d ∈ D, K d = (k d : EReal)) (hC : C = (c : EReal)) :
    ∑ d ∈ D, (Q d * C) * K d = (((∑ d ∈ D, q d * k d) * c : ℝ) : EReal) := by
  rw [← score_scaled_before D q k c]
  exact Finset.sum_congr rfl fun d hd => by rw [hQ d hd, hK d hd, hC]

/-- On reals a scale moves across a contraction: folded into the left factor before, or applied after. -/
theorem score_before_eq_after {δ : Type*} (D : Finset δ) (Q K : δ → EReal) (C : EReal)
    (hQ : ∀ d ∈ D, IsReal (Q d)) (hK : ∀ d ∈ D, IsReal (K d)) (hC : IsReal C) :
    ∑ d ∈ D, (Q d * C) * K d = (∑ d ∈ D, Q d * K d) * C := by
  obtain ⟨c, hc⟩ := hC
  rw [score_scaled_before_of_eq D Q K C (fun d => (Q d).toReal) (fun d => (K d).toReal) c
      (fun d hd => (hQ d hd).eq_coe_toReal) (fun d hd => (hK d hd).eq_coe_toReal) hc,
    score_scaled_after_of_eq D Q K C (fun d => (Q d).toReal) (fun d => (K d).toReal) c
      (fun d hd => (hQ d hd).eq_coe_toReal) (fun d hd => (hK d hd).eq_coe_toReal) hc]

/-- A score of reals, scaled by a real, is a real. -/
theorem IsReal.score {δ : Type*} (D : Finset δ) (Q K : δ → EReal) (C : EReal)
    (hQ : ∀ d ∈ D, IsReal (Q d)) (hK : ∀ d ∈ D, IsReal (K d)) (hC : IsReal C) :
    IsReal ((∑ d ∈ D, Q d * K d) * C) :=
  (IsReal.sum_mul D Q K hQ hK).mul hC

/-! ## The output projection depends only on the head outputs -/

/-- Two families of head outputs that agree give the same output projection. -/
theorem proj_congr {ι : Type*} (t : Finset ι) (O O' W : ι → EReal) (B : EReal) (h : ∀ n ∈ t, O n = O' n) :
    (∑ n ∈ t, O n * W n) + B = (∑ n ∈ t, O' n * W n) + B :=
  congrArg (· + B) (Finset.sum_congr rfl fun n hn => by rw [h n hn])

/-- The same with an initial accumulator in front of the first sum. -/
theorem acc_proj_congr {ι : Type*} (t : Finset ι) (O O' W : ι → EReal) (B z : EReal) (h : ∀ n ∈ t, O n = O' n)
    (hz : z = 0) : (z + ∑ n ∈ t, O n * W n) + B = (∑ n ∈ t, O' n * W n) + B := by
  rw [hz, zero_add]; exact proj_congr t O O' W B h

/-! ## The attention row, assembled -/

/-- THE LAW under finiteness alone: the kernel's row (scores SK, values VK, any finite shift MK) equals the
    reference's (scores SR, values VR, any finite shift MR, normalizer summed from a z that is zero) as soon as
    the scores agree, the values agree, and all of them are reals. -/
theorem row_eq_of_isReal {κ : Type*} (t : Finset κ) (ht : t.Nonempty) (SK SR VK VR : κ → EReal) (MK MR z : EReal)
    (hS : ∀ k ∈ t, SK k = SR k) (hV : ∀ k ∈ t, VK k = VR k)
    (hSR : ∀ k ∈ t, IsReal (SR k)) (hVR : ∀ k ∈ t, IsReal (VR k))
    (hMK : IsReal MK) (hMR : IsReal MR) (hz : z = 0) :
    Ideal.div (∑ k ∈ t, Ideal.exp (SK k - MK) * VK k) (∑ k ∈ t, Ideal.exp (SK k - MK))
      = ∑ k ∈ t, Ideal.div (Ideal.exp (SR k - MR)) (z + ∑ k' ∈ t, Ideal.exp (SR k' - MR)) * VR k := by
  obtain ⟨mK, hmK⟩ := hMK
  obtain ⟨mR, hmR⟩ := hMR
  exact row_eq_of_eq t ht SK SR VK VR MK MR z (fun k => (SR k).toReal) (fun k => (VR k).toReal) mK mR
    (fun k hk => (hS k hk).trans (hSR k hk).eq_coe_toReal) (fun k hk => (hSR k hk).eq_coe_toReal)
    (fun k hk => (hV k hk).trans (hVR k hk).eq_coe_toReal) (fun k hk => (hVR k hk).eq_coe_toReal) hmK hmR hz

/-- The reference's shift: the running maximum of the scores from nI = -oo, joined once more with nI, is a real. -/
theorem IsReal.max_fold_max {ι : Type*} (t : Finset ι) (ht : t.Nonempty) (nI : EReal) (hnI : nI = ⊥) (f : ι → EReal)
    (hf : ∀ k ∈ t, IsReal (f k)) : IsReal (max nI (t.fold max nI f)) := by
  have h := IsReal.fold_max max (fun _ _ => rfl) t ht nI hnI f hf
  rw [h.max_bot hnI]; exact h

/-- THE ROW AGAINST A LITERAL SOFTMAX: the kernel's row with ANY finite shift MK equals the reference's row
    written out as a softmax does it — the shift is the fold of max from nI over the keys, joined once more
    with nI (nI = -oo), the normalizer is z plus the sum of the weights (z = 0), each weight is divided by
    the normalizer and multiplied by its value, and the products are summed. -/
theorem row_eq_softmax {κ : Type*} (t : Finset κ) (ht : t.Nonempty) (SK SR VK VR : κ → EReal) (MK nI z : EReal)
    (hS : ∀ k ∈ t, SK k = SR k) (hV : ∀ k ∈ t, VK k = VR k)
    (hSR : ∀ k ∈ t, IsReal (SR k)) (hVR : ∀ k ∈ t, IsReal (VR k))
    (hMK : IsReal MK) (hnI : nI = ⊥) (hz : z = 0) :
    Ideal.div (∑ k ∈ t, Ideal.exp (SK k - MK) * VK k) (∑ k ∈ t, Ideal.exp (SK k - MK))
      = ∑ k ∈ t, Ideal.div (Ideal.exp (SR k - max nI (t.fold max nI SR)))
          (z + ∑ k' ∈ t, Ideal.exp (SR k' - max nI (t.fold max nI SR))) * VR k :=
  row_eq_of_isReal t ht SK SR VK VR MK _ z hS hV hSR hVR hMK (IsReal.max_fold_max t ht nI hnI SR hSR) hz

/-- The same with the kernel's shift also a running maximum: the fold, by any operation that is the maximum, from
    an initial value that is -oo, of the kernel's own scores. -/
theorem row_eq_softmax_fold {κ : Type*} (op : EReal → EReal → EReal) [Std.Commutative op] [Std.Associative op]
    (hop : ∀ x y, op x y = max x y) (t : Finset κ) (ht : t.Nonempty) (SK SR VK VR : κ → EReal) (b nI z : EReal)
    (hS : ∀ k ∈ t, SK k = SR k) (hV : ∀ k ∈ t, VK k = VR k)
    (hSR : ∀ k ∈ t, IsReal (SR k)) (hVR : ∀ k ∈ t, IsReal (VR k))
    (hb : b = ⊥) (hnI : nI = ⊥) (hz : z = 0) :
    Ideal.div (∑ k ∈ t, Ideal.exp (SK k - t.fold op b SK) * VK k) (∑ k ∈ t, Ideal.exp (SK k - t.fold op b SK))
      = ∑ k ∈ t, Ideal.div (Ideal.exp (SR k - max nI (t.fold max nI SR)))
          (z + ∑ k' ∈ t, Ideal.exp (SR k' - max nI (t.fold max nI SR))) * VR k :=
  row_eq_softmax t ht SK SR VK VR _ nI z hS hV hSR hVR
    (IsReal.fold_max op hop t ht b hb SK fun k hk => (hS k hk) ▸ hSR k hk) hnI hz

/-- Each side of the row is a real (so what is computed from it stays finite). -/
theorem IsReal.row {κ : Type*} (t : Finset κ) (ht : t.Nonempty) (S V : κ → EReal) (M : EReal)
    (hS : ∀ k ∈ t, IsReal (S k)) (hV : ∀ k ∈ t, IsReal (V k)) (hM : IsReal M) :
    IsReal (Ideal.div (∑ k ∈ t, Ideal.exp (S k - M) * V k) (∑ k ∈ t, Ideal.exp (S k - M))) := by
  obtain ⟨m, hm⟩ := hM
  exact ⟨_, avg_then_normalize_of_eq t ht S V M (fun k => (S k).toReal) (fun k => (V k).toReal) m
    (fun k hk => (hS k hk).eq_coe_toReal) (fun k hk => (hV k hk).eq_coe_toReal) hm⟩

end Cert.AttnLaw
-- ==== Proof.LayerBridge.lean ====
/-
  THE TWO ARRANGEMENTS OF THE ATTENTION LAYER AGREE ON FINITE INPUTS.

  The layer in the reference's arrangement (scale applied to the finished score; each softmax weight normalized, then
  the weighted sum of value rows) and in the kernel's arrangement (scale folded into the query projection before the
  score's sum; the weighted sum formed with unnormalized weights and divided once by their sum; the number subtracted
  from a row of scores given by an arbitrary operator) are the same array of extended reals as soon as every input
  entry is a real and the operator sends a row of reals to a real. Step by step:

    * a projection (sum over e of x e * W e) + b of reals is a real; so is a score, a sum of products of
      projections times the scale 1/8;
    * the scale 1 / sqrt 64 is the float 1/8, and on reals it moves across the score's sum, so the two
      arrangements have the same scores;
    * for each query row and output lane the softmax-average law gives the same head output, whatever finite number
      the kernel's arrangement subtracts;
    * the output projection depends only on the head outputs.

  Last, the two operators a program may use for the row's number, the fold of the maximum from the float -oo written
  with the lattice's max or with a float instance's maximum, send a row of reals to a real.
-/
import proofs.«144204_j5497558139332_2_alg».proof.Proof.KerLayer
import proofs.«144204_j5497558139332_2_alg».proof.Proof.LibFiniteSums

namespace Cert.AttnLaw

open Idealize.ShloMosaic Idealize.ShloMosaic.ValueIdx
open Cert.RefSpec (Act Mat Bias hd headOf laneOf proj)
open scoped BigOperators

/-- A projection of real inputs is a real. -/
theorem isReal_proj (x : Act) (W : Mat) (b : Bias) (hx : ∀ i, IsReal (x i)) (hW : ∀ i, IsReal (W i))
    (hb : ∀ i, IsReal (b i)) (β : Fin 4) (s : Fin 2048) (n : Fin 1024) : IsReal (proj x W b β s n) :=
  IsReal.affine Finset.univ _ _ _ (fun _ _ => hx _) (fun _ _ => hW _) (hb _)

/-- A score of the reference's arrangement, at the program's own scale, is a real. -/
theorem isReal_scores (x : Act) (Wq : Mat) (bq : Bias) (Wk : Mat) (bk : Bias)
    (hx : ∀ i, IsReal (x i)) (hWq : ∀ i, IsReal (Wq i)) (hbq : ∀ i, IsReal (bq i))
    (hWk : ∀ i, IsReal (Wk i)) (hbk : ∀ i, IsReal (bk i)) (β : Fin 4) (h : Fin 16) (q k : Fin 2048) :
    IsReal (Cert.RefSpec.scores Cert.RefSpec.scale x Wq bq Wk bk β h q k) :=
  IsReal.score Finset.univ _ _ _ (fun _ _ => isReal_proj x Wq bq hx hWq hbq _ _ _)
    (fun _ _ => isReal_proj x Wk bk hx hWk hbk _ _ _) isReal_scale

/-- The scores of the two arrangements agree: the scale 1 / sqrt 64 is the float 1/8, and on reals it moves from the
    query projection to the finished sum. -/
theorem kscore_eq_scores (x : Act) (Wq : Mat) (bq : Bias) (Wk : Mat) (bk : Bias)
    (hx : ∀ i, IsReal (x i)) (hWq : ∀ i, IsReal (Wq i)) (hbq : ∀ i, IsReal (bq i))
    (hWk : ∀ i, IsReal (Wk i)) (hbk : ∀ i, IsReal (bk i)) (β : Fin 4) (h : Fin 16) (q k : Fin 2048) :
    Cert.KerLayer.kscore x Wq bq Wk bk β h q k = Cert.RefSpec.scores Cert.RefSpec.scale x Wq bq Wk bk β h q k := by
  unfold Cert.KerLayer.kscore Cert.KerLayer.qproj Cert.RefSpec.scores
  rw [show Cert.RefSpec.scale = Cert.KerLayer.eighth from scale_eq_ofBits]
  exact score_before_eq_after Finset.univ _ _ _ (fun _ _ => isReal_proj x Wq bq hx hWq hbq _ _ _)
    (fun _ _ => isReal_proj x Wk bk hx hWk hbk _ _ _) isReal_ofBits_eighth

/-- The head outputs of the two arrangements agree, whatever finite number the kernel's arrangement subtracts. -/
theorem headout_eq (mx : (Fin 2048 → EReal) → EReal) (hmx : ∀ f : Fin 2048 → EReal, (∀ k, IsReal (f k)) → IsReal (mx f))
    (x : Act) (Wq : Mat) (bq : Bias) (Wk : Mat) (bk : Bias) (Wv : Mat) (bv : Bias)
    (hx : ∀ i, IsReal (x i)) (hWq : ∀ i, IsReal (Wq i)) (hbq : ∀ i, IsReal (bq i))
    (hWk : ∀ i, IsReal (Wk i)) (hbk : ∀ i, IsReal (bk i)) (hWv : ∀ i, IsReal (Wv i)) (hbv : ∀ i, IsReal (bv i))
    (β : Fin 4) (h : Fin 16) (q : Fin 2048) (d : Fin 64) :
    Cert.KerLayer.headout mx x Wq bq Wk bk Wv bv β h q d
      = Cert.RefSpec.headout Cert.RefSpec.scale x Wq bq Wk bk Wv bv β h q d := by
  have hS : ∀ k, Cert.KerLayer.kscore x Wq bq Wk bk β h q k = Cert.RefSpec.scores Cert.RefSpec.scale x Wq bq Wk bk β h q k :=
    fun k => kscore_eq_scores x Wq bq Wk bk hx hWq hbq hWk hbk β h q k
  have hSR : ∀ k, IsReal (Cert.RefSpec.scores Cert.RefSpec.scale x Wq bq Wk bk β h q k) :=
    fun k => isReal_scores x Wq bq Wk bk hx hWq hbq hWk hbk β h q k
  have hM : IsReal (mx fun k => Cert.KerLayer.kscore x Wq bq Wk bk β h q k) :=
    hmx _ fun k => (hS k) ▸ hSR k
  unfold Cert.KerLayer.headout Cert.KerLayer.kprob Cert.KerLayer.kmax Cert.RefSpec.headout Cert.RefSpec.attn
    Cert.RefSpec.rowsum Cert.RefSpec.probs Cert.RefSpec.rowmax
  exact row_eq_softmax Finset.univ Finset.univ_nonempty
    (fun k => Cert.KerLayer.kscore x Wq bq Wk bk β h q k)
    (fun k => Cert.RefSpec.scores Cert.RefSpec.scale x Wq bq Wk bk β h q k)
    (fun k => proj x Wv bv β k (hd h d)) (fun k => proj x Wv bv β k (hd h d))
    (mx fun k => Cert.KerLayer.kscore x Wq bq Wk bk β h q k) Cert.RefSpec.negInf Cert.RefSpec.zero
    (fun k _ => hS k) (fun _ _ => rfl) (fun k _ => hSR k) (fun k _ => isReal_proj x Wv bv hx hWv hbv _ _ _)
    hM ofBits_neg_inf ofBits_zero

/-- THE BRIDGE: on real inputs, and with a row operator that sends reals to a real, the layer in the kernel's
    arrangement is the layer in the reference's arrangement at the program's own scale. -/
theorem layer_eq_ref (mx : (Fin 2048 → EReal) → EReal) (hmx : ∀ f : Fin 2048 → EReal, (∀ k, IsReal (f k)) → IsReal (mx f))
    (x : Act) (Wq : Mat) (bq : Bias) (Wk : Mat) (bk : Bias) (Wv : Mat) (bv : Bias) (Wo : Mat) (bo : Bias)
    (hx : ∀ i, IsReal (x i)) (hWq : ∀ i, IsReal (Wq i)) (hbq : ∀ i, IsReal (bq i))
    (hWk : ∀ i, IsReal (Wk i)) (hbk : ∀ i, IsReal (bk i)) (hWv : ∀ i, IsReal (Wv i)) (hbv : ∀ i, IsReal (bv i))
    (hWo : ∀ i, IsReal (Wo i)) (hbo : ∀ i, IsReal (bo i)) :
    Cert.KerLayer.layer mx x Wq bq Wk bk Wv bv Wo bo
      = Cert.RefSpec.out Cert.RefSpec.scale x Wq bq Wk bk Wv bv Wo bo := by
  funext i
  show Cert.KerLayer.outAt mx x Wq bq Wk bk Wv bv Wo bo (i 0) (i 1) (i 2)
    = Cert.RefSpec.outAt Cert.RefSpec.scale x Wq bq Wk bk Wv bv Wo bo (i 0) (i 1) (i 2)
  unfold Cert.KerLayer.outAt Cert.RefSpec.outAt Cert.KerLayer.merged Cert.RefSpec.merged
  exact proj_congr Finset.univ _ _ _ _ fun n _ =>
    headout_eq mx hmx x Wq bq Wk bk Wv bv hx hWq hbq hWk hbk hWv hbv (i 0) (headOf n) (i 1) (laneOf n)

/-- The row operator "fold of the lattice's max from the float -oo" sends a row of reals to a real. -/
theorem hmx_fold_max (f : Fin 2048 → EReal) (hf : ∀ k, IsReal (f k)) :
    IsReal ((Finset.univ : Finset (Fin 2048)).fold max (Ideal.ofBits .f32 0xFF800000#32) f) :=
  IsReal.fold_max max (fun _ _ => rfl) Finset.univ Finset.univ_nonempty _ ofBits_neg_inf f fun k _ => hf k

/-- The row operator "fold of the float instance's maximum from the float -oo" sends a row of reals to a real. -/
theorem hmx_fold_maximumf (f : Fin 2048 → EReal) (hf : ∀ k, IsReal (f k)) :
    IsReal ((Finset.univ : Finset (Fin 2048)).fold (FloatOps.maximumf (F := Ideal) (φ := .f32))
      (Ideal.ofBits .f32 0xFF800000#32) f) :=
  IsReal.fold_max (FloatOps.maximumf (F := Ideal) (φ := .f32)) (fun _ _ => rfl) Finset.univ Finset.univ_nonempty _
    ofBits_neg_inf f fun k _ => hf k

end Cert.AttnLaw
-- ==== Proof.LibFiniteInputs.lean ====
/-
  Finiteness read back from a comparison. On the extended reals the absolute value of x is max x (-x); it lies strictly
  below +∞ exactly when x is neither infinity, that is, when x is a real number. A predicate "every |x i| < +inf",
  computed as the reduction by "and", over all axes and from the word 1, of the elementwise comparison of the absolute
  values against an array that is +inf everywhere, being 1, therefore makes every entry of x a real.
-/
import Idealize.ShloMosaic.Lib.ReduceAll
import Idealize.ShloMosaic.PureOps.Ideal

noncomputable section

namespace Cert.LibFiniteInputs

open Idealize.ShloMosaic

/-- The float pattern of +inf denotes the top of the extended reals. -/
theorem ofBits_posInf : Ideal.ofBits .f32 0x7F800000#32 = (⊤ : EReal) := by
  simp [Ideal.ofBits, Ideal.ieee]

/-- An extended real whose absolute value max x (-x) is strictly below +∞ is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The comparison "|x| < y" at one element, as the word 1: the order fact. -/
theorem abs_lt_of_cmp_eq_one (x y : EReal) (h : Ideal.cmp .olt (max x (-x)) y = 1#1) : max x (-x) < y := by
  have h' : BitVec.ofBool (decide (max x (-x) < y)) = 1#1 := h
  by_contra hn
  rw [decide_eq_false hn] at h'
  exact absurd h' (by decide)

/-- An array x of any shape, all of whose absolute values compare below an array that is the float +inf everywhere —
    the comparison reduced by "and" over all its axes, from any initial word, into a result with one index, being 1 —
    has a real number at every index. -/
theorem real_of_all_abs_lt_inf {s t u : Shape} {axes : List (Fin s.rank)} [Subsingleton t.Idx]
    (x b : FVec Ideal s .f32) (hb : ∀ i, b i = Ideal.ofBits .f32 0x7F800000#32)
    (init : IVec u 1) (hr : s.ReducesTo axes t) (hu : 0 < u.numel) (j : t.Idx)
    (e : Host.reduce IntOp.andi (cmpf .olt (Host.absf x) b) init hr hu j = 1#1) (i : s.Idx) :
    ∃ r : ℝ, x i = (r : EReal) := by
  have h1 : cmpf .olt (Host.absf x) b i = 1#1 := Host.reduce_andi_all _ init hr hu j e i
  have h2 : Ideal.cmp .olt (max (x i) (-(x i))) (b i) = 1#1 := h1
  rw [hb i, ofBits_posInf] at h2
  exact real_of_abs_lt_top (x i) (abs_lt_of_cmp_eq_one _ _ h2)

end Cert.LibFiniteInputs

end
-- ==== Proof.PreFinite.lean ====
/-
  The precondition read back: the printed predicate is, for each of the nine argument arrays in turn, "every absolute
  value is below +inf" (the comparison reduced by "and" over all axes), the nine answers joined by "and". When the
  predicate is all ones, every entry of every argument is a real number.
-/
import proofs.«144204_j5497558139332_2_alg».proof.Pre_finite_inputs
import proofs.«144204_j5497558139332_2_alg».proof.Proof.LibFiniteInputs
import proofs.«144204_j5497558139332_2_alg».proof.Proof.RefSpec

noncomputable section

namespace Cert.PreFinite

open Idealize.ShloMosaic Cert.RefSpec Cert.LibFiniteInputs

/-- A rank-zero array has one index. -/
instance scalarIdxSubsingleton : Subsingleton Cert.Pre_finite_inputs.S_.Idx := ⟨fun a b => funext fun d => d.elim0⟩

/-- If the finiteness predicate of the nine arguments is all ones, every entry of each argument is a real number. -/
theorem finite_of_pre [Cert.Pre_finite_inputs.Facts]
    (x : Act) (Wq : Mat) (bq : Bias) (Wk : Mat) (bk : Bias) (Wv : Mat) (bv : Bias) (Wo : Mat) (bo : Bias)
    (h : Cert.Pre_finite_inputs.fn (F := Ideal) x Wq bq Wk bk Wv bv Wo bo = fun _ => 1#1) :
    (∀ i, ∃ r : ℝ, x i = (r : EReal)) ∧ (∀ i, ∃ r : ℝ, Wq i = (r : EReal)) ∧ (∀ i, ∃ r : ℝ, bq i = (r : EReal))
      ∧ (∀ i, ∃ r : ℝ, Wk i = (r : EReal)) ∧ (∀ i, ∃ r : ℝ, bk i = (r : EReal))
      ∧ (∀ i, ∃ r : ℝ, Wv i = (r : EReal)) ∧ (∀ i, ∃ r : ℝ, bv i = (r : EReal))
      ∧ (∀ i, ∃ r : ℝ, Wo i = (r : EReal)) ∧ (∀ i, ∃ r : ℝ, bo i = (r : EReal)) := by
  have h0 := congrFun h ValueIdx.ix0
  dsimp only [Cert.Pre_finite_inputs.fn, Cert.Pre_finite_inputs.fn_part1, Cert.Pre_finite_inputs.fn_part2] at h0
  have e : ∀ (a b : IVec Cert.Pre_finite_inputs.S_ 1) (i : Cert.Pre_finite_inputs.S_.Idx),
      andi a b i = IntOp.andi (a i) (b i) := fun _ _ _ => rfl
  simp only [e, IntOp.andi_eq_one] at h0
  obtain ⟨⟨⟨⟨⟨⟨⟨⟨p0, p1⟩, p2⟩, p3⟩, p4⟩, p5⟩, p6⟩, p7⟩, p8⟩ := h0
  exact ⟨real_of_all_abs_lt_inf x _ (fun _ => rfl) _ _ _ _ p0, real_of_all_abs_lt_inf Wq _ (fun _ => rfl) _ _ _ _ p1,
    real_of_all_abs_lt_inf bq _ (fun _ => rfl) _ _ _ _ p2, real_of_all_abs_lt_inf Wk _ (fun _ => rfl) _ _ _ _ p3,
    real_of_all_abs_lt_inf bk _ (fun _ => rfl) _ _ _ _ p4, real_of_all_abs_lt_inf Wv _ (fun _ => rfl) _ _ _ _ p5,
    real_of_all_abs_lt_inf bv _ (fun _ => rfl) _ _ _ _ p6, real_of_all_abs_lt_inf Wo _ (fun _ => rfl) _ _ _ _ p7,
    real_of_all_abs_lt_inf bo _ (fun _ => rfl) _ _ _ _ p8⟩

end Cert.PreFinite

end
-- ==== Proof.RefProj.lean ====
/-
  The three input projections of the reference, read at coordinates: each is the matrix product of the activations
  with a weight matrix plus a bias, then viewed as [batch, head, row, lane]; entry (β, h, s, d) of the view is feature
  64h + d of row (β, s).
-/
import proofs.«144204_j5497558139332_2_alg».proof.Proof.RefRun
import proofs.«144204_j5497558139332_2_alg».proof.Proof.RefSpec

noncomputable section

namespace Cert.ReferenceIdeal.RefValue

open Cert.ReferenceIdeal Cert.ReferenceIdeal.Gen Cert.ReferenceIdeal.Read Idealize.ShloMosaic Idealize.ShloMosaic.ValueIdx Cert.RefSpec

/-- The [4, 16, 2048, 64] view of the query projection reads row (β, s), feature 64h + d of the [4, 2048, 1024] array. -/
theorem split_idx_q (β : Fin 4) (h : Fin 16) (s : Fin 2048) (d : Fin 64) :
    idx_main_v4 (idx_main_v5 (ix4 β h s d)) = ix3 β s (hd h d) := by
  have hβ := β.isLt; have hh := h.isLt; have hs := s.isLt; have hd' := d.isLt
  funext a; apply Fin.ext
  match a with
  | ⟨0, _⟩ => show (((β.val * 2048 + s.val) * 16 + h.val) * 64 + d.val) / 2097152 = β.val; omega
  | ⟨1, _⟩ => show (((β.val * 2048 + s.val) * 16 + h.val) * 64 + d.val) / 1024 % 2048 = s.val; omega
  | ⟨2, _⟩ => show (((β.val * 2048 + s.val) * 16 + h.val) * 64 + d.val) % 1024 = h.val * 64 + d.val; omega

theorem lidx_q (β : Fin 4) (s : Fin 2048) (n k : Fin 1024) : lidx_main_v0 (ix3 β s n) k = ix3 β s k := by
  funext a; match a with | ⟨0, _⟩ => rfl | ⟨1, _⟩ => rfl | ⟨2, _⟩ => rfl

theorem ridx_q (β : Fin 4) (s : Fin 2048) (n k : Fin 1024) : ridx_main_v0 (ix3 β s n) k = ix2 n k := by
  funext a; match a with | ⟨0, _⟩ => rfl | ⟨1, _⟩ => rfl

theorem bias_idx_q (β : Fin 4) (s : Fin 2048) (n : Fin 1024) : idx_main_v1 (idx_main_v2 (ix3 β s n)) = ix1 n := by
  funext a; match a with | ⟨0, _⟩ => rfl

/-- The query projection before the split into heads, at row (β, s), feature n. -/
theorem q_flat (x : Act) (W : Mat) (b : Bias) (β : Fin 4) (s : Fin 2048) (n : Fin 1024) :
    val_main_v3 (F := Ideal) x W b (ix3 β s n) = proj x W b β s n := by
  rw [val_main_v3_apply, val_main_v0_apply, val_main_v2_apply, val_main_v1_apply]
  simp only [lidx_q, ridx_q, bias_idx_q, Ideal.addf_def]
  rfl

/-- The query projection, split into heads: entry (β, h, s, d) is feature 64h + d of row (β, s). -/
theorem q_at (x : Act) (W : Mat) (b : Bias) (β : Fin 4) (h : Fin 16) (s : Fin 2048) (d : Fin 64) :
    val_main_v5 (F := Ideal) x W b (ix4 β h s d) = proj x W b β s (hd h d) := by
  rw [val_main_v5_apply, val_main_v4_apply, split_idx_q, q_flat]

/-- The [4, 16, 2048, 64] view of the key projection reads row (β, s), feature 64h + d of the [4, 2048, 1024] array. -/
theorem split_idx_k (β : Fin 4) (h : Fin 16) (s : Fin 2048) (d : Fin 64) :
    idx_main_v10 (idx_main_v11 (ix4 β h s d)) = ix3 β s (hd h d) := by
  have hβ := β.isLt; have hh := h.isLt; have hs := s.isLt; have hd' := d.isLt
  funext a; apply Fin.ext
  match a with
  | ⟨0, _⟩ => show (((β.val * 2048 + s.val) * 16 + h.val) * 64 + d.val) / 2097152 = β.val; omega
  | ⟨1, _⟩ => show (((β.val * 2048 + s.val) * 16 + h.val) * 64 + d.val) / 1024 % 2048 = s.val; omega
  | ⟨2, _⟩ => show (((β.val * 2048 + s.val) * 16 + h.val) * 64 + d.val) % 1024 = h.val * 64 + d.val; omega

theorem lidx_k (β : Fin 4) (s : Fin 2048) (n k : Fin 1024) : lidx_main_v6 (ix3 β s n) k = ix3 β s k := by
  funext a; match a with | ⟨0, _⟩ => rfl | ⟨1, _⟩ => rfl | ⟨2, _⟩ => rfl

theorem ridx_k (β : Fin 4) (s : Fin 2048) (n k : Fin 1024) : ridx_main_v6 (ix3 β s n) k = ix2 n k := by
  funext a; match a with | ⟨0, _⟩ => rfl | ⟨1, _⟩ => rfl

theorem bias_idx_k (β : Fin 4) (s : Fin 2048) (n : Fin 1024) : idx_main_v7 (idx_main_v8 (ix3 β s n)) = ix1 n := by
  funext a; match a with | ⟨0, _⟩ => rfl

/-- The key projection before the split into heads, at row (β, s), feature n. -/
theorem k_flat (x : Act) (W : Mat) (b : Bias) (β : Fin 4) (s : Fin 2048) (n : Fin 1024) :
    val_main_v9 (F := Ideal) x W b (ix3 β s n) = proj x W b β s n := by
  rw [val_main_v9_apply, val_main_v6_apply, val_main_v8_apply, val_main_v7_apply]
  simp only [lidx_k, ridx_k, bias_idx_k, Ideal.addf_def]
  rfl

/-- The key projection, split into heads: entry (β, h, s, d) is feature 64h + d of row (β, s). -/
theorem k_at (x : Act) (W : Mat) (b : Bias) (β : Fin 4) (h : Fin 16) (s : Fin 2048) (d : Fin 64) :
    val_main_v11 (F := Ideal) x W b (ix4 β h s d) = proj x W b β s (hd h d) := by
  rw [val_main_v11_apply, val_main_v10_apply, split_idx_k, k_flat]

/-- The [4, 16, 2048, 64] view of the value projection reads row (β, s), feature 64h + d of the [4, 2048, 1024] array. -/
theorem split_idx_v (β : Fin 4) (h : Fin 16) (s : Fin 2048) (d : Fin 64) :
    idx_main_v16 (idx_main_v17 (ix4 β h s d)) = ix3 β s (hd h d) := by
  have hβ := β.isLt; have hh := h.isLt; have hs := s.isLt; have hd' := d.isLt
  funext a; apply Fin.ext
  match a with
  | ⟨0, _⟩ => show (((β.val * 2048 + s.val) * 16 + h.val) * 64 + d.val) / 2097152 = β.val; omega
  | ⟨1, _⟩ => show (((β.val * 2048 + s.val) * 16 + h.val) * 64 + d.val) / 1024 % 2048 = s.val; omega
  | ⟨2, _⟩ => show (((β.val * 2048 + s.val) * 16 + h.val) * 64 + d.val) % 1024 = h.val * 64 + d.val; omega

theorem lidx_v (β : Fin 4) (s : Fin 2048) (n k : Fin 1024) : lidx_main_v12 (ix3 β s n) k = ix3 β s k := by
  funext a; match a with | ⟨0, _⟩ => rfl | ⟨1, _⟩ => rfl | ⟨2, _⟩ => rfl

theorem ridx_v (β : Fin 4) (s : Fin 2048) (n k : Fin 1024) : ridx_main_v12 (ix3 β s n) k = ix2 n k := by
  funext a; match a with | ⟨0, _⟩ => rfl | ⟨1, _⟩ => rfl

theorem bias_idx_v (β : Fin 4) (s : Fin 2048) (n : Fin 1024) : idx_main_v13 (idx_main_v14 (ix3 β s n)) = ix1 n := by
  funext a; match a with | ⟨0, _⟩ => rfl

/-- The value projection before the split into heads, at row (β, s), feature n. -/
theorem v_flat (x : Act) (W : Mat) (b : Bias) (β : Fin 4) (s : Fin 2048) (n : Fin 1024) :
    val_main_v15 (F := Ideal) x W b (ix3 β s n) = proj x W b β s n := by
  rw [val_main_v15_apply, val_main_v12_apply, val_main_v14_apply, val_main_v13_apply]
  simp only [lidx_v, ridx_v, bias_idx_v, Ideal.addf_def]
  rfl

/-- The value projection, split into heads: entry (β, h, s, d) is feature 64h + d of row (β, s). -/
theorem v_at (x : Act) (W : Mat) (b : Bias) (β : Fin 4) (h : Fin 16) (s : Fin 2048) (d : Fin 64) :
    val_main_v17 (F := Ideal) x W b (ix4 β h s d) = proj x W b β s (hd h d) := by
  rw [val_main_v17_apply, val_main_v16_apply, split_idx_v, v_flat]

end Cert.ReferenceIdeal.RefValue

end
-- ==== Proof.RefScores.lean ====
/-
  The attention scores of the reference, read at coordinates: entry (β, h, q, k) is the dot product over the 64 lanes of
  head h of query row q with key row k, times the scale (the float 1.0 divided by the square root of the float 64.0,
  broadcast from a scalar).
-/
import proofs.«144204_j5497558139332_2_alg».proof.Proof.RefProj

noncomputable section

namespace Cert.ReferenceIdeal.RefValue

open Cert.ReferenceIdeal Cert.ReferenceIdeal.Gen Cert.ReferenceIdeal.Read Idealize.ShloMosaic Idealize.ShloMosaic.ValueIdx Cert.RefSpec

theorem lidx_scores (β : Fin 4) (h : Fin 16) (q k : Fin 2048) (d : Fin 64) :
    lidx_main_v20 (ix4 β h q k) d = ix4 β h q d := by
  funext a; match a with | ⟨0, _⟩ => rfl | ⟨1, _⟩ => rfl | ⟨2, _⟩ => rfl | ⟨3, _⟩ => rfl

theorem ridx_scores (β : Fin 4) (h : Fin 16) (q k : Fin 2048) (d : Fin 64) :
    ridx_main_v20 (ix4 β h q k) d = ix4 β h k d := by
  funext a; match a with | ⟨0, _⟩ => rfl | ⟨1, _⟩ => rfl | ⟨2, _⟩ => rfl | ⟨3, _⟩ => rfl

/-- The scalar the scores are multiplied by: 1.0 / sqrt 64.0, each float read as the extended real it denotes. -/
theorem scale_at (i : S_.Idx) : val_main_v19 (F := Ideal) i = scale := by
  rw [val_main_v19_apply, val_main_cst_0_apply, val_main_v18_apply, val_main_cst_apply]
  rfl

/-- Entry (β, h, q, k) of the scaled score array. -/
theorem scores_at (x : Act) (Wq : Mat) (bq : Bias) (Wk : Mat) (bk : Bias) (β : Fin 4) (h : Fin 16) (q k : Fin 2048) :
    val_main_v22 (F := Ideal) x Wq bq Wk bk (ix4 β h q k) = scores scale x Wq bq Wk bk β h q k := by
  rw [val_main_v22_apply, val_main_v20_apply, val_main_v21_apply, scale_at]
  simp only [lidx_scores, ridx_scores, q_at, k_at, Ideal.mulf_def]
  rfl

end Cert.ReferenceIdeal.RefValue

end
-- ==== Proof.RefSoftmax.lean ====
/-
  The softmax over the keys in the reference, read at coordinates: the row maximum (a fold of max from -∞ along the key
  axis, joined once more with -∞), the exponentials of the scores minus it, their sum from 0, and the quotient.
-/
import proofs.«144204_j5497558139332_2_alg».proof.Proof.RefScores

noncomputable section

namespace Cert.ReferenceIdeal.RefValue

open Cert.ReferenceIdeal Cert.ReferenceIdeal.Gen Cert.ReferenceIdeal.Read Idealize.ShloMosaic Idealize.ShloMosaic.ValueIdx Cert.RefSpec

/-- Dropping the key axis of a [4, 16, 2048, 2048] index leaves a [4, 16, 2048] index. -/
theorem reduces_keys : S4x16x2048x2048.Reduces [3] S4x16x2048 := by decide

/-- Putting key k back into (β, h, q) gives (β, h, q, k). -/
theorem lift_keys (β : Fin 4) (h : Fin 16) (q : Fin 2048) (k : Fin (S4x16x2048x2048.size 3)) :
    reduces_keys.lift (ix3 β h q) k = ix4 β h q (⟨k.val, k.isLt⟩ : Fin 2048) := by
  funext c; apply Fin.ext
  fin_cases c <;> rfl

/-- The maximum-reduce along the keys, at (β, h, q): the fold of max from -∞ over the scores of row q. -/
theorem keymax_at (x : Act) (Wq : Mat) (bq : Bias) (Wk : Mat) (bk : Bias) (β : Fin 4) (h : Fin 16) (q : Fin 2048) :
    val_main_v23 (F := Ideal) x Wq bq Wk bk (ix3 β h q)
      = (Finset.univ : Finset (Fin 2048)).fold max negInf (fun k => scores scale x Wq bq Wk bk β h q k) := by
  unfold val_main_v23
  rw [Host.reduce_eq_fold_single FloatOps.maximumf _ _ reducesTo_S4x16x2048x2048_S4x16x2048_d3 reduces_keys h_S_]
  have hf : (val_main_v22 (F := Ideal) x Wq bq Wk bk ∘ reduces_keys.lift (ix3 β h q))
      = fun k : Fin 2048 => scores scale x Wq bq Wk bk β h q k :=
    funext fun k => by
      show val_main_v22 (F := Ideal) x Wq bq Wk bk (reduces_keys.lift (ix3 β h q) k) = _
      rw [lift_keys, scores_at]
      rfl
  rw [hf, val_main_cst_1_apply]
  rfl

/-- The row maximum at (β, h, q). -/
theorem rowmax_at (x : Act) (Wq : Mat) (bq : Bias) (Wk : Mat) (bk : Bias) (β : Fin 4) (h : Fin 16) (q : Fin 2048) :
    val_main_v25 (F := Ideal) x Wq bq Wk bk (ix3 β h q) = rowmax scale x Wq bq Wk bk β h q := by
  rw [val_main_v25_apply, val_main_v24_apply, val_main_cst_2_apply, keymax_at]
  rfl

theorem keepdims_idx (β : Fin 4) (h : Fin 16) (q k : Fin 2048) :
    idx_main_v26 (idx_main_v27 (ix4 β h q k)) = ix3 β h q := by
  funext a; match a with | ⟨0, _⟩ => rfl | ⟨1, _⟩ => rfl | ⟨2, _⟩ => rfl

/-- The exponential of a score minus its row's maximum, at (β, h, q, k). -/
theorem probs_at (x : Act) (Wq : Mat) (bq : Bias) (Wk : Mat) (bk : Bias) (β : Fin 4) (h : Fin 16) (q k : Fin 2048) :
    val_main_v29 (F := Ideal) x Wq bq Wk bk (ix4 β h q k) = probs scale x Wq bq Wk bk β h q k := by
  rw [val_main_v29_apply, val_main_v28_apply, val_main_v27_apply, val_main_v26_apply, keepdims_idx, scores_at, rowmax_at]
  rfl

theorem sum_idx (β : Fin 4) (h : Fin 16) (q k : Fin 2048) : idx_main_v30 (ix3 β h q) k = ix4 β h q k := by
  funext a; match a with | ⟨0, _⟩ => rfl | ⟨1, _⟩ => rfl | ⟨2, _⟩ => rfl | ⟨3, _⟩ => rfl

/-- The sum of a row's exponentials, from the float 0, at (β, h, q). -/
theorem rowsum_at (x : Act) (Wq : Mat) (bq : Bias) (Wk : Mat) (bk : Bias) (β : Fin 4) (h : Fin 16) (q : Fin 2048) :
    val_main_v30 (F := Ideal) x Wq bq Wk bk (ix3 β h q) = rowsum scale x Wq bq Wk bk β h q := by
  rw [val_main_v30_apply, val_main_cst_3_apply]
  simp only [sum_idx, probs_at]
  rfl

theorem keepdims_idx' (β : Fin 4) (h : Fin 16) (q k : Fin 2048) :
    idx_main_v31 (idx_main_v32 (ix4 β h q k)) = ix3 β h q := by
  funext a; match a with | ⟨0, _⟩ => rfl | ⟨1, _⟩ => rfl | ⟨2, _⟩ => rfl

/-- The softmax weight at (β, h, q, k). -/
theorem attn_at (x : Act) (Wq : Mat) (bq : Bias) (Wk : Mat) (bk : Bias) (β : Fin 4) (h : Fin 16) (q k : Fin 2048) :
    val_main_v33 (F := Ideal) x Wq bq Wk bk (ix4 β h q k) = attn scale x Wq bq Wk bk β h q k := by
  rw [val_main_v33_apply, val_main_v32_apply, val_main_v31_apply, keepdims_idx', probs_at, rowsum_at]
  rfl

end Cert.ReferenceIdeal.RefValue

end
-- ==== Proof.RefOut.lean ====
/-
  The end of the reference, read at coordinates: the attention-weighted sums of the value rows, the heads laid side by
  side again (feature n of a row is lane n % 64 of head n / 64), the output projection with its bias; and the whole
  result array as the one function of the nine arguments.
-/
import proofs.«144204_j5497558139332_2_alg».proof.Proof.RefSoftmax

noncomputable section

namespace Cert.ReferenceIdeal.RefValue

open Cert.ReferenceIdeal Cert.ReferenceIdeal.Gen Cert.ReferenceIdeal.Read Idealize.ShloMosaic Idealize.ShloMosaic.ValueIdx Cert.RefSpec

theorem lidx_headout (β : Fin 4) (h : Fin 16) (q : Fin 2048) (d : Fin 64) (k : Fin 2048) :
    lidx_main_v34 (ix4 β h q d) k = ix4 β h q k := by
  funext a; match a with | ⟨0, _⟩ => rfl | ⟨1, _⟩ => rfl | ⟨2, _⟩ => rfl | ⟨3, _⟩ => rfl

theorem ridx_headout (β : Fin 4) (h : Fin 16) (q : Fin 2048) (d : Fin 64) (k : Fin 2048) :
    ridx_main_v34 (ix4 β h q d) k = ix4 β h k d := by
  funext a; match a with | ⟨0, _⟩ => rfl | ⟨1, _⟩ => rfl | ⟨2, _⟩ => rfl | ⟨3, _⟩ => rfl

/-- Lane d of head h's output for query row q: the weights of row q against column d of the value rows. -/
theorem headout_at (x : Act) (Wq : Mat) (bq : Bias) (Wk : Mat) (bk : Bias) (Wv : Mat) (bv : Bias)
    (β : Fin 4) (h : Fin 16) (q : Fin 2048) (d : Fin 64) :
    val_main_v34 (F := Ideal) x Wq bq Wk bk Wv bv (ix4 β h q d) = headout scale x Wq bq Wk bk Wv bv β h q d := by
  rw [val_main_v34_apply]
  simp only [lidx_headout, ridx_headout, attn_at, v_at]
  rfl

/-- Feature n of row (β, s) of the merged array is entry (β, n / 64, s, n % 64) of the per-head array. -/
theorem merge_idx (β : Fin 4) (s : Fin 2048) (n : Fin 1024) :
    idx_main_v35 (idx_main_v36 (ix3 β s n)) = ix4 β (headOf n) s (laneOf n) := by
  have hβ := β.isLt; have hs := s.isLt; have hn := n.isLt
  funext a; apply Fin.ext
  match a with
  | ⟨0, _⟩ => show ((β.val * 2048 + s.val) * 1024 + n.val) / 2097152 = β.val; omega
  | ⟨1, _⟩ => show ((β.val * 2048 + s.val) * 1024 + n.val) / 64 % 16 = n.val / 64; omega
  | ⟨2, _⟩ => show ((β.val * 2048 + s.val) * 1024 + n.val) / 1024 % 2048 = s.val; omega
  | ⟨3, _⟩ => show ((β.val * 2048 + s.val) * 1024 + n.val) % 64 = n.val % 64; omega

/-- The heads side by side, at row (β, s), feature n. -/
theorem merged_at (x : Act) (Wq : Mat) (bq : Bias) (Wk : Mat) (bk : Bias) (Wv : Mat) (bv : Bias)
    (β : Fin 4) (s : Fin 2048) (n : Fin 1024) :
    val_main_v36 (F := Ideal) x Wq bq Wk bk Wv bv (ix3 β s n) = merged scale x Wq bq Wk bk Wv bv β s n := by
  rw [val_main_v36_apply, val_main_v35_apply, merge_idx, headout_at]
  rfl

theorem lidx_out (β : Fin 4) (s : Fin 2048) (e n : Fin 1024) : lidx_main_v37 (ix3 β s e) n = ix3 β s n := by
  funext a; match a with | ⟨0, _⟩ => rfl | ⟨1, _⟩ => rfl | ⟨2, _⟩ => rfl

theorem ridx_out (β : Fin 4) (s : Fin 2048) (e n : Fin 1024) : ridx_main_v37 (ix3 β s e) n = ix2 e n := by
  funext a; match a with | ⟨0, _⟩ => rfl | ⟨1, _⟩ => rfl

theorem bias_idx_out (β : Fin 4) (s : Fin 2048) (e : Fin 1024) : idx_main_v38 (idx_main_v39 (ix3 β s e)) = ix1 e := by
  funext a; match a with | ⟨0, _⟩ => rfl

/-- The output projection at (β, s, e). -/
theorem out_at (x : Act) (Wq : Mat) (bq : Bias) (Wk : Mat) (bk : Bias) (Wv : Mat) (bv : Bias) (Wo : Mat) (bo : Bias)
    (β : Fin 4) (s : Fin 2048) (e : Fin 1024) :
    val_main_v40 (F := Ideal) x Wq bq Wk bk Wv bv Wo bo (ix3 β s e) = outAt scale x Wq bq Wk bk Wv bv Wo bo β s e := by
  rw [val_main_v40_apply, val_main_v37_apply, val_main_v39_apply, val_main_v38_apply]
  simp only [lidx_out, ridx_out, bias_idx_out, merged_at, Ideal.addf_def]
  rfl

/-- The reference's result array is the attention layer of its nine arguments. -/
theorem ref_eq (x : Act) (Wq : Mat) (bq : Bias) (Wk : Mat) (bk : Bias) (Wv : Mat) (bv : Bias) (Wo : Mat) (bo : Bias) :
    val_main_v40 (F := Ideal) x Wq bq Wk bk Wv bv Wo bo = out scale x Wq bq Wk bk Wv bv Wo bo := by
  funext i
  obtain ⟨β, s, e, rfl⟩ : ∃ (β : Fin 4) (s : Fin 2048) (e : Fin 1024), i = ix3 β s e := ⟨i 0, i 1, i 2, eq_ix3 i⟩
  exact out_at x Wq bq Wk bk Wv bv Wo bo β s e

end Cert.ReferenceIdeal.RefValue

end
-- ==== Proof.Algebraic.lean ====
/-
  The last claim: at the ideal instance the kernel program and the reference program, run from memories that agree on
  the nine arguments, end with equal results.

  Kernel side. The run ends with the result buffer at the last re-layout of region 2's output array. Region 2's array
  is the output projection of region 1's (re-laid), region 1's the attention of region 0's three (re-laid), region 0's
  the scaled query projection and the key and value projections of the re-laid arguments; composing these, the result
  at (β, s, e) is the layer in the kernel's arrangement (KerLayer): the scale 0.125 folded into the query projection, the
  weighted value sum divided by the softmax denominator afterwards.
  Reference side. The generated run ends with the result at the operations' composed term, which is the layer in the
  reference's arrangement (RefSpec).
  The two arrangements agree when every argument entry is a real number (distributivity of the product over the sums;
  the row sum of exponentials is a positive real), and the precondition says exactly that.
-/
import proofs.«144204_j5497558139332_2_alg».proof.Defs
import proofs.«144204_j5497558139332_2_alg».proof.Proof.KernelIdeal.Run
import proofs.«144204_j5497558139332_2_alg».proof.Proof.KernelIdeal.Relayout
import proofs.«144204_j5497558139332_2_alg».proof.Proof.KernelIdeal.ValueRegion0
import proofs.«144204_j5497558139332_2_alg».proof.Proof.KernelIdeal.ValueRegion1
import proofs.«144204_j5497558139332_2_alg».proof.Proof.KernelIdeal.ValueRegion2
import proofs.«144204_j5497558139332_2_alg».proof.Proof.LayerCompose
import proofs.«144204_j5497558139332_2_alg».proof.Proof.LayerBridge
import proofs.«144204_j5497558139332_2_alg».proof.Proof.PreFinite
import proofs.«144204_j5497558139332_2_alg».proof.Proof.RefOut
import proofs.«144204_j5497558139332_2_alg».proof.Proof.Gen.KernelIdeal
import proofs.«144204_j5497558139332_2_alg».proof.Proof.Gen.ReferenceIdeal
import proofs.«144204_j5497558139332_2_alg».proof.Proof.Gen.Pre_finite_inputs

noncomputable section

namespace Cert.Proof.Attn

open Idealize.ShloMosaic Idealize.ShloMosaic.ValueIdx Idealize.ShloMosaic.TcCoe Idealize.SL.Sem
open Cert.KernelIdeal Cert.KernelIdeal.Gen Cert.KernelIdeal.Hand

variable (m : (ℓ : Loc nD τ sig) → Buf (Elt Ideal) ℓ) (ρ : Dev nD → PrngReg) (c : Dev nD)

/-- The kernel program's result at coordinates (β, s, e): the output projection of the attention of the projections. -/
theorem kernel_value_at (β : Fin 4) (s : Fin 2048) (e : Fin 1024) :
    (Bd7 (F := Ideal) m ρ c (Proc.devRef .tc main_v16) : Cert.RefSpec.Act) (ix3 β s e)
      = Cert.KerLayer.outAt Cert.AttnLaw.rowMax (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) β s e :=
  (Bd7_main_v16 m ρ c β s e (Cert.AttnLaw.row β s) rfl).trans <|
  (congrFun ((Bd6_arr m ρ c 3).trans (final2_3 (En2 m ρ) c)) (ix2 (Cert.AttnLaw.row β s) e)).trans <|
  Cert.AttnLaw.compose _ _ _ _ _ _ _ _ _
    (En0 (F := Ideal) m ρ c main_v0) (En0 (F := Ideal) m ρ c main_v3) (En0 (F := Ideal) m ρ c main_v5)
    (En1 (F := Ideal) m ρ c main_v7) (En1 (F := Ideal) m ρ c main_v8) (En1 (F := Ideal) m ρ c main_v9)
    (En2 (F := Ideal) m ρ c main_v11) (En2 (F := Ideal) m ρ c main_v13) (En2 (F := Ideal) m ρ c main_v14)
    (fun β s e => En0_main_v0 m ρ c β s e _ rfl)
    (fun e n => En0_main_v3_q m ρ c e n _ (Nat.zero_add _)) (fun e n => En0_main_v3_k m ρ c e n _ rfl) (fun e n => En0_main_v3_v m ρ c e n _ rfl)
    (fun n => En0_main_v5_q m ρ c n _ (Nat.zero_add _)) (fun n => En0_main_v5_k m ρ c n _ rfl) (fun n => En0_main_v5_v m ρ c n _ rfl)
    (fun β s n => (En1_main_v7 m ρ c β s n _ rfl).trans (congrFun ((Bd2_arr m ρ c 3).trans (final0_3 (En0 m ρ) c)) _))
    (fun β s n => (En1_main_v8 m ρ c β s n _ rfl).trans (congrFun ((Bd2_arr m ρ c 4).trans (final0_4 (En0 m ρ) c)) _))
    (fun β s n => (En1_main_v9 m ρ c β s n _ rfl).trans (congrFun ((Bd2_arr m ρ c 5).trans (final0_5 (En0 m ρ) c)) _))
    (fun β s n => (En2_main_v11 m ρ c β s n _ rfl).trans (congrFun ((Bd4_arr m ρ c 3).trans (final1_3 (En1 m ρ) c)) _))
    (fun n e => En2_main_v13 m ρ c n e) (fun e => En2_main_v14 m ρ c e) β s e

/-- The kernel program's result array is the whole layer in the kernel's arrangement, of the argument arrays. -/
theorem kernel_value :
    (Bd7 (F := Ideal) m ρ c (Proc.devRef .tc main_v16) : Cert.RefSpec.Act)
      = Cert.KerLayer.layer Cert.AttnLaw.rowMax (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  funext fun i => by
    obtain ⟨β, s, e, rfl⟩ : ∃ (β : Fin 4) (s : Fin 2048) (e : Fin 1024), i = ix3 β s e := ⟨i 0, i 1, i 2, eq_ix3 i⟩
    exact kernel_value_at m ρ c β s e

/-- Both programs end with the reference's function of the arguments in their result buffers. -/
theorem algebraic : Cert.algebraic_KernelIdeal_ReferenceIdeal := by
  intro m ρ m' ρ' hpre hagree
  refine ⟨fun c => Cert.RefSpec.out Cert.RefSpec.scale (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)), ?_, ?_⟩
  · -- the kernel: every unscoped buffer's final contents are known; the result's is the kernel arrangement, which is
    -- the reference arrangement on real inputs
    refine (θ_run Cert.KernelIdeal.defs _ _).mono (fun r h c => ⟨?_,
      (h c _ (mem_uc main_arg0 (by decide))).trans (Bd7_main_arg0 m ρ c),
      (h c _ (mem_uc main_arg1 (by decide))).trans (Bd7_main_arg1 m ρ c),
      (h c _ (mem_uc main_arg2 (by decide))).trans (Bd7_main_arg2 m ρ c),
      (h c _ (mem_uc main_arg3 (by decide))).trans (Bd7_main_arg3 m ρ c),
      (h c _ (mem_uc main_arg4 (by decide))).trans (Bd7_main_arg4 m ρ c),
      (h c _ (mem_uc main_arg5 (by decide))).trans (Bd7_main_arg5 m ρ c),
      (h c _ (mem_uc main_arg6 (by decide))).trans (Bd7_main_arg6 m ρ c),
      (h c _ (mem_uc main_arg7 (by decide))).trans (Bd7_main_arg7 m ρ c),
      (h c _ (mem_uc main_arg8 (by decide))).trans (Bd7_main_arg8 m ρ c)⟩) (run_all (F := Ideal) m ρ)
    obtain ⟨h0, h1, h2, h3, h4, h5, h6, h7, h8⟩ := Cert.PreFinite.finite_of_pre _ _ _ _ _ _ _ _ _ (hpre c)
    refine (h c _ (mem_uc main_v16 (by decide))).trans ((kernel_value m ρ c).trans ?_)
    exact Cert.AttnLaw.layer_eq_ref _ Cert.AttnLaw.hmx_fold_max _ _ _ _ _ _ _ _ _ h0 h1 h2 h3 h4 h5 h6 h7 h8
  · -- the reference: its generated run, the result read as the specification, the arguments' agreement rewritten
    refine (θ_run Cert.ReferenceIdeal.defs _ _).mono (fun _ h c => ⟨?_, (h c).2⟩)
      (Cert.ReferenceIdeal.Value.run (F := Ideal) m' ρ')
    rw [(h c).1, Cert.ReferenceIdeal.Read.val_main_v40_eq, Cert.ReferenceIdeal.RefValue.ref_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]

end Cert.Proof.Attn

end
-- ==== Proof.lean ====
/-
  The certificate of a multi-head attention layer written as three kernel regions (a fused query/key/value projection
  with the softmax scale folded into the queries; softmax attention for a pair of heads on a tile of queries, the
  weighted value sum divided by the row sum afterwards; the output projection) against the plain reference (project,
  scale the scores, softmax, weight the values, project).

  The five claims: both kernel programs and the reference run to the end, fault nowhere and leave their arguments
  unchanged (Frames); the idealization changed nothing that needs a statement (the rewrite ledger is empty); and at the
  ideal instance, on finite inputs, the two programs end with equal results (Algebraic): both compute
  softmax(Q·Kᵀ/8)·V projected, the kernel with two products distributed differently, which is the same number
  for real inputs.
-/
import proofs.«144204_j5497558139332_2_alg».proof.Defs
import proofs.«144204_j5497558139332_2_alg».proof.Proof.Gen.Kernel
import proofs.«144204_j5497558139332_2_alg».proof.Proof.Gen.KernelIdeal
import proofs.«144204_j5497558139332_2_alg».proof.Proof.Gen.ReferenceIdeal
import proofs.«144204_j5497558139332_2_alg».proof.Proof.Gen.Pre_finite_inputs
import proofs.«144204_j5497558139332_2_alg».proof.Proof.Frames
import proofs.«144204_j5497558139332_2_alg».proof.Proof.Algebraic

noncomputable section

namespace Cert.Proof

theorem claim : Cert.Claim :=
  ⟨Cert.Kernel.Gen.facts, Cert.KernelIdeal.Gen.facts, Cert.ReferenceIdeal.Gen.facts, Cert.Pre_finite_inputs.Gen.facts,
    Frames.frame_kernel, Frames.frame_kernelIdeal, Frames.frame_referenceIdeal, Frames.preserves, Attn.algebraic⟩

end Cert.Proof

end
